-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_sigma" .f32 0x43480000#32 ((1073741824 / 5368709 : ℝ) : EReal)
  ∧ IdealRules.named_const.Statement Cert.KernelIdeal.κ "inv_sigma" .f32 0x43480000#32 ((1073741824 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x3 : Shape := ⟨3, ![2, 4096, 3]⟩
abbrev S2x4096x32 : Shape := ⟨3, ![2, 4096, 32]⟩
abbrev S2x4096x1 : Shape := ⟨3, ![2, 4096, 1]⟩
abbrev S_ : Shape := ⟨0, ![]⟩

class Facts : Prop where
  bcast_S_S2x4096x3 : S_.BroadcastsInDim S2x4096x3 (![] : Fin 0 → Fin S2x4096x3.rank)
  reducesTo_S2x4096x3_S_d0_1_2 : S2x4096x3.ReducesTo [0, 1, 2] S_
  h_S_ : 0 < S_.numel
  bcast_S_S2x4096x32 : S_.BroadcastsInDim S2x4096x32 (![] : Fin 0 → Fin S2x4096x32.rank)
  reducesTo_S2x4096x32_S_d0_1_2 : S2x4096x32.ReducesTo [0, 1, 2] S_
  bcast_S_S2x4096x1 : S_.BroadcastsInDim S2x4096x1 (![] : Fin 0 → Fin S2x4096x1.rank)
  reducesTo_S2x4096x1_S_d0_1_2 : S2x4096x1.ReducesTo [0, 1, 2] S_

variable [Facts]

def fn_part1 {F : FTy → Type} [FloatOps F] (main_v13 : IVec S_ 1) (main_v16 : IVec S2x4096x1 1) : IVec S_ 1 :=
  let main_c_5 : IVec S_ 1 := constantI S_ 1 1#1
  let main_v17 : IVec S_ 1 := (fun x v => Host.reduce IntOp.andi x v reducesTo_S2x4096x1_S_d0_1_2 h_S_) main_v16 main_c_5
  let main_v18 : IVec S_ 1 := andi main_v13 main_v17
  main_v18

def fn {F : FTy → Type} [FloatOps F] (main_arg0 : FVec F S2x4096x3 .f32) (main_arg1 : FVec F S2x4096x32 .f32) (main_arg2 : FVec F S2x4096x32 .f32) (main_arg3 : FVec F S2x4096x1 .f32) : IVec S_ 1 :=
  let main_v0 : FVec F S2x4096x3 .f32 := Host.absf main_arg0
  let main_cst : FVec F S_ .f32 := constant S_ .f32 0x7F800000#32
  let main_v1 : FVec F S2x4096x3 .f32 := broadcastInDim S2x4096x3 ![] bcast_S_S2x4096x3 main_cst
  let main_v2 : IVec S2x4096x3 1 := cmpf .olt main_v0 main_v1
  let main_c : IVec S_ 1 := constantI S_ 1 1#1
  let main_v3 : IVec S_ 1 := (fun x v => Host.reduce IntOp.andi x v reducesTo_S2x4096x3_S_d0_1_2 h_S_) main_v2 main_c
  let main_v4 : FVec F S2x4096x32 .f32 := Host.absf main_arg1
  let main_cst_0 : FVec F S_ .f32 := constant S_ .f32 0x7F800000#32
  let main_v5 : FVec F S2x4096x32 .f32 := broadcastInDim S2x4096x32 ![] bcast_S_S2x4096x32 main_cst_0
  let main_v6 : IVec S2x4096x32 1 := cmpf .olt main_v4 main_v5
  let main_c_1 : IVec S_ 1 := constantI S_ 1 1#1
  let main_v7 : IVec S_ 1 := (fun x v => Host.reduce IntOp.andi x v reducesTo_S2x4096x32_S_d0_1_2 h_S_) main_v6 main_c_1
  let main_v8 : IVec S_ 1 := andi main_v3 main_v7
  let main_v9 : FVec F S2x4096x32 .f32 := Host.absf main_arg2
  let main_cst_2 : FVec F S_ .f32 := constant S_ .f32 0x7F800000#32
  let main_v10 : FVec F S2x4096x32 .f32 := broadcastInDim S2x4096x32 ![] bcast_S_S2x4096x32 main_cst_2
  let main_v11 : IVec S2x4096x32 1 := cmpf .olt main_v9 main_v10
  let main_c_3 : IVec S_ 1 := constantI S_ 1 1#1
  let main_v12 : IVec S_ 1 := (fun x v => Host.reduce IntOp.andi x v reducesTo_S2x4096x32_S_d0_1_2 h_S_) main_v11 main_c_3
  let main_v13 : IVec S_ 1 := andi main_v8 main_v12
  let main_v14 : FVec F S2x4096x1 .f32 := Host.absf main_arg3
  let main_cst_4 : FVec F S_ .f32 := constant S_ .f32 0x7F800000#32
  let main_v15 : FVec F S2x4096x1 .f32 := broadcastInDim S2x4096x1 ![] bcast_S_S2x4096x1 main_cst_4
  let main_v16 : IVec S2x4096x1 1 := cmpf .olt main_v14 main_v15
  fn_part1 (F := F) main_v13 main_v16
-- ==== Kernel.lean ====
abbrev S2x4096x3 : Shape := ⟨3, ![2, 4096, 3]⟩
abbrev S2x4096x32 : Shape := ⟨3, ![2, 4096, 32]⟩
abbrev S2x4096x1 : Shape := ⟨3, ![2, 4096, 1]⟩
abbrev S2x3x4096 : Shape := ⟨3, ![2, 3, 4096]⟩
abbrev S2x4096 : Shape := ⟨2, ![2, 4096]⟩
abbrev S2x3x256 : Shape := ⟨3, ![2, 3, 256]⟩
abbrev S2x256x32 : Shape := ⟨3, ![2, 256, 32]⟩
abbrev S2x256x1 : Shape := ⟨3, ![2, 256, 1]⟩
abbrev S2x256 : Shape := ⟨2, ![2, 256]⟩
abbrev S2x1x256 : Shape := ⟨3, ![2, 1, 256]⟩
abbrev S2x1x4096 : Shape := ⟨3, ![2, 1, 4096]⟩
abbrev S2x256x4096 : Shape := ⟨3, ![2, 256, 4096]⟩
abbrev S_ : Shape := ⟨0, ![]⟩
abbrev S2 : Shape := ⟨1, ![2]⟩
abbrev S2x4096x29 : Shape := ⟨3, ![2, 4096, 29]⟩

abbrev nBuf : Space → Nat
  | .hbm => 23
  | .vmem => 10
  | .smem => 0
  | _ => 0

abbrev bufTy : (tb : Table) → Fin (tcTables nBuf tb) → BufTy
  | .hbm, ⟨0, _⟩ => ⟨S2x4096x3, .f32⟩
  | .hbm, ⟨1, _⟩ => ⟨S2x4096x32, .f32⟩
  | .hbm, ⟨2, _⟩ => ⟨S2x4096x32, .f32⟩
  | .hbm, ⟨3, _⟩ => ⟨S2x4096x1, .f32⟩
  | .hbm, ⟨4, _⟩ => ⟨S2x3x4096, .f32⟩
  | .hbm, ⟨5, _⟩ => ⟨S2x4096, .f32⟩
  | .hbm, ⟨6, _⟩ => ⟨S_, .f32⟩
  | .hbm, ⟨7, _⟩ => ⟨S2, .f32⟩
  | .hbm, ⟨8, _⟩ => ⟨S2x4096x29, .f32⟩
  | .hbm, ⟨9, _⟩ => ⟨S2x4096x29, .f32⟩
  | .hbm, ⟨10, _⟩ => ⟨S2x4096x29, .f32⟩
  | .hbm, ⟨11, _⟩ => ⟨S2x4096x29, .f32⟩
  | .hbm, ⟨12, _⟩ => ⟨S2x4096x29, .f32⟩
  | .hbm, ⟨13, _⟩ => ⟨S_, .f32⟩
  | .hbm, ⟨14, _⟩ => ⟨S2x4096, .f32⟩
  | .hbm, ⟨15, _⟩ => ⟨S_, .f32⟩
  | .hbm, ⟨16, _⟩ => ⟨S2x4096, .f32⟩
  | .hbm, ⟨17, _⟩ => ⟨S2x4096, .f32⟩
  | .hbm, ⟨18, _⟩ => ⟨S_, .f32⟩
  | .hbm, ⟨19, _⟩ => ⟨S2, .f32⟩
  | .hbm, ⟨20, _⟩ => ⟨S_, .f32⟩
  | .hbm, ⟨21, _⟩ => ⟨S2, .f32⟩
  | .hbm, ⟨22, _⟩ => ⟨S2, .f32⟩
  | .local _ .vmem, ⟨0, _⟩ => ⟨S2x3x256, .f32⟩
  | .local _ .vmem, ⟨1, _⟩ => ⟨S2x3x256, .f32⟩
  | .local _ .vmem, ⟨2, _⟩ => ⟨S2x3x4096, .f32⟩
  | .local _ .vmem, ⟨3, _⟩ => ⟨S2x256x32, .f32⟩
  | .local _ .vmem, ⟨4, _⟩ => ⟨S2x256x32, .f32⟩
  | .local _ .vmem, ⟨5, _⟩ => ⟨S2x4096x32, .f32⟩
  | .local _ .vmem, ⟨6, _⟩ => ⟨S2x256x1, .f32⟩
  | .local _ .vmem, ⟨7, _⟩ => ⟨S2x256x1, .f32⟩
  | .local _ .vmem, ⟨8, _⟩ => ⟨S2x256, .f32⟩
  | .local _ .vmem, ⟨9, _⟩ => ⟨S2x256, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x4096x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S2x4096x3_S2x3x4096_0_2_1 : S2x4096x3.Transposes [0, 2, 1] S2x3x4096
  inb_S2x3x256_S2x3x256_0_0_0 : ∀ a, (![0, 0, 0] : Fin 3 → Nat) a + S2x3x256.size a ≤ S2x3x256.size a
  h_S2x3x256 : 0 < S2x3x256.numel
  shapeCasts_S2x3x256_S2x3x256 : S2x3x256.ShapeCasts S2x3x256
  inb_S2x3x4096_S2x3x4096_0_0_0 : ∀ a, (![0, 0, 0] : Fin 3 → Nat) a + S2x3x4096.size a ≤ S2x3x4096.size a
  h_S2x3x4096 : 0 < S2x3x4096.numel
  shapeCasts_S2x3x4096_S2x3x4096 : S2x3x4096.ShapeCasts S2x3x4096
  slices_S2x3x256_o0_0_0_S2x1x256 : S2x3x256.Slices ![0, 0, 0] S2x1x256
  shapeCasts_S2x1x256_S2x256 : S2x1x256.ShapeCasts S2x256
  shapeCasts_S2x256_S2x256x1 : S2x256.ShapeCasts S2x256x1
  slices_S2x3x4096_o0_0_0_S2x1x4096 : S2x3x4096.Slices ![0, 0, 0] S2x1x4096
  shapeCasts_S2x1x4096_S2x4096 : S2x1x4096.ShapeCasts S2x4096
  shapeCasts_S2x4096_S2x1x4096 : S2x4096.ShapeCasts S2x1x4096
  broadcasts_S2x256x1_S2x256x4096 : S2x256x1.Broadcasts S2x256x4096
  broadcasts_S2x1x4096_S2x256x4096 : S2x1x4096.Broadcasts S2x256x4096
  slices_S2x3x256_o0_1_0_S2x1x256 : S2x3x256.Slices ![0, 1, 0] S2x1x256
  slices_S2x3x4096_o0_1_0_S2x1x4096 : S2x3x4096.Slices ![0, 1, 0] S2x1x4096
  slices_S2x3x256_o0_2_0_S2x1x256 : S2x3x256.Slices ![0, 2, 0] S2x1x256
  slices_S2x3x4096_o0_2_0_S2x1x4096 : S2x3x4096.Slices ![0, 2, 0] S2x1x4096
  inb_S2x256x32_S2x256x32_0_0_0 : ∀ a, (![0, 0, 0] : Fin 3 → Nat) a + S2x256x32.size a ≤ S2x256x32.size a
  h_S2x256x32 : 0 < S2x256x32.numel
  inb_S2x4096x32_S2x4096x32_0_0_0 : ∀ a, (![0, 0, 0] : Fin 3 → Nat) a + S2x4096x32.size a ≤ S2x4096x32.size a
  h_S2x4096x32 : 0 < S2x4096x32.numel
  reduces_S2x256x32_S2x256 : S2x256x32.Reduces [2] S2x256
  reduces_S2x4096x32_S2x4096 : S2x4096x32.Reduces [2] S2x4096
  reduces_S2x256x4096_S2x256 : S2x256x4096.Reduces [2] S2x256
  inb_S2x256x1_S2x256x1_0_0_0 : ∀ a, (![0, 0, 0] : Fin 3 → Nat) a + S2x256x1.size a ≤ S2x256x1.size a
  h_S2x256x1 : 0 < S2x256x1.numel
  shapeCasts_S2x256x1_S2x256 : S2x256x1.ShapeCasts S2x256
  inb_S2x256_S2x256_0_0 : ∀ a, (![0, 0] : Fin 2 → Nat) a + S2x256.size a ≤ S2x256.size a
  h_S2x256 : 0 < S2x256.numel
  reducesTo_S2x4096_S2_d1 : S2x4096.ReducesTo [1] S2
  h_S_ : 0 < S_.numel
  slices_S2x4096x32_S2x4096x29_0_0_3 : S2x4096x32.Slices ![0, 0, 3] S2x4096x29
  reducesTo_S2x4096x29_S2x4096_d2 : S2x4096x29.ReducesTo [2] S2x4096
  bcast_S_S2x4096 : S_.BroadcastsInDim S2x4096 (![] : Fin 0 → Fin S2x4096.rank)
  bcast_S_S2 : S_.BroadcastsInDim S2 (![] : Fin 0 → Fin S2.rank)
  dot_S2x256x32_S2x4096x32_S2x256x4096_2_2_1_1_0_0_wf : DotDims.WF S2x256x32 S2x4096x32 S2x256x4096 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3x256.size a ≤ S2x3x4096.size a
  hwx0_0 : ∀ i : grid0.Coords, EltTy.bits .f32 = 32 ∨ (Rect.block (s := S2x3x4096) S2x3x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x3x4096.size a ≤ S2x3x4096.size a
  hwx0_1 : ∀ i : grid0.Coords, EltTy.bits .f32 = 32 ∨ (Rect.block (s := S2x3x4096) S2x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x32.size a ≤ S2x4096x32.size a
  hwx0_2 : ∀ i : grid0.Coords, EltTy.bits .f32 = 32 ∨ (Rect.block (s := S2x4096x32) S2x256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x4096x32.size a ≤ S2x4096x32.size a
  hwx0_3 : ∀ i : grid0.Coords, EltTy.bits .f32 = 32 ∨ (Rect.block (s := S2x4096x32) S2x4096x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x256x1.size a ≤ S2x4096x1.size a
  hwx0_4 : ∀ i : grid0.Coords, EltTy.bits .f32 = 32 ∨ (Rect.block (s := S2x4096x1) S2x256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x256.size a ≤ S2x4096.size a
  hwx0_5 : ∀ i : grid0.Coords, EltTy.bits .f32 = 32 ∨ (Rect.block (s := S2x4096) S2x256.size (cc0_transform_5 i) (hinb0_5 i)).WholeWords (EltTy.packing .f32)

variable [Facts₀]

def dot_S2x256x32_S2x4096x32_S2x256x4096_2_2_1_1_0_0 : DotDims S2x256x32 S2x4096x32 S2x256x4096 where
  lhsContracting := [2]
  rhsContracting := [2]
  lhsNonContracting := [1]
  rhsNonContracting := [1]
  lhsBatch := [0]
  rhsBatch := [0]
  wf := dot_S2x256x32_S2x4096x32_S2x256x4096_2_2_1_1_0_0_wf

abbrev win0_0 : Pipeline.Window sig grid0 :=
  Pipeline.Window.ofSpec (Memref.whole main_v0) S2x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x3x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2x256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2x4096x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2x256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4096x3 : Shape := ⟨3, ![2, 4096, 3]⟩
abbrev S2x4096x32 : Shape := ⟨3, ![2, 4096, 32]⟩
abbrev S2x4096x1 : Shape := ⟨3, ![2, 4096, 1]⟩
abbrev S_ : Shape := ⟨0, ![]⟩
abbrev S2x4096 : Shape := ⟨2, ![2, 4096]⟩
abbrev S2x4096x4096 : Shape := ⟨3, ![2, 4096, 4096]⟩
abbrev S2x1x4096 : Shape := ⟨3, ![2, 1, 4096]⟩
abbrev S2 : Shape := ⟨1, ![2]⟩
abbrev S2x4096x29 : Shape := ⟨3, ![2, 4096, 29]⟩

abbrev nBuf : Space → Nat
  | .hbm => 95
  | .vmem => 0
  | .smem => 0
  | _ => 0

abbrev bufTy : (tb : Table) → Fin (tcTables nBuf tb) → BufTy
  | .hbm, ⟨0, _⟩ => ⟨S2x4096x3, .f32⟩
  | .hbm, ⟨1, _⟩ => ⟨S2x4096x32, .f32⟩
  | .hbm, ⟨2, _⟩ => ⟨S2x4096x32, .f32⟩
  | .hbm, ⟨3, _⟩ => ⟨S2x4096x1, .f32⟩
  | .hbm, ⟨4, _⟩ => ⟨S_, .f32⟩
  | .hbm, ⟨5, _⟩ => ⟨S2x4096x3, .f32⟩
  | .hbm, ⟨6, _⟩ => ⟨S2x4096x3, .f32⟩
  | .hbm, ⟨7, _⟩ => ⟨S2x4096x3, .f32⟩
  | .hbm, ⟨8, _⟩ => ⟨S_, .f32⟩
  | .hbm, ⟨9, _⟩ => ⟨S2x4096, .f32⟩
  | .hbm, ⟨10, _⟩ => ⟨S2x4096x3, .f32⟩
  | .hbm, ⟨11, _⟩ => ⟨S_, .f32⟩
  | .hbm, ⟨12, _⟩ => ⟨S2x4096, .f32⟩
  | .hbm, ⟨13, _⟩ => ⟨S2x4096x4096, .f32⟩
  | .hbm, ⟨14, _⟩ => ⟨S2x4096x1, .f32⟩
  | .hbm, ⟨15, _⟩ => ⟨S2x1x4096, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S_, .f32⟩
  | .hbm, ⟨20, _⟩ => ⟨S2x4096x4096, .f32⟩
  | .hbm, ⟨21, _⟩ => ⟨S2x4096x4096, .f32⟩
  | .hbm, ⟨22, _⟩ => ⟨S2x4096x4096, .f32⟩
  | .hbm, ⟨23, _⟩ => ⟨S2x4096x4096, .f32⟩
  | .hbm, ⟨24, _⟩ => ⟨S_, .f32⟩
  | .hbm, ⟨25, _⟩ => ⟨S2x4096, .f32⟩
  | .hbm, ⟨26, _⟩ => ⟨S_, .f32⟩
  | .hbm, ⟨27, _⟩ => ⟨S2x4096, .f32⟩
  | .hbm, ⟨28, _⟩ => ⟨S2x4096, .f32⟩
  | .hbm, ⟨29, _⟩ => ⟨S2x4096x1, .f32⟩
  | .hbm, ⟨30, _⟩ => ⟨S2x4096x4096, .f32⟩
  | .hbm, ⟨31, _⟩ => ⟨S2x4096x4096, .f32⟩
  | .hbm, ⟨32, _⟩ => ⟨S2x4096x4096, .f32⟩
  | .hbm, ⟨33, _⟩ => ⟨S_, .f32⟩
  | .hbm, ⟨34, _⟩ => ⟨S2x4096, .f32⟩
  | .hbm, ⟨35, _⟩ => ⟨S2x4096x1, .f32⟩
  | .hbm, ⟨36, _⟩ => ⟨S2x4096x1, .f32⟩
  | .hbm, ⟨37, _⟩ => ⟨S2x4096x4096, .f32⟩
  | .hbm, ⟨38, _⟩ => ⟨S2x4096x4096, .f32⟩
  | .hbm, ⟨39, _⟩ => ⟨S2x4096x32, .f32⟩
  | .hbm, ⟨40, _⟩ => ⟨S_, .f32⟩
  | .hbm, ⟨41, _⟩ => ⟨S2x4096, .f32⟩
  | .hbm, ⟨42, _⟩ => ⟨S2x4096x32, .f32⟩
  | .hbm, ⟨43, _⟩ => ⟨S_, .f32⟩
  | .hbm, ⟨44, _⟩ => ⟨S2x4096, .f32⟩
  | .hbm, ⟨45, _⟩ => ⟨S2x4096x4096, .f32⟩
  | .hbm, ⟨46, _⟩ => ⟨S2x4096x1, .f32⟩
  | .hbm, ⟨47, _⟩ => ⟨S2x1x4096, .f32⟩
  | .hbm, ⟨48, _⟩ => ⟨S2x4096x4096, .f32⟩
  | .hbm, ⟨49, _⟩ => ⟨S2x4096x4096, .f32⟩
  | .hbm, ⟨50, _⟩ => ⟨S2x4096x4096, .f32⟩
  | .hbm, ⟨51, _⟩ => ⟨S_, .f32⟩
  | .hbm, ⟨52, _⟩ => ⟨S2x4096x4096, .f32⟩
  | .hbm, ⟨53, _⟩ => ⟨S2x4096x4096, .f32⟩
  | .hbm, ⟨54, _⟩ => ⟨S2x4096x4096, .f32⟩
  | .hbm, ⟨55, _⟩ => ⟨S2x4096x4096, .f32⟩
  | .hbm, ⟨56, _⟩ => ⟨S_, .f32⟩
  | .hbm, ⟨57, _⟩ => ⟨S2x4096, .f32⟩
  | .hbm, ⟨58, _⟩ => ⟨S_, .f32⟩
  | .hbm, ⟨59, _⟩ => ⟨S2x4096, .f32⟩
  | .hbm, ⟨60, _⟩ => ⟨S2x4096, .f32⟩
  | .hbm, ⟨61, _⟩ => ⟨S2x4096x1, .f32⟩
  | .hbm, ⟨62, _⟩ => ⟨S2x4096x4096, .f32⟩
  | .hbm, ⟨63, _⟩ => ⟨S2x4096x4096, .f32⟩
  | .hbm, ⟨64, _⟩ => ⟨S2x4096x4096, .f32⟩
  | .hbm, ⟨65, _⟩ => ⟨S_, .f32⟩
  | .hbm, ⟨66, _⟩ => ⟨S2x4096, .f32⟩
  | .hbm, ⟨67, _⟩ => ⟨S2x4096x1, .f32⟩
  | .hbm, ⟨68, _⟩ => ⟨S2x4096x1, .f32⟩
  | .hbm, ⟨69, _⟩ => ⟨S2x4096x4096, .f32⟩
  | .hbm, ⟨70, _⟩ => ⟨S2x4096x4096, .f32⟩
  | .hbm, ⟨71, _⟩ => ⟨S2x4096x4096, .f32⟩
  | .hbm, ⟨72, _⟩ => ⟨S2x4096x4096, .f32⟩
  | .hbm, ⟨73, _⟩ => ⟨S_, .f32⟩
  | .hbm, ⟨74, _⟩ => ⟨S2x4096, .f32⟩
  | .hbm, ⟨75, _⟩ => ⟨S2x4096, .f32⟩
  | .hbm, ⟨76, _⟩ => ⟨S2x4096, .f32⟩
  | .hbm, ⟨77, _⟩ => ⟨S2x4096, .f32⟩
  | .hbm, ⟨78, _⟩ => ⟨S_, .f32⟩
  | .hbm, ⟨79, _⟩ => ⟨S2, .f32⟩
  | .hbm, ⟨80, _⟩ => ⟨S2x4096x29, .f32⟩
  | .hbm, ⟨81, _⟩ => ⟨S2x4096x29, .f32⟩
  | .hbm, ⟨82, _⟩ => ⟨S2x4096x29, .f32⟩
  | .hbm, ⟨83, _⟩ => ⟨S2x4096x29, .f32⟩
  | .hbm, ⟨84, _⟩ => ⟨S2x4096x29, .f32⟩
  | .hbm, ⟨85, _⟩ => ⟨S_, .f32⟩
  | .hbm, ⟨86, _⟩ => ⟨S2x4096, .f32⟩
  | .hbm, ⟨87, _⟩ => ⟨S_, .f32⟩
  | .hbm, ⟨88, _⟩ => ⟨S2x4096, .f32⟩
  | .hbm, ⟨89, _⟩ => ⟨S2x4096, .f32⟩
  | .hbm, ⟨90, _⟩ => ⟨S_, .f32⟩
  | .hbm, ⟨91, _⟩ => ⟨S2, .f32⟩
  | .hbm, ⟨92, _⟩ => ⟨S_, .f32⟩
  | .hbm, ⟨93, _⟩ => ⟨S2, .f32⟩
  | .hbm, ⟨94, _⟩ => ⟨S2, .f32⟩
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_call0_cst_0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_cst_1 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call1_cst : Ref sig .tc := ⟨.hbm, 56, rfl⟩
abbrev main_call1_v0 : Ref sig .tc := ⟨.hbm, 57, rfl⟩
abbrev main_call1_cst_0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_cst_1 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_6 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_7 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_8 : Ref sig .tc := ⟨.hbm, 85, rfl⟩
abbrev main_v44 : Ref sig .tc := ⟨.hbm, 86, rfl⟩
abbrev main_cst_9 : Ref sig .tc := ⟨.hbm, 87, rfl⟩
abbrev main_v45 : Ref sig .tc := ⟨.hbm, 88, rfl⟩
abbrev main_v46 : Ref sig .tc := ⟨.hbm, 89, rfl⟩
abbrev main_cst_10 : Ref sig .tc := ⟨.hbm, 90, rfl⟩
abbrev main_v47 : Ref sig .tc := ⟨.hbm, 91, rfl⟩
abbrev main_cst_11 : Ref sig .tc := ⟨.hbm, 92, rfl⟩
abbrev main_v48 : Ref sig .tc := ⟨.hbm, 93, rfl⟩
abbrev main_v49 : Ref sig .tc := ⟨.hbm, 94, rfl⟩

abbrev nD : Nat := 1
abbrev τ : Topo := Topo.v7x

variable {F : FTy → Type} [FloatOps F]

class Facts₀ : Prop where
  bcast_S_S2x4096x3 : S_.BroadcastsInDim S2x4096x3 (![] : Fin 0 → Fin S2x4096x3.rank)
  reducesTo_S2x4096x3_S2x4096_d2 : S2x4096x3.ReducesTo [2] S2x4096
  h_S_ : 0 < S_.numel
  bcast_S2x4096_S2x4096x1_0_1 : S2x4096.BroadcastsInDim S2x4096x1 (![0, 1] : Fin 2 → Fin S2x4096x1.rank)
  bcast_S2x4096_S2x1x4096_0_2 : S2x4096.BroadcastsInDim S2x1x4096 (![0, 2] : Fin 2 → Fin S2x1x4096.rank)
  bcast_S2x4096x1_S2x4096x4096_0_1_2 : S2x4096x1.BroadcastsInDim S2x4096x4096 (![0, 1, 2] : Fin 3 → Fin S2x4096x4096.rank)
  bcast_S2x1x4096_S2x4096x4096_0_1_2 : S2x1x4096.BroadcastsInDim S2x4096x4096 (![0, 1, 2] : Fin 3 → Fin S2x4096x4096.rank)
  bcast_S_S2x4096x4096 : S_.BroadcastsInDim S2x4096x4096 (![] : Fin 0 → Fin S2x4096x4096.rank)
  reducesTo_S2x4096x4096_S2x4096_d2 : S2x4096x4096.ReducesTo [2] S2x4096
  bcast_S_S2x4096 : S_.BroadcastsInDim S2x4096 (![] : Fin 0 → Fin S2x4096.rank)
  reducesTo_S2x4096x32_S2x4096_d2 : S2x4096x32.ReducesTo [2] S2x4096
  shapeCasts_S2x4096x1_S2x4096 : S2x4096x1.ShapeCasts S2x4096
  reducesTo_S2x4096_S2_d1 : S2x4096.ReducesTo [1] S2
  slices_S2x4096x32_S2x4096x29_0_0_3 : S2x4096x32.Slices ![0, 0, 3] S2x4096x29
  reducesTo_S2x4096x29_S2x4096_d2 : S2x4096x29.ReducesTo [2] S2x4096
  bcast_S_S2 : S_.BroadcastsInDim S2 (![] : Fin 0 → Fin S2.rank)
  dot_S2x4096x3_S2x4096x3_S2x4096x4096_2_2_1_1_0_0_wf : DotDims.WF S2x4096x3 S2x4096x3 S2x4096x4096 [2] [2] [1] [1] [0] [0]
  dot_S2x4096x32_S2x4096x32_S2x4096x4096_2_2_1_1_0_0_wf : DotDims.WF S2x4096x32 S2x4096x32 S2x4096x4096 [2] [2] [1] [1] [0] [0]

variable [Facts₀]

def dot_S2x4096x3_S2x4096x3_S2x4096x4096_2_2_1_1_0_0 : DotDims S2x4096x3 S2x4096x3 S2x4096x4096 where
  lhsContracting := [2]
  rhsContracting := [2]
  lhsNonContracting := [1]
  rhsNonContracting := [1]
  lhsBatch := [0]
  rhsBatch := [0]
  wf := dot_S2x4096x3_S2x4096x3_S2x4096x4096_2_2_1_1_0_0_wf
def dot_S2x4096x32_S2x4096x32_S2x4096x4096_2_2_1_1_0_0 : DotDims S2x4096x32 S2x4096x32 S2x4096x4096 where
  lhsContracting := [2]
  rhsContracting := [2]
  lhsNonContracting := [1]
  rhsNonContracting := [1]
  lhsBatch := [0]
  rhsBatch := [0]
  wf := dot_S2x4096x32_S2x4096x32_S2x4096x4096_2_2_1_1_0_0_wf

class Facts : Prop extends Facts₀ where

variable [Facts]
-- ==== Proof.KbBody.lean ====
/-
  The kernel body as a step of the pipeline: run on six whole staging buffers — the query block of the points, the whole
  point array, the query block of the first features, the whole second feature array, the query block of the weights,
  and the output block — it reads the five inputs, leaves them as they were, and overwrites the whole output block with
  one value, the weighted cross terms of the block's 2 × 256 query points computed from what was read.
-/
import proofs.«142151_j9474697855457_2_alg».proof.Proof.Gen.Kernel.Launch
import proofs.«142151_j9474697855457_2_alg».proof.Proof.Gen.Kernel.Skeleton
import proofs.«142151_j9474697855457_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each a whole buffer -/

abbrev rectQ : Rect S2x3x256 := Rect.unit (s := S2x3x256) ![0, 0, 0] S2x3x256.size inb_S2x3x256_S2x3x256_0_0_0
abbrev rectK : Rect S2x3x4096 := Rect.unit (s := S2x3x4096) ![0, 0, 0] S2x3x4096.size inb_S2x3x4096_S2x3x4096_0_0_0
abbrev rectA : Rect S2x256x32 := Rect.unit (s := S2x256x32) ![0, 0, 0] S2x256x32.size inb_S2x256x32_S2x256x32_0_0_0
abbrev rectB : Rect S2x4096x32 := Rect.unit (s := S2x4096x32) ![0, 0, 0] S2x4096x32.size inb_S2x4096x32_S2x4096x32_0_0_0
abbrev rectW : Rect S2x256x1 := Rect.unit (s := S2x256x1) ![0, 0, 0] S2x256x1.size inb_S2x256x1_S2x256x1_0_0_0
abbrev rectO : Rect S2x256 := Rect.unit (s := S2x256) ![0, 0] S2x256.size inb_S2x256_S2x256_0_0

/-- What the body leaves in the output block, from the five input buffers: its one store, of the weighted cross terms. -/
def outBlock (xq : Vec F S2x3x256 .f32) (xk : Vec F S2x3x4096 .f32) (xa : Vec F S2x256x32 .f32) (xb : Vec F S2x4096x32 .f32)
    (xw : Vec F S2x256x1 .f32) : Vec F S2x256 .f32 :=
  View.canon [⟨rectO, k0_pay1 (View.ld xw rectW) (k0_pay3 (k0_pay2 (View.ld xq rectQ) (View.ld xk rectK)) (View.ld xa rectA) (View.ld xb rectB))⟩]

/-- The one store covers the output block. -/
theorem cover_out (p0 : Vec F S2x256 .f32) (y : S2x256.Idx) :
    ∃ pc ∈ ([⟨rectO, p0⟩] : List (View.Piece (Elt F) S2x256 .f32)), y ∈ pc.1.set :=
  View.cover_of_tiled [⟨rectO, p0⟩] S2x256.size (by rfl) y

set_option maxHeartbeats 2000000 in
/-- The body on whole buffers: the inputs at contents `x·`, the output at anything; it ends with the inputs as they were
    and the output at `outBlock` of the inputs. -/
theorem sound_kernel (c : Dev nD) (E : Set ℕ) (i : grid0.Coords)
    (arg1 : Memref sig .tc .vmem S2x3x256 .f32) (harg1 : arg1.IsWhole) (arg2 : Memref sig .tc .vmem S2x3x4096 .f32) (harg2 : arg2.IsWhole)
    (arg3 : Memref sig .tc .vmem S2x256x32 .f32) (harg3 : arg3.IsWhole) (arg4 : Memref sig .tc .vmem S2x4096x32 .f32) (harg4 : arg4.IsWhole)
    (arg5 : Memref sig .tc .vmem S2x256x1 .f32) (harg5 : arg5.IsWhole) (arg6 : Memref sig .tc .vmem S2x256 .f32) (harg6 : arg6.IsWhole)
    (xq : Vec F S2x3x256 .f32) (xk : Vec F S2x3x4096 .f32) (xa : Vec F S2x256x32 .f32) (xb : Vec F S2x4096x32 .f32) (xw : Vec F S2x256x1 .f32)
    (K : PUnit → sProp 𝕄) :
    iprop(owns (c : Thread nD τ) arg1 fullShare xq ∗ owns (c : Thread nD τ) arg2 fullShare xk ∗ owns (c : Thread nD τ) arg3 fullShare xa
        ∗ owns (c : Thread nD τ) arg4 fullShare xb ∗ owns (c : Thread nD τ) arg5 fullShare xw ∗ (∃ d, owns (c : Thread nD τ) arg6 fullShare d)
        ∗ (iprop(owns (c : Thread nD τ) arg1 fullShare xq ∗ owns (c : Thread nD τ) arg2 fullShare xk ∗ owns (c : Thread nD τ) arg3 fullShare xa
            ∗ owns (c : Thread nD τ) arg4 fullShare xb ∗ owns (c : Thread nD τ) arg5 fullShare xw
            ∗ owns (c : Thread nD τ) arg6 fullShare (outBlock xq xk xa xb xw)) -∗ K ⟨⟩))
      ⊢ wp frame (wpE (defs₀ (F := F)) Variants.none c none) E
          (cc0__loss_kernel i arg1 harg1 arg2 harg2 arg3 harg3 arg4 harg4 arg5 harg5 arg6 harg6) K := by
  simp only [cc0__loss_kernel_eq_skeleton]; unfold cc0__loss_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover_out _)

end Cert.Kernel.Hand

end
-- ==== Proof.KbData.lean ====
/-
  The pipeline's proof data: the arrays as the region finds them (the transposed points after the one host line before
  the region, the three remaining arguments as launched), every input window's staging buffer at its block of its array
  at every grid point — fetched there or kept from the point before —, the output window's at the body's result of those
  blocks; and the body's obligation to the pipeline at every point.  The transposed point array is read through TWO
  windows (the query block and the whole array): each holds half of it.
-/
import proofs.«142151_j9474697855457_2_alg».proof.Proof.KbBody
import Idealize.ShloMosaic.Lib.Pipeline.FrameSuffix
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at launch and when the region is entered -/

/-- Core `c`'s buffers at launch. -/
abbrev W0 (c : Dev nD) : Valuation τ sig (Elt F) := fun b => m (c, b)
/-- After the host line before the region (the transpose of the points). -/
abbrev W1 (c : Dev nD) : Valuation τ sig (Elt F) := StableHlo.after hostOps0 (W0 m c)
/-- The same read at the TensorCore's references. -/
abbrev V1 (c : Dev nD) (b : Ref sig .tc) : Buf (Elt F) ((c : Thread nD τ).loc b) := W1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- The proof data on core `c`. -/
def dat (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dat m c).A w = V1 m c (Pipeline.arrRef spec0 w) := by
  dsimp only [dat]

theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]
theorem after5 (c : Dev nD) (t : Fin cfg0.N) :
    (dat m c).after 5 t = outBlock (iblk m c 0 t) (iblk m c 1 t) (iblk m c 2 t) (iblk m c 3 t) (iblk m c 4 t) := by dsimp only [dat]

/-! ## Every input's staging buffer holds its block when the body runs, fetched at that point or not -/

theorem before0 (c : Dev nD) (t : Fin cfg0.N) (d) : (dat m c).before 0 t d = iblk m c 0 t :=
  ((dat m c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dat m c).before 1 t d = iblk m c 1 t :=
  ((dat m c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dat m c).before 2 t d = iblk m c 2 t :=
  ((dat m c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dat m c).before 3 t d = iblk m c 3 t :=
  ((dat m c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dat m c).before 4 t d = iblk m c 4 t :=
  ((dat m c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)

/-! ## The body's obligation, at a generic point -/

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d)))

/-- and what it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dat m c).Φ t.succ = (dat m c).Φ t.castSucc from rfl,
    show (dat m c).owesAt () t.succ = (dat m c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) m c) (defs₀ (F := F)) Variants.none () Set.univ := fun t => by
  rw [bigSep_W0, bigSep_W0]
  exact sound_body m c t

end Cert.Kernel.Hand

end
-- ==== Proof.KbRun.lean ====
/-
  The run of @main: the host line before the region, the region, the host lines after it, composed segment by segment.
  Between segments a core holds every unscoped buffer whole at known contents: the launch contents, then the transpose
  written, then the region's output array at what its write-backs leave, then the closing host lines' results.  Entering
  the region the transposed point array is split in two halves, one for each of the two windows that read it; leaving it
  the halves, both still at the entry contents, are joined again.
-/
import proofs.«142151_j9474697855457_2_alg».proof.Proof.KbData
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.SL.BI (bigSepL bigSep_eq_bigSepL_of_eq)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents after the region and at the end -/

/-- After the region: the output array at what the write-backs leave, every other buffer as entered. -/
def W2 (c : Dev nD) : Valuation τ sig (Elt F) :=
  Function.update (W1 m c) (Proc.devRef .tc main_v1) ((dat m c).arrAt 5 cfg0.N)
/-- At the end: the closing host lines have run. -/
abbrev W3 (c : Dev nD) : Valuation τ sig (Elt F) := StableHlo.after hostOps1 (W2 m c)

theorem W2_out (c : Dev nD) : W2 m c (Proc.devRef .tc main_v1) = (dat m c).arrAt 5 cfg0.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..

/-! ## The arrays, window by window, and the buffers behind them -/

theorem share0 (c : Dev nD) : (dat m c).share 0 = fullShare.left := rfl
theorem share1 (c : Dev nD) : (dat m c).share 1 = fullShare.right := rfl
theorem share2 (c : Dev nD) : (dat m c).share 2 = fullShare := rfl
theorem share3 (c : Dev nD) : (dat m c).share 3 = fullShare := rfl
theorem share4 (c : Dev nD) : (dat m c).share 4 = fullShare := rfl
theorem share5 (c : Dev nD) : (dat m c).share 5 = fullShare := rfl

/-- The pipeline's arrays, each a whole buffer at its window's share. -/
theorem arrays_whole (c : Dev nD) (G : (w : Fin cfg0.W) → Buf (Elt F) ((cfg0.win w).arr.view.loc (c : Thread nD τ))) :
    ((dat m c).arrays G : sProp 𝕄)
      = bigSep Finset.univ fun w => (((c : Thread nD τ).loc (Pipeline.arrRef spec0 w)) ↦{(dat m c).share w} G w : sProp 𝕄) := by
  unfold Dat.arrays
  exact bigSep_congr fun w _ => by rw [(arr_whole0 w).set_eq_univ]

/-- The same as a chain: the transposed points twice, at the two halves. -/
theorem arrays_chain (c : Dev nD) (G : (w : Fin cfg0.W) → Buf (Elt F) ((cfg0.win w).arr.view.loc (c : Thread nD τ))) :
    ((dat m c).arrays G : sProp 𝕄)
      = iprop((((c : Thread nD τ).loc (Pipeline.arrRef spec0 0)) ↦{fullShare.left} G 0)
          ∗ (((c : Thread nD τ).loc (Pipeline.arrRef spec0 1)) ↦{fullShare.right} G 1)
          ∗ (((c : Thread nD τ).loc (Pipeline.arrRef spec0 2)) ↦{fullShare} G 2)
          ∗ (((c : Thread nD τ).loc (Pipeline.arrRef spec0 3)) ↦{fullShare} G 3)
          ∗ (((c : Thread nD τ).loc (Pipeline.arrRef spec0 4)) ↦{fullShare} G 4)
          ∗ (((c : Thread nD τ).loc (Pipeline.arrRef spec0 5)) ↦{fullShare} G 5)) := by
  rw [arrays_whole, bigSep_W0, share0, share1, share2, share3, share4, share5]

/-- The distinct buffers behind the arrays, listed. -/
theorem arrBufs_chain (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_arg1) ↦{fullShare} V main_arg1)
          ∗ (((c : Thread nD τ).loc main_arg2) ↦{fullShare} V main_arg2) ∗ (((c : Thread nD τ).loc main_arg3) ↦{fullShare} V main_arg3)
          ∗ (((c : Thread nD τ).loc main_v1) ↦{fullShare} V main_v1)) := by
  unfold Pipeline.arrBufs
  exact bigSep_eq_bigSepL_of_eq [main_v0, main_arg1, main_arg2, main_arg3, main_v1] (by decide) (by decide) _

/-- Entering the region: every unscoped buffer at the entry contents is the pipeline's arrays at those contents — the
    transposed points split in two halves — and the buffers that are no array. -/
theorem entry_split (c : Dev nD) :
    (StableHlo.held (c : Thread nD τ) (Pipeline.ucRefs τ sig) (W1 m c) : sProp 𝕄)
      ⊢ iprop((dat m c).arrays ((dat m c).arrAt · 0)
          ∗ Pipeline.unscopedRest (Ix := Unit) (Name := ℕ) (U := UR sig nD τ) (Lvl := ℕ) spec0 c (V1 m c)) := by
  rw [← Pipeline.unscopedBufs_held (Ix := Unit) (Name := ℕ) (U := UR sig nD τ) (Lvl := ℕ) c (W1 m c),
    Pipeline.unscopedBufs_split₀ cfgs (0 : Fin 1) winFacts₀0.arr_unscoped c (V1 m c), arrBufs_chain, arrays_chain]
  iintro ⟨⟨Hv0, H1, H2, H3, Hv1⟩, Hrest⟩
  ihave Hs := (pointsTo_share (PosShare.mem_left_op_right fullShare)).1 $$ Hv0
  icases Hs with ⟨Hl, Hr⟩
  isplitr [Hrest]; swap; · iexact Hrest
  isplitl [Hl]; · iexact Hl
  isplitl [Hr]; · iexact Hr
  isplitl [H1]; · iexact H1
  isplitl [H2]; · iexact H2
  isplitl [H3]; · iexact H3
  iexact Hv1

/-- Leaving the region: the arrays at their final contents — every input as entered, the two halves of the transposed
    points joined — and the buffers that are no array are every unscoped buffer at the exit contents. -/
theorem exit_join (c : Dev nD) :
    iprop((dat m c).arrays ((dat m c).arrAt · cfg0.N)
        ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  have hrest : (Pipeline.unscopedRest (Ix := Unit) (Name := ℕ) (U := UR sig nD τ) (Lvl := ℕ) spec0 c (V1 m c) : sProp 𝕄)
      = Pipeline.unscopedRest spec0 c (fun b => W2 m c (Proc.devRef .tc b)) := by
    unfold Pipeline.unscopedRest
    exact bigSep_congr fun b hb => by
      dsimp only
      rw [W2_of_ne m c b (fun e => (Finset.mem_sdiff.mp hb).2 (Finset.mem_image.mpr ⟨5, Finset.mem_univ _, e ▸ rfl⟩))]
  rw [← Pipeline.unscopedBufs_held (Ix := Unit) (Name := ℕ) (U := UR sig nD τ) (Lvl := ℕ) c (W2 m c),
    Pipeline.unscopedBufs_split₀ cfgs (0 : Fin 1) winFacts₀0.arr_unscoped c (fun b => W2 m c (Proc.devRef .tc b)), arrBufs_chain,
    arrays_chain, hrest]
  have e0 : (dat m c).arrAt 0 cfg0.N = W2 m c (Proc.devRef .tc main_v0) :=
    ((dat m c).arrAt_in 0 rfl _).trans (W2_of_ne m c main_v0 (by decide)).symm
  have e1 : (dat m c).arrAt 1 cfg0.N = W2 m c (Proc.devRef .tc main_v0) :=
    ((dat m c).arrAt_in 1 rfl _).trans (W2_of_ne m c main_v0 (by decide)).symm
  have e2 : (dat m c).arrAt 2 cfg0.N = W2 m c (Proc.devRef .tc main_arg1) :=
    ((dat m c).arrAt_in 2 rfl _).trans (W2_of_ne m c main_arg1 (by decide)).symm
  have e3 : (dat m c).arrAt 3 cfg0.N = W2 m c (Proc.devRef .tc main_arg2) :=
    ((dat m c).arrAt_in 3 rfl _).trans (W2_of_ne m c main_arg2 (by decide)).symm
  have e4 : (dat m c).arrAt 4 cfg0.N = W2 m c (Proc.devRef .tc main_arg3) :=
    ((dat m c).arrAt_in 4 rfl _).trans (W2_of_ne m c main_arg3 (by decide)).symm
  have e5 : (dat m c).arrAt 5 cfg0.N = W2 m c (Proc.devRef .tc main_v1) := (W2_out m c).symm
  rw [e0, e1, e2, e3, e4, e5]
  iintro ⟨⟨Hl, Hr, H1, H2, H3, Hv1⟩, Hrest⟩
  isplitr [Hrest]; swap; · iexact Hrest
  isplitl [Hl Hr]
  · iapply (pointsTo_share (PosShare.mem_left_op_right fullShare)).2
    isplitl [Hl]; · iexact Hl
    iexact Hr
  isplitl [H1]; · iexact H1
  isplitl [H2]; · iexact H2
  isplitl [H3]; · iexact H3
  iexact Hv1

/-! ## The segments -/

/-- No prefetched table. -/
abbrev adm : (p : Fin 1) → (pcfgs (F := F) p).Adm := fun p => (cfgs p).toPCfg_adm
/-- The one pipeline's proof data. -/
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host lines as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- The region as a segment: entered from every unscoped buffer at the entry contents, left with them at the exit
    contents; the generator register passes through the pipeline's invariant untouched; nothing is owed; the kernel has
    no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry_split m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main as the list of its three segments. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]

theorem main_run (c : Dev nD) : main (F := F) c = Pipeline.Seg.run (segs m) := (main_chain c).trans (by chain_rfl)

/-- An unscoped TensorCore reference is among the buffers held between segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    every final state holds, in every unscoped buffer, the closing contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W3 m c) ∗ ∃ r, prngReg c r))
    (hch := ⟨fun _ => .rfl, fun _ => .rfl, fun _ => .rfl, fun c => by
      show (iprop(StableHlo.held (c : Thread nD τ) (Pipeline.ucRefs τ sig) (W3 m c) ∗ R c) : sProp 𝕄) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.KbFrame.lean ====
/-
  The frame: @main runs to the end, faults nowhere, and leaves its four argument arrays as launched — no host line writes
  one, and the region only reads them.
-/
import proofs.«142151_j9474697855457_2_alg».proof.Proof.KbRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- No host line and no write-back touches `main_arg0`: it ends as launched. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- No host line and no write-back touches `main_arg1`: it ends as launched. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- No host line and no write-back touches `main_arg2`: it ends as launched. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- No host line and no write-back touches `main_arg3`: it ends as launched. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- THE FRAME, at any values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)
    (run_main m ρ)

end Cert.Kernel.Hand

end
-- ==== Proof.KiBody.lean ====
/-
  The kernel body as a step of the pipeline: run on six whole staging buffers — the query block of the points, the whole
  point array, the query block of the first features, the whole second feature array, the query block of the weights,
  and the output block — it reads the five inputs, leaves them as they were, and overwrites the whole output block with
  one value, the weighted cross terms of the block's 2 × 256 query points computed from what was read.
-/
import proofs.«142151_j9474697855457_2_alg».proof.Proof.Gen.KernelIdeal.Launch
import proofs.«142151_j9474697855457_2_alg».proof.Proof.Gen.KernelIdeal.Skeleton
import proofs.«142151_j9474697855457_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body reads and writes: each a whole buffer -/

abbrev rectQ : Rect S2x3x256 := Rect.unit (s := S2x3x256) ![0, 0, 0] S2x3x256.size inb_S2x3x256_S2x3x256_0_0_0
abbrev rectK : Rect S2x3x4096 := Rect.unit (s := S2x3x4096) ![0, 0, 0] S2x3x4096.size inb_S2x3x4096_S2x3x4096_0_0_0
abbrev rectA : Rect S2x256x32 := Rect.unit (s := S2x256x32) ![0, 0, 0] S2x256x32.size inb_S2x256x32_S2x256x32_0_0_0
abbrev rectB : Rect S2x4096x32 := Rect.unit (s := S2x4096x32) ![0, 0, 0] S2x4096x32.size inb_S2x4096x32_S2x4096x32_0_0_0
abbrev rectW : Rect S2x256x1 := Rect.unit (s := S2x256x1) ![0, 0, 0] S2x256x1.size inb_S2x256x1_S2x256x1_0_0_0
abbrev rectO : Rect S2x256 := Rect.unit (s := S2x256) ![0, 0] S2x256.size inb_S2x256_S2x256_0_0

/-- What the body leaves in the output block, from the five input buffers: its one store, of the weighted cross terms. -/
def outBlock (xq : Vec F S2x3x256 .f32) (xk : Vec F S2x3x4096 .f32) (xa : Vec F S2x256x32 .f32) (xb : Vec F S2x4096x32 .f32)
    (xw : Vec F S2x256x1 .f32) : Vec F S2x256 .f32 :=
  View.canon [⟨rectO, k0_pay1 (View.ld xw rectW) (k0_pay3 (k0_pay2 (View.ld xq rectQ) (View.ld xk rectK)) (View.ld xa rectA) (View.ld xb rectB))⟩]

/-- The one store covers the output block. -/
theorem cover_out (p0 : Vec F S2x256 .f32) (y : S2x256.Idx) :
    ∃ pc ∈ ([⟨rectO, p0⟩] : List (View.Piece (Elt F) S2x256 .f32)), y ∈ pc.1.set :=
  View.cover_of_tiled [⟨rectO, p0⟩] S2x256.size (by rfl) y

set_option maxHeartbeats 2000000 in
/-- The body on whole buffers: the inputs at contents `x·`, the output at anything; it ends with the inputs as they were
    and the output at `outBlock` of the inputs. -/
theorem sound_kernel (c : Dev nD) (E : Set ℕ) (i : grid0.Coords)
    (arg1 : Memref sig .tc .vmem S2x3x256 .f32) (harg1 : arg1.IsWhole) (arg2 : Memref sig .tc .vmem S2x3x4096 .f32) (harg2 : arg2.IsWhole)
    (arg3 : Memref sig .tc .vmem S2x256x32 .f32) (harg3 : arg3.IsWhole) (arg4 : Memref sig .tc .vmem S2x4096x32 .f32) (harg4 : arg4.IsWhole)
    (arg5 : Memref sig .tc .vmem S2x256x1 .f32) (harg5 : arg5.IsWhole) (arg6 : Memref sig .tc .vmem S2x256 .f32) (harg6 : arg6.IsWhole)
    (xq : Vec F S2x3x256 .f32) (xk : Vec F S2x3x4096 .f32) (xa : Vec F S2x256x32 .f32) (xb : Vec F S2x4096x32 .f32) (xw : Vec F S2x256x1 .f32)
    (K : PUnit → sProp 𝕄) :
    iprop(owns (c : Thread nD τ) arg1 fullShare xq ∗ owns (c : Thread nD τ) arg2 fullShare xk ∗ owns (c : Thread nD τ) arg3 fullShare xa
        ∗ owns (c : Thread nD τ) arg4 fullShare xb ∗ owns (c : Thread nD τ) arg5 fullShare xw ∗ (∃ d, owns (c : Thread nD τ) arg6 fullShare d)
        ∗ (iprop(owns (c : Thread nD τ) arg1 fullShare xq ∗ owns (c : Thread nD τ) arg2 fullShare xk ∗ owns (c : Thread nD τ) arg3 fullShare xa
            ∗ owns (c : Thread nD τ) arg4 fullShare xb ∗ owns (c : Thread nD τ) arg5 fullShare xw
            ∗ owns (c : Thread nD τ) arg6 fullShare (outBlock xq xk xa xb xw)) -∗ K ⟨⟩))
      ⊢ wp frame (wpE (defs₀ (F := F)) Variants.none c none) E
          (cc0__loss_kernel i arg1 harg1 arg2 harg2 arg3 harg3 arg4 harg4 arg5 harg5 arg6 harg6) K := by
  simp only [cc0__loss_kernel_eq_skeleton]; unfold cc0__loss_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover_out _)

end Cert.KernelIdeal.Hand

end
-- ==== Proof.KiData.lean ====
/-
  The pipeline's proof data: the arrays as the region finds them (the transposed points after the one host line before
  the region, the three remaining arguments as launched), every input window's staging buffer at its block of its array
  at every grid point — fetched there or kept from the point before —, the output window's at the body's result of those
  blocks; and the body's obligation to the pipeline at every point.  The transposed point array is read through TWO
  windows (the query block and the whole array): each holds half of it.
-/
import proofs.«142151_j9474697855457_2_alg».proof.Proof.KiBody
import Idealize.ShloMosaic.Lib.Pipeline.FrameSuffix
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at launch and when the region is entered -/

/-- Core `c`'s buffers at launch. -/
abbrev W0 (c : Dev nD) : Valuation τ sig (Elt F) := fun b => m (c, b)
/-- After the host line before the region (the transpose of the points). -/
abbrev W1 (c : Dev nD) : Valuation τ sig (Elt F) := StableHlo.after hostOps0 (W0 m c)
/-- The same read at the TensorCore's references. -/
abbrev V1 (c : Dev nD) (b : Ref sig .tc) : Buf (Elt F) ((c : Thread nD τ).loc b) := W1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- The proof data on core `c`. -/
def dat (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dat m c).A w = V1 m c (Pipeline.arrRef spec0 w) := by
  dsimp only [dat]

theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]
theorem after5 (c : Dev nD) (t : Fin cfg0.N) :
    (dat m c).after 5 t = outBlock (iblk m c 0 t) (iblk m c 1 t) (iblk m c 2 t) (iblk m c 3 t) (iblk m c 4 t) := by dsimp only [dat]

/-! ## Every input's staging buffer holds its block when the body runs, fetched at that point or not -/

theorem before0 (c : Dev nD) (t : Fin cfg0.N) (d) : (dat m c).before 0 t d = iblk m c 0 t :=
  ((dat m c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dat m c).before 1 t d = iblk m c 1 t :=
  ((dat m c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dat m c).before 2 t d = iblk m c 2 t :=
  ((dat m c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dat m c).before 3 t d = iblk m c 3 t :=
  ((dat m c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dat m c).before 4 t d = iblk m c 4 t :=
  ((dat m c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)

/-! ## The body's obligation, at a generic point -/

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d)))

/-- and what it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dat m c).Φ t.succ = (dat m c).Φ t.castSucc from rfl,
    show (dat m c).owesAt () t.succ = (dat m c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) m c) (defs₀ (F := F)) Variants.none () Set.univ := fun t => by
  rw [bigSep_W0, bigSep_W0]
  exact sound_body m c t

end Cert.KernelIdeal.Hand

end
-- ==== Proof.KiRun.lean ====
/-
  The run of @main: the host line before the region, the region, the host lines after it, composed segment by segment.
  Between segments a core holds every unscoped buffer whole at known contents: the launch contents, then the transpose
  written, then the region's output array at what its write-backs leave, then the closing host lines' results.  Entering
  the region the transposed point array is split in two halves, one for each of the two windows that read it; leaving it
  the halves, both still at the entry contents, are joined again.
-/
import proofs.«142151_j9474697855457_2_alg».proof.Proof.KiData
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.SL.BI (bigSepL bigSep_eq_bigSepL_of_eq)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents after the region and at the end -/

/-- After the region: the output array at what the write-backs leave, every other buffer as entered. -/
def W2 (c : Dev nD) : Valuation τ sig (Elt F) :=
  Function.update (W1 m c) (Proc.devRef .tc main_v1) ((dat m c).arrAt 5 cfg0.N)
/-- At the end: the closing host lines have run. -/
abbrev W3 (c : Dev nD) : Valuation τ sig (Elt F) := StableHlo.after hostOps1 (W2 m c)

theorem W2_out (c : Dev nD) : W2 m c (Proc.devRef .tc main_v1) = (dat m c).arrAt 5 cfg0.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..

/-! ## The arrays, window by window, and the buffers behind them -/

theorem share0 (c : Dev nD) : (dat m c).share 0 = fullShare.left := rfl
theorem share1 (c : Dev nD) : (dat m c).share 1 = fullShare.right := rfl
theorem share2 (c : Dev nD) : (dat m c).share 2 = fullShare := rfl
theorem share3 (c : Dev nD) : (dat m c).share 3 = fullShare := rfl
theorem share4 (c : Dev nD) : (dat m c).share 4 = fullShare := rfl
theorem share5 (c : Dev nD) : (dat m c).share 5 = fullShare := rfl

/-- The pipeline's arrays, each a whole buffer at its window's share. -/
theorem arrays_whole (c : Dev nD) (G : (w : Fin cfg0.W) → Buf (Elt F) ((cfg0.win w).arr.view.loc (c : Thread nD τ))) :
    ((dat m c).arrays G : sProp 𝕄)
      = bigSep Finset.univ fun w => (((c : Thread nD τ).loc (Pipeline.arrRef spec0 w)) ↦{(dat m c).share w} G w : sProp 𝕄) := by
  unfold Dat.arrays
  exact bigSep_congr fun w _ => by rw [(arr_whole0 w).set_eq_univ]

/-- The same as a chain: the transposed points twice, at the two halves. -/
theorem arrays_chain (c : Dev nD) (G : (w : Fin cfg0.W) → Buf (Elt F) ((cfg0.win w).arr.view.loc (c : Thread nD τ))) :
    ((dat m c).arrays G : sProp 𝕄)
      = iprop((((c : Thread nD τ).loc (Pipeline.arrRef spec0 0)) ↦{fullShare.left} G 0)
          ∗ (((c : Thread nD τ).loc (Pipeline.arrRef spec0 1)) ↦{fullShare.right} G 1)
          ∗ (((c : Thread nD τ).loc (Pipeline.arrRef spec0 2)) ↦{fullShare} G 2)
          ∗ (((c : Thread nD τ).loc (Pipeline.arrRef spec0 3)) ↦{fullShare} G 3)
          ∗ (((c : Thread nD τ).loc (Pipeline.arrRef spec0 4)) ↦{fullShare} G 4)
          ∗ (((c : Thread nD τ).loc (Pipeline.arrRef spec0 5)) ↦{fullShare} G 5)) := by
  rw [arrays_whole, bigSep_W0, share0, share1, share2, share3, share4, share5]

/-- The distinct buffers behind the arrays, listed. -/
theorem arrBufs_chain (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_arg1) ↦{fullShare} V main_arg1)
          ∗ (((c : Thread nD τ).loc main_arg2) ↦{fullShare} V main_arg2) ∗ (((c : Thread nD τ).loc main_arg3) ↦{fullShare} V main_arg3)
          ∗ (((c : Thread nD τ).loc main_v1) ↦{fullShare} V main_v1)) := by
  unfold Pipeline.arrBufs
  exact bigSep_eq_bigSepL_of_eq [main_v0, main_arg1, main_arg2, main_arg3, main_v1] (by decide) (by decide) _

/-- Entering the region: every unscoped buffer at the entry contents is the pipeline's arrays at those contents — the
    transposed points split in two halves — and the buffers that are no array. -/
theorem entry_split (c : Dev nD) :
    (StableHlo.held (c : Thread nD τ) (Pipeline.ucRefs τ sig) (W1 m c) : sProp 𝕄)
      ⊢ iprop((dat m c).arrays ((dat m c).arrAt · 0)
          ∗ Pipeline.unscopedRest (Ix := Unit) (Name := ℕ) (U := UR sig nD τ) (Lvl := ℕ) spec0 c (V1 m c)) := by
  rw [← Pipeline.unscopedBufs_held (Ix := Unit) (Name := ℕ) (U := UR sig nD τ) (Lvl := ℕ) c (W1 m c),
    Pipeline.unscopedBufs_split₀ cfgs (0 : Fin 1) winFacts₀0.arr_unscoped c (V1 m c), arrBufs_chain, arrays_chain]
  iintro ⟨⟨Hv0, H1, H2, H3, Hv1⟩, Hrest⟩
  ihave Hs := (pointsTo_share (PosShare.mem_left_op_right fullShare)).1 $$ Hv0
  icases Hs with ⟨Hl, Hr⟩
  isplitr [Hrest]; swap; · iexact Hrest
  isplitl [Hl]; · iexact Hl
  isplitl [Hr]; · iexact Hr
  isplitl [H1]; · iexact H1
  isplitl [H2]; · iexact H2
  isplitl [H3]; · iexact H3
  iexact Hv1

/-- Leaving the region: the arrays at their final contents — every input as entered, the two halves of the transposed
    points joined — and the buffers that are no array are every unscoped buffer at the exit contents. -/
theorem exit_join (c : Dev nD) :
    iprop((dat m c).arrays ((dat m c).arrAt · cfg0.N)
        ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  have hrest : (Pipeline.unscopedRest (Ix := Unit) (Name := ℕ) (U := UR sig nD τ) (Lvl := ℕ) spec0 c (V1 m c) : sProp 𝕄)
      = Pipeline.unscopedRest spec0 c (fun b => W2 m c (Proc.devRef .tc b)) := by
    unfold Pipeline.unscopedRest
    exact bigSep_congr fun b hb => by
      dsimp only
      rw [W2_of_ne m c b (fun e => (Finset.mem_sdiff.mp hb).2 (Finset.mem_image.mpr ⟨5, Finset.mem_univ _, e ▸ rfl⟩))]
  rw [← Pipeline.unscopedBufs_held (Ix := Unit) (Name := ℕ) (U := UR sig nD τ) (Lvl := ℕ) c (W2 m c),
    Pipeline.unscopedBufs_split₀ cfgs (0 : Fin 1) winFacts₀0.arr_unscoped c (fun b => W2 m c (Proc.devRef .tc b)), arrBufs_chain,
    arrays_chain, hrest]
  have e0 : (dat m c).arrAt 0 cfg0.N = W2 m c (Proc.devRef .tc main_v0) :=
    ((dat m c).arrAt_in 0 rfl _).trans (W2_of_ne m c main_v0 (by decide)).symm
  have e1 : (dat m c).arrAt 1 cfg0.N = W2 m c (Proc.devRef .tc main_v0) :=
    ((dat m c).arrAt_in 1 rfl _).trans (W2_of_ne m c main_v0 (by decide)).symm
  have e2 : (dat m c).arrAt 2 cfg0.N = W2 m c (Proc.devRef .tc main_arg1) :=
    ((dat m c).arrAt_in 2 rfl _).trans (W2_of_ne m c main_arg1 (by decide)).symm
  have e3 : (dat m c).arrAt 3 cfg0.N = W2 m c (Proc.devRef .tc main_arg2) :=
    ((dat m c).arrAt_in 3 rfl _).trans (W2_of_ne m c main_arg2 (by decide)).symm
  have e4 : (dat m c).arrAt 4 cfg0.N = W2 m c (Proc.devRef .tc main_arg3) :=
    ((dat m c).arrAt_in 4 rfl _).trans (W2_of_ne m c main_arg3 (by decide)).symm
  have e5 : (dat m c).arrAt 5 cfg0.N = W2 m c (Proc.devRef .tc main_v1) := (W2_out m c).symm
  rw [e0, e1, e2, e3, e4, e5]
  iintro ⟨⟨Hl, Hr, H1, H2, H3, Hv1⟩, Hrest⟩
  isplitr [Hrest]; swap; · iexact Hrest
  isplitl [Hl Hr]
  · iapply (pointsTo_share (PosShare.mem_left_op_right fullShare)).2
    isplitl [Hl]; · iexact Hl
    iexact Hr
  isplitl [H1]; · iexact H1
  isplitl [H2]; · iexact H2
  isplitl [H3]; · iexact H3
  iexact Hv1

/-! ## The segments -/

/-- No prefetched table. -/
abbrev adm : (p : Fin 1) → (pcfgs (F := F) p).Adm := fun p => (cfgs p).toPCfg_adm
/-- The one pipeline's proof data. -/
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host lines as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- The region as a segment: entered from every unscoped buffer at the entry contents, left with them at the exit
    contents; the generator register passes through the pipeline's invariant untouched; nothing is owed; the kernel has
    no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry_split m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main as the list of its three segments. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]

theorem main_run (c : Dev nD) : main (F := F) c = Pipeline.Seg.run (segs m) := (main_chain c).trans (by chain_rfl)

/-- An unscoped TensorCore reference is among the buffers held between segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    every final state holds, in every unscoped buffer, the closing contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W3 m c) ∗ ∃ r, prngReg c r))
    (hch := ⟨fun _ => .rfl, fun _ => .rfl, fun _ => .rfl, fun c => by
      show (iprop(StableHlo.held (c : Thread nD τ) (Pipeline.ucRefs τ sig) (W3 m c) ∗ R c) : sProp 𝕄) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.KiFrame.lean ====
/-
  The frame: @main runs to the end, faults nowhere, and leaves its four argument arrays as launched — no host line writes
  one, and the region only reads them.
-/
import proofs.«142151_j9474697855457_2_alg».proof.Proof.KiRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- No host line and no write-back touches `main_arg0`: it ends as launched. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- No host line and no write-back touches `main_arg1`: it ends as launched. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- No host line and no write-back touches `main_arg2`: it ends as launched. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- No host line and no write-back touches `main_arg3`: it ends as launched. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- THE FRAME, at any values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)
    (run_main m ρ)

end Cert.KernelIdeal.Hand

end
-- ==== Proof.KiFinal.lean ====
/-
  The output array after the region, as ONE function of the arrays the region finds.  The sixteen grid points write back
  the sixteen blocks of 256 query points, which tile the 4096; entry (b, n) of the array is therefore the body's result
  at point n / 256, row n mod 256 of that point's block.
-/
import proofs.«142151_j9474697855457_2_alg».proof.Proof.KiRun
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F] [Named F]

variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The body's result at point `t`: the payload of that point's five input blocks. -/
def resultAt (c : Dev nD) (t : Fin cfg0.N) : Vec F S2x256 .f32 :=
  k0_pay1 (iblk m c 4 t) (k0_pay3 (k0_pay2 (iblk m c 0 t) (iblk m c 1 t)) (iblk m c 2 t) (iblk m c 3 t))

/-- What the body leaves in the output block is that payload: its one store covers the block, its loads read whole
    buffers. -/
theorem after5_eq (c : Dev nD) (t : Fin cfg0.N) : (dat m c).after 5 t = resultAt m c t := by
  rw [after5]
  unfold outBlock resultAt
  rw [View.canon_unit_zero hz2]
  simp only [View.ld_unit_zero (S := S2x3x256) hz3, View.ld_unit_zero (S := S2x3x4096) hz3, View.ld_unit_zero (S := S2x256x32) hz3,
    View.ld_unit_zero (S := S2x4096x32) hz3, View.ld_unit_zero (S := S2x256x1) hz3]

/-- The output window's block index at point `t` is (0, t). -/
theorem out_index : ∀ t : Fin cfg0.N, win0_5.index t (0 : Fin 2) = 0 ∧ win0_5.index t (1 : Fin 2) = t.val :=
  (by decide +kernel : ∀ t : Fin grid0.N, _)

/-- The output array: entry (b, n) is the result at point n / 256, row n mod 256. -/
def outArr (c : Dev nD) : S2x4096.Idx → Elt F .f32 := fun i =>
  resultAt m c ⟨(i 1).val / 256, by have h : (i 1).val < 4096 := (i 1).isLt; rw [show cfg0.N = 16 from N_0]; omega⟩
    (ix2 ⟨(i 0).val, (i 0).isLt⟩ ⟨(i 1).val % 256, Nat.mod_lt _ (by decide)⟩)

/-- Inside point `t`'s block the output array is that point's result. -/
theorem outArr_emb (c : Dev nD) (t : Fin cfg0.N) (j : S2x256.Idx) :
    outArr m c (((cfg0.win 5).blk t).view.emb j) = resultAt m c t j := by
  obtain ⟨e0, e1⟩ := out_index t
  have h0 : ((((cfg0.win 5).blk t).view.emb j) 0).val = (j 0).val := by
    show win0_5.index t (0 : Fin 2) * 2 + 1 * (j 0).val = (j 0).val
    omega
  have h1 : ((((cfg0.win 5).blk t).view.emb j) 1).val = t.val * 256 + (j 1).val := by
    show win0_5.index t (1 : Fin 2) * 256 + 1 * (j 1).val = t.val * 256 + (j 1).val
    omega
  have hj : (j 1).val < 256 := (j 1).isLt
  have key : ∀ (t' : Fin cfg0.N) (b' : Fin 2) (r' : Fin 256), t' = t → b'.val = (j 0).val → r'.val = (j 1).val →
      resultAt m c t' (ix2 b' r') = resultAt m c t j := by
    rintro t' b' r' rfl hb hr
    refine congrArg (resultAt m c t') (funext fun a => ?_)
    match a with
    | ⟨0, _⟩ => exact Fin.ext hb
    | ⟨1, _⟩ => exact Fin.ext hr
  unfold outArr
  refine key _ _ _ (Fin.ext ?_) h0 ?_
  · show ((((cfg0.win 5).blk t).view.emb j) 1).val / 256 = t.val
    rw [h1]; omega
  · show ((((cfg0.win 5).blk t).view.emb j) 1).val % 256 = (j 1).val
    rw [h1]; omega

/-- What point `t` writes back is block `t` of the output array. -/
theorem flushed5_eq (c : Dev nD) (t : Fin cfg0.N) :
    (dat m c).flushed 5 t = ((cfg0.win 5).blk t).view.read (Elt F) (outArr m c) := by
  show (cfg0.win 5).cut (grid0.coords t) ((dat m c).after 5 t) = _
  rw [after5_eq]
  funext j
  exact (outArr_emb m c t j).symm

/-- An index of the output array is in point `t`'s block iff each coordinate is in the block's range. -/
theorem mem_blk5 (t : Fin cfg0.N) (i : S2x4096.Idx) :
    i ∈ ((cfg0.win 5).blk t).view.set ↔ ∀ a : Fin 2, win0_5.index t a * S2x256.size a ≤ (i a).val ∧ (i a).val < win0_5.index t a * S2x256.size a + S2x256.size a := by
  show i ∈ ((View.whole main_v1).slice (win0_5.rect t)).set ↔ _
  rw [View.set_slice_whole, Rect.mem_set_unit]
  exact Iff.rfl

/-- Every entry of the output array is in the block of the point n / 256. -/
theorem cover5 (i : S2x4096.Idx) : ∃ t : Fin cfg0.N, (cfg0.win 5).flush t = true ∧ i ∈ ((cfg0.win 5).blk t).view.set := by
  have hi0 : (i 0).val < 2 := (i 0).isLt
  have hi1 : (i 1).val < 4096 := (i 1).isLt
  refine ⟨⟨(i 1).val / 256, by rw [show cfg0.N = 16 from N_0]; omega⟩, flush0_5 _, ?_⟩
  rw [mem_blk5]
  obtain ⟨e0, e1⟩ := out_index ⟨(i 1).val / 256, by rw [show cfg0.N = 16 from N_0]; omega⟩
  intro a
  match a with
  | ⟨0, _⟩ =>
    show win0_5.index _ (0 : Fin 2) * 2 ≤ (i 0).val ∧ (i 0).val < win0_5.index _ (0 : Fin 2) * 2 + 2
    rw [e0]; omega
  | ⟨1, _⟩ =>
    show win0_5.index _ (1 : Fin 2) * 256 ≤ (i 1).val ∧ (i 1).val < win0_5.index _ (1 : Fin 2) * 256 + 256
    rw [e1]; show (i 1).val / 256 * 256 ≤ (i 1).val ∧ (i 1).val < (i 1).val / 256 * 256 + 256; omega

/-- THE OUTPUT ARRAY after the region. -/
theorem final5 (c : Dev nD) : (dat m c).arrAt 5 cfg0.N = outArr m c :=
  (dat m c).arrAt_eq_of_cover 5 (outArr m c) (fun t _ => flushed5_eq m c t) cover5

end Cert.KernelIdeal.Hand

end
-- ==== Proof.KiBlocks.lean ====
/-
  The five input blocks of a grid point read at an entry of the arrays the region finds: the query blocks (points,
  first features, weights) are rows t·256 … t·256 + 255 of their arrays, the two key arrays are read whole; and those
  arrays themselves: the transposed points and, unchanged, the three remaining arguments.
-/
import proofs.«142151_j9474697855457_2_alg».proof.Proof.KiFinal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F] [Named F]

variable (m : (ℓ : Loc nD τ sig) → Buf (Elt F) ℓ)

/-- The input windows' block indices at point `t`: the query windows move along the point axis, the key windows stay. -/
theorem in_index : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = t.val ∧ win0_4.index t (2 : Fin 3) = 0 :=
  (by decide +kernel : ∀ t : Fin grid0.N, _)

/-- Row `r` of point `t`'s query block is row t·256 + r of the array. -/
def qrow (t : Fin cfg0.N) (r : Fin 256) : Fin 4096 :=
  ⟨t.val * 256 + r.val, by have h : t.val < 16 := lt_of_lt_of_eq t.isLt N_0
                           have := r.isLt; omega⟩

theorem iblk0_apply (c : Dev nD) (t : Fin cfg0.N) (b : Fin 2) (k : Fin 3) (r : Fin 256) :
    iblk m c 0 t (ix3 b k r) = V1 m c main_v0 (ix3 b k (qrow t r)) := by
  obtain ⟨e0, e1, e2, -⟩ := in_index t
  show V1 m c main_v0 (((cfg0.win 0).blk t).view.emb (ix3 b k r)) = _
  refine congrArg (V1 m c main_v0) (funext fun a => Fin.ext ?_)
  match a with
  | ⟨0, _⟩ => show win0_0.index t (0 : Fin 3) * 2 + 1 * b.val = b.val; omega
  | ⟨1, _⟩ => show win0_0.index t (1 : Fin 3) * 3 + 1 * k.val = k.val; omega
  | ⟨2, _⟩ => show win0_0.index t (2 : Fin 3) * 256 + 1 * r.val = t.val * 256 + r.val; omega

theorem iblk1_apply (c : Dev nD) (t : Fin cfg0.N) (b : Fin 2) (k : Fin 3) (j : Fin 4096) :
    iblk m c 1 t (ix3 b k j) = V1 m c main_v0 (ix3 b k j) := by
  obtain ⟨-, -, -, e0, e1, e2, -⟩ := in_index t
  show V1 m c main_v0 (((cfg0.win 1).blk t).view.emb (ix3 b k j)) = _
  refine congrArg (V1 m c main_v0) (funext fun a => Fin.ext ?_)
  match a with
  | ⟨0, _⟩ => show win0_1.index t (0 : Fin 3) * 2 + 1 * b.val = b.val; omega
  | ⟨1, _⟩ => show win0_1.index t (1 : Fin 3) * 3 + 1 * k.val = k.val; omega
  | ⟨2, _⟩ => show win0_1.index t (2 : Fin 3) * 4096 + 1 * j.val = j.val; omega

theorem iblk2_apply (c : Dev nD) (t : Fin cfg0.N) (b : Fin 2) (r : Fin 256) (d : Fin 32) :
    iblk m c 2 t (ix3 b r d) = V1 m c main_arg1 (ix3 b (qrow t r) d) := by
  obtain ⟨-, -, -, -, -, -, e0, e1, e2, -⟩ := in_index t
  show V1 m c main_arg1 (((cfg0.win 2).blk t).view.emb (ix3 b r d)) = _
  refine congrArg (V1 m c main_arg1) (funext fun a => Fin.ext ?_)
  match a with
  | ⟨0, _⟩ => show win0_2.index t (0 : Fin 3) * 2 + 1 * b.val = b.val; omega
  | ⟨1, _⟩ => show win0_2.index t (1 : Fin 3) * 256 + 1 * r.val = t.val * 256 + r.val; omega
  | ⟨2, _⟩ => show win0_2.index t (2 : Fin 3) * 32 + 1 * d.val = d.val; omega

theorem iblk3_apply (c : Dev nD) (t : Fin cfg0.N) (b : Fin 2) (j : Fin 4096) (d : Fin 32) :
    iblk m c 3 t (ix3 b j d) = V1 m c main_arg2 (ix3 b j d) := by
  obtain ⟨-, -, -, -, -, -, -, -, -, e0, e1, e2, -⟩ := in_index t
  show V1 m c main_arg2 (((cfg0.win 3).blk t).view.emb (ix3 b j d)) = _
  refine congrArg (V1 m c main_arg2) (funext fun a => Fin.ext ?_)
  match a with
  | ⟨0, _⟩ => show win0_3.index t (0 : Fin 3) * 2 + 1 * b.val = b.val; omega
  | ⟨1, _⟩ => show win0_3.index t (1 : Fin 3) * 4096 + 1 * j.val = j.val; omega
  | ⟨2, _⟩ => show win0_3.index t (2 : Fin 3) * 32 + 1 * d.val = d.val; omega

theorem iblk4_apply (c : Dev nD) (t : Fin cfg0.N) (b : Fin 2) (r : Fin 256) (z : Fin 1) :
    iblk m c 4 t (ix3 b r z) = V1 m c main_arg3 (ix3 b (qrow t r) z) := by
  obtain ⟨-, -, -, -, -, -, -, -, -, -, -, -, e0, e1, e2⟩ := in_index t
  show V1 m c main_arg3 (((cfg0.win 4).blk t).view.emb (ix3 b r z)) = _
  refine congrArg (V1 m c main_arg3) (funext fun a => Fin.ext ?_)
  match a with
  | ⟨0, _⟩ => show win0_4.index t (0 : Fin 3) * 2 + 1 * b.val = b.val; omega
  | ⟨1, _⟩ => show win0_4.index t (1 : Fin 3) * 256 + 1 * r.val = t.val * 256 + r.val; omega
  | ⟨2, _⟩ => show win0_4.index t (2 : Fin 3) * 1 + 1 * z.val = z.val; omega

/-! ## The arrays the region finds -/

/-- The one host line before the region writes the transposed points. -/
theorem V1_points (c : Dev nD) :
    V1 m c main_v0 = transpose S2x3x4096 [0, 2, 1] (m ((c : Thread nD τ).loc main_arg0)) transposes_S2x4096x3_S2x3x4096_0_2_1 := by
  show StableHlo.after hostOps0 (W0 m c) (Proc.devRef .tc main_v0) = _
  after_results <;> rfl

theorem V1_main_arg1 (c : Dev nD) : V1 m c main_arg1 = m ((c : Thread nD τ).loc main_arg1) :=
  StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem V1_main_arg2 (c : Dev nD) : V1 m c main_arg2 = m ((c : Thread nD τ).loc main_arg2) :=
  StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem V1_main_arg3 (c : Dev nD) : V1 m c main_arg3 = m ((c : Thread nD τ).loc main_arg3) :=
  StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Hand

end
-- ==== Proof.LossSpec.lean ====
/-
  The weighted cross-entropy between two row-wise soft assignments, as ONE function of the four argument arrays,
  entry by entry on the extended reals.

  For a batch b and a query point i, every key point j gets two scores:
    * the point score   pd(i,j) = -Σ_{c<3} (s·x(i,c) - s·x(j,c))²,   s = 1/σ the reciprocal of the scale σ,
      summed coordinate by coordinate from the first;
    * the feature score fd(i,j) = -(|a(i)|² + |b(j)|² - 2 a(i)·b(j)).
  With m_p, m_f the row maxima, the cross term of the soft assignment of pd against the log of the soft assignment
  of fd is
        ce(i) = -(Σ_j e^{pd(i,j)-m_p} fd(i,j)) / (Σ_j e^{pd(i,j)-m_p}) + m_f + log Σ_j e^{fd(i,j)-m_f},
  the loss of the batch the sum over i of ce(i)·w(i).  The functions below spell exactly this, in this grouping.
-/
import Idealize.ShloMosaic.PureOps.Ideal
import Idealize.ShloMosaic.Lib.ValueIdx

noncomputable section

open scoped BigOperators

namespace Cert.LossSpec

open Idealize.ShloMosaic

/-- The reciprocal 1/σ of the scale, σ = 5368709 / 2^30 (the single-precision number nearest 0.005). -/
def scale : EReal := ((1073741824 / 5368709 : ℝ) : EReal)

/-- One coordinate's share of a point score: -(s·x - s·y)². -/
def coordTerm (xq xk : EReal) : EReal :=
  0 - (xq * scale - xk * scale) * (xq * scale - xk * scale)

/-- The point score of a query point q against a key point k: the three coordinates' shares, added from the first. -/
def pointScore (q k : Fin 3 → EReal) : EReal :=
  (coordTerm (q 0) (k 0) + coordTerm (q 1) (k 1)) + coordTerm (q 2) (k 2)

/-- The feature score of a query row a against a key row b: -(|a|² + |b|² - 2 a·b). -/
def feaScore (a bk : Fin 32 → EReal) : EReal :=
  0 - (((∑ d, a d * a d) + (∑ d, bk d * bk d)) - 2 * ∑ d, a d * bk d)

/-- The maximum of a row, taken from -∞. -/
def rowMax (f : Fin 4096 → EReal) : EReal := (Finset.univ : Finset (Fin 4096)).fold max (⊥ : EReal) f

/-- The cross term of one query point from its two rows of scores. -/
def crossTerm (pd fd : Fin 4096 → EReal) : EReal :=
  ((0 - Ideal.div (∑ j, Ideal.exp (pd j - rowMax pd) * fd j) (∑ j, Ideal.exp (pd j - rowMax pd))) + rowMax fd)
    + Ideal.log (∑ j, Ideal.exp (fd j - rowMax fd))

section

variable (P : Fin 2 → Fin 4096 → Fin 3 → EReal) (A B : Fin 2 → Fin 4096 → Fin 32 → EReal)
  (Wt : Fin 2 → Fin 4096 → EReal)

/-- The cross term of query point i of batch b. -/
def ce (b : Fin 2) (i : Fin 4096) : EReal :=
  crossTerm (fun j => pointScore (P b i) (P b j)) (fun j => feaScore (A b i) (B b j))

/-- The weighted cross term of query point i. -/
def weighted (b : Fin 2) (i : Fin 4096) : EReal := ce P A B b i * Wt b i

/-- The loss of batch b. -/
def ceLoss (b : Fin 2) : EReal := ∑ i, weighted P A B Wt b i

end

/-! ## The same loss in the grouping of the expanded squares and the two log-soft-assignments

  The point score as |p(n)|² + |p(m)|² - 2 p(n)·p(m) of the points divided by σ, each score row turned into a
  log-soft-assignment  z(j) - M - log Σ_k e^{z(k) - M}  with M the row maximum, and the cross term
  -Σ_m e^{lsm_p(m)} · lsm_f(m). -/

/-- The scale σ as the single-precision pattern denotes it. -/
def sigma : EReal := Ideal.ofBits .f32 0x3BA3D70A#32

/-- A row's log-soft-assignment: z(j) - M - log Σ_k e^{z(k) - M}, M the row maximum taken from -∞ (and once more
    against -∞). -/
def logSoft (z : Fin 4096 → EReal) (j : Fin 4096) : EReal :=
  (z j - max (⊥ : EReal) (rowMax z)) - Ideal.log (∑ k, Ideal.exp (z k - max (⊥ : EReal) (rowMax z)))

section

variable (P : Fin 2 → Fin 4096 → Fin 3 → EReal) (A B : Fin 2 → Fin 4096 → Fin 32 → EReal)
  (Wt : Fin 2 → Fin 4096 → EReal)

/-- The squared length of a point divided by σ. -/
def sqLen (b : Fin 2) (n : Fin 4096) : EReal := ∑ c, Ideal.div (P b n c) sigma * Ideal.div (P b n c) sigma

/-- The point score by the expanded square. -/
def pointScoreX (b : Fin 2) (n m : Fin 4096) : EReal :=
  -((sqLen P b n + sqLen P b m) - 2 * ∑ c, Ideal.div (P b n c) sigma * Ideal.div (P b m c) sigma)

/-- The feature score with the outer sign as a negation. -/
def feaScoreX (b : Fin 2) (n m : Fin 4096) : EReal :=
  -(((∑ d, A b n d * A b n d) + (∑ d, B b m d * B b m d)) - 2 * ∑ d, A b n d * B b m d)

/-- The cross term by the two log-soft-assignments. -/
def ceX (b : Fin 2) (n : Fin 4096) : EReal :=
  -(∑ m, Ideal.exp (logSoft (pointScoreX P b n) m) * logSoft (feaScoreX A B b n) m)

/-- The loss of batch b in this grouping. -/
def ceLossX (b : Fin 2) : EReal := ∑ n, ceX P A B b n * Wt b n

end

/-- A rank-3 array as a function of its three coordinates. -/
abbrev arr3 {a b c : ℕ} (x : (⟨3, ![a, b, c]⟩ : Shape).Idx → EReal) : Fin a → Fin b → Fin c → EReal :=
  fun p q r => x (ValueIdx.ix3 p q r)

/-- A rank-3 array with a last axis of one entry as a function of its two leading coordinates. -/
abbrev col3 {a b : ℕ} (x : (⟨3, ![a, b, 1]⟩ : Shape).Idx → EReal) : Fin a → Fin b → EReal :=
  fun p q => x (ValueIdx.ix3 p q 0)

/-- The loss as a function of the four argument arrays, indexed by the batch. -/
def lossOf (x : (⟨3, ![2, 4096, 3]⟩ : Shape).Idx → EReal) (a b : (⟨3, ![2, 4096, 32]⟩ : Shape).Idx → EReal)
    (w : (⟨3, ![2, 4096, 1]⟩ : Shape).Idx → EReal) : (⟨1, ![2]⟩ : Shape).Idx → EReal :=
  fun i => ceLoss (arr3 x) (arr3 a) (arr3 b) (col3 w) (i 0)

end Cert.LossSpec

end
-- ==== Proof.PayLayout.lean ====
/-
  Layout steps of the loss kernel's body, each read at an entry written by its coordinates, and the two constants the
  body multiplies by.

  * One coordinate row cut out of a [a, m, n] array: the slice [a, 1, n] at offset (0, c, 0), read at (p, 0, l), is the
    array's entry (p, c, l).
  * A middle unit axis dropped, [a, 1, n] → [a, n]: entry (p, l) is entry (p, 0, l).
  * A trailing unit axis dropped, [a, b, 1] → [a, b]: entry (p, q) is entry (p, q, 0).
  * A recast to the same shape reads the same entry.
  * The named reciprocal of the scale is the rational the table gives it; the single-precision pattern 0x40000000 is
    the number 2.
-/
import proofs.«142151_j9474697855457_2_alg».proof.Proof.Gen.KernelIdeal
import proofs.«142151_j9474697855457_2_alg».proof.Proof.LossSpec
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.Pay

open Idealize.ShloMosaic Idealize.ShloMosaic.ValueIdx

variable {α : Type}

/-- Row c of the middle axis cut out as a [a, 1, n] slab: the slab's entry (p, z, l) is the array's entry (p, c, l). -/
theorem sliceMid_at {a m n : ℕ} (off : Fin 3 → ℕ) (x : (⟨3, ![a, m, n]⟩ : Shape).Idx → α)
    (h : (⟨3, ![a, m, n]⟩ : Shape).Slices off ⟨3, ![a, 1, n]⟩) (c : Fin m)
    (h0 : off 0 = 0) (h1 : off 1 = c.val) (h2 : off 2 = 0) (p : Fin a) (z : Fin 1) (l : Fin n) :
    extractStridedSlice ⟨3, ![a, 1, n]⟩ off x h (ix3 p z l) = x (ix3 p c l) := by
  refine extractStridedSlice_apply off x h (ix3 p z l) (ix3 p c l) fun ax => ?_
  match ax with
  | ⟨0, _⟩ => show p.val = off 0 + p.val; omega
  | ⟨1, _⟩ => show c.val = off 1 + z.val; have := z.isLt; omega
  | ⟨2, _⟩ => show l.val = off 2 + l.val; omega

/-- A middle unit axis dropped: entry (p, l) of the [a, n] recast is entry (p, z, l) of the [a, 1, n] array. -/
theorem dropMid_at {a n : ℕ} (x : (⟨3, ![a, 1, n]⟩ : Shape).Idx → α)
    (h : (⟨3, ![a, 1, n]⟩ : Shape).ShapeCasts ⟨2, ![a, n]⟩) (p : Fin a) (z : Fin 1) (l : Fin n) :
    shapeCast ⟨2, ![a, n]⟩ x h (ix2 p l) = x (ix3 p z l) :=
  shapeCast_apply x h _ _ (by
    have hz : z.val = 0 := by omega
    rw [Shape.rowMajor_val_three, Shape.rowMajor_val_two]
    show (p.val * 1 + z.val) * n + l.val = p.val * n + l.val
    rw [hz, Nat.mul_one, Nat.add_zero])

/-- A trailing unit axis dropped: entry (p, q) of the [a, b] recast is entry (p, q, u) of the [a, b, 1] array. -/
theorem dropLast_at {a b : ℕ} (x : (⟨3, ![a, b, 1]⟩ : Shape).Idx → α)
    (h : (⟨3, ![a, b, 1]⟩ : Shape).ShapeCasts ⟨2, ![a, b]⟩) (p : Fin a) (q : Fin b) (u : Fin 1) :
    shapeCast ⟨2, ![a, b]⟩ x h (ix2 p q) = x (ix3 p q u) :=
  shapeCast_apply x h _ _ (by
    have hu : u.val = 0 := by omega
    rw [Shape.rowMajor_val_three, Shape.rowMajor_val_two]
    show (p.val * b + q.val) * 1 + u.val = p.val * b + q.val
    rw [hu, Nat.mul_one, Nat.add_zero])

/-- A recast to the same shape reads the same entry. -/
theorem castSelf_at {s : Shape} (x : s.Idx → α) (h : s.ShapeCasts s) (i : s.Idx) : shapeCast s x h i = x i :=
  congrFun (shapeCast_self x h) i

/-- The named reciprocal of the scale is the rational 2^30 / 5368709. -/
theorem inv_sigma_eq :
    Named.named (F := Ideal) Cert.KernelIdeal.κ "inv_sigma" (φ := .f32) 0x43480000#32 = Cert.LossSpec.scale :=
  IdealRules.named_const.ideal_named_scalar _ _ _ _ rfl

/-- The single-precision pattern 0x40000000 is the number 2. -/
theorem ofBits_two : Ideal.ofBits .f32 0x40000000#32 = (2 : EReal) := by
  simp [Ideal.ofBits, Ideal.ieee, -EReal.coe_mul]
  norm_num
  rfl

end Cert.KernelIdeal.Pay

end
-- ==== Proof.LibGroupAxes.lean ====
/-
  The last axis of a matrix cut into groups, and the layout operations around it, read at an index.

  An [a, n] array with n = b · c is the same row-major data as an [a, b, c] array: position k of a row is place l of
  group g exactly when k = g · c + l. So a cast [a, n] → [a, b, c] read at (i, g, l) is the operand at (i, k), and the
  cast back read at (i, k) is the operand at (i, g, l). Beside them, the two steps that spread one value per group
  over the group's places: a cast [a, b] → [a, b, 1] (a trailing unit axis added) read at (i, g, u) is the operand at
  (i, g), and a broadcast [a, b, 1] → [a, b, c] read at (i, g, l) is the operand at (i, g, 0).
  General: nothing here depends on a particular program.
-/
import Idealize.ShloMosaic.Lib.Pipeline.Value
import Idealize.ShloMosaic.Lib.ValueIdx

namespace Cert.LibGroupAxes

open Idealize.ShloMosaic Idealize.ShloMosaic.ValueIdx

variable {α : Type}

/-- A row of n = b · c places cut into b groups of c: the cast [a, n] → [a, b, c] read at (i, g, l) is the operand at
    (i, k) where k = g · c + l. -/
theorem splitLast_apply {a b c n : ℕ} (x : (⟨2, ![a, n]⟩ : Shape).Idx → α)
    (h : (⟨2, ![a, n]⟩ : Shape).ShapeCasts ⟨3, ![a, b, c]⟩) (hn : n = b * c)
    (i : Fin a) (g : Fin b) (l : Fin c) (k : Fin n) (hk : k.val = g.val * c + l.val) :
    shapeCast ⟨3, ![a, b, c]⟩ x h (ix3 i g l) = x (ix2 i k) :=
  shapeCast_apply x h _ _ (by
    rw [Shape.rowMajor_val_two, Shape.rowMajor_val_three]
    show i.val * n + k.val = (i.val * b + g.val) * c + l.val
    rw [hk, hn, Nat.add_mul, Nat.mul_assoc, Nat.add_assoc])

/-- The groups laid end to end again: the cast [a, b, c] → [a, n] read at (i, k) is the operand at (i, g, l) where
    k = g · c + l. -/
theorem mergeLast_apply {a b c n : ℕ} (x : (⟨3, ![a, b, c]⟩ : Shape).Idx → α)
    (h : (⟨3, ![a, b, c]⟩ : Shape).ShapeCasts ⟨2, ![a, n]⟩) (hn : n = b * c)
    (i : Fin a) (k : Fin n) (g : Fin b) (l : Fin c) (hk : k.val = g.val * c + l.val) :
    shapeCast ⟨2, ![a, n]⟩ x h (ix2 i k) = x (ix3 i g l) :=
  shapeCast_apply x h _ _ (by
    rw [Shape.rowMajor_val_two, Shape.rowMajor_val_three]
    show (i.val * b + g.val) * c + l.val = i.val * n + k.val
    rw [hk, hn, Nat.add_mul, Nat.mul_assoc, Nat.add_assoc])

/-- A trailing unit axis added: the cast [a, b] → [a, b, 1] read at (i, g, u) is the operand at (i, g). -/
theorem addLastUnit_apply {a b : ℕ} (x : (⟨2, ![a, b]⟩ : Shape).Idx → α)
    (h : (⟨2, ![a, b]⟩ : Shape).ShapeCasts ⟨3, ![a, b, 1]⟩) (i : Fin a) (g : Fin b) (u : Fin 1) :
    shapeCast ⟨3, ![a, b, 1]⟩ x h (ix3 i g u) = x (ix2 i g) :=
  shapeCast_apply x h _ _ (by
    rw [Shape.rowMajor_val_two, Shape.rowMajor_val_three]
    show i.val * b + g.val = (i.val * b + g.val) * 1 + u.val
    have := u.isLt
    omega)

/-- One value per group spread over the group's places: the broadcast [a, b, 1] → [a, b, c] read at (i, g, l) is the
    operand at (i, g, 0). -/
theorem spreadLast_apply {a b c : ℕ} (x : (⟨3, ![a, b, 1]⟩ : Shape).Idx → α)
    (h : (⟨3, ![a, b, 1]⟩ : Shape).Broadcasts ⟨3, ![a, b, c]⟩) (i : Fin a) (g : Fin b) (l : Fin c) :
    broadcastTo ⟨3, ![a, b, c]⟩ x h (ix3 i g l) = x (ix3 i g (0 : Fin 1)) := by
  refine broadcastTo_apply x h (ix3 i g l) (ix3 i g (0 : Fin 1)) fun ax => ?_
  match ax with
  | ⟨0, _⟩ =>
    show i.val = if a = 1 then 0 else i.val
    split
    · have := i.isLt; omega
    · rfl
  | ⟨1, _⟩ =>
    show g.val = if b = 1 then 0 else g.val
    split
    · have := g.isLt; omega
    · rfl
  | ⟨2, _⟩ => rfl

end Cert.LibGroupAxes
-- ==== Proof.LibAxes.lean ====
/-
  Layout operations read at an index given by coordinates, for the shapes a broadcast-add of two matrices over a new
  middle axis and a product over the merged leading axes go through:

  • a MIDDLE unit axis added by a shape cast, `[a, c] → [a, 1, c]` (`shapeCast_ac_a1c_apply`);
  • a broadcast along a middle unit axis, `[a, 1, c] → [a, b, c]` (`broadcastTo_a1c_abc_apply`), and along a
    leading unit axis, `[1, b, c] → [a, b, c]` (`broadcastTo_1bc_abc_apply`);
  • the two leading axes MERGED by a shape cast, `[a, b, c] → [n, c]` with `n = a · b`, and split again,
    `[n, c] → [a, b, c]`: row `r = i · b + j` of the matrix is entry `(i, j)` of the stack
    (`shapeCast_abc_nc_apply`, `shapeCast_nc_abc_apply`); the merged row is passed as its own `Fin n` with the
    equation `r = i · b + j`, so that a literal extent such as `2048` need not be recognised as a product;
  • a vector laid out as `[1, 1, c]` and broadcast to `[a, b, c]` (`shapeCast_c_11c_apply`,
    `broadcastTo_11c_abc_apply`): the bias row added to every entry of a stack of matrices.

  Each is the library's `shapeCast_apply` / `broadcastTo_apply` with the row-major or per-axis arithmetic done,
  for indices written `ix1 … ix3`. Library imports only.
-/
import Idealize.ShloMosaic.Lib.Pipeline.Value
import Idealize.ShloMosaic.Lib.ValueIdx

namespace Cert.LibAxes

open Idealize.ShloMosaic Idealize.ShloMosaic.ValueIdx

variable {α : Type}

/-- An `[a, c]` matrix cast to `[a, 1, c]` reads, at `(i, z, k)`, the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (z : Fin 1) (k : Fin c) :
    shapeCast ⟨3, ![a, 1, c]⟩ x h (ix3 i z k) = x (ix2 i k) :=
  shapeCast_apply x h _ _ (by
    have hz : z.val = 0 := by omega
    rw [Shape.rowMajor_val_three, Shape.rowMajor_val_two]
    show i.val * c + k.val = (i.val * 1 + z.val) * c + k.val
    rw [hz, Nat.mul_one, Nat.add_zero])

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, c]` stack cast to an `[n, c]` matrix reads, at row `r = i · b + j` and column `k`, the stack at
    `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` matrix cast to an `[a, b, c]` stack reads, at `(i, j, k)`, the matrix at row `r = i · b + j`,
    column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A `[c]` vector cast to `[1, 1, c]` reads, at `(z, z', k)`, the vector at `k`. -/
theorem shapeCast_c_11c_apply {c : ℕ} (x : (⟨1, ![c]⟩ : Shape).Idx → α)
    (h : (⟨1, ![c]⟩ : Shape).ShapeCasts ⟨3, ![1, 1, c]⟩) (z z' : Fin 1) (k : Fin c) :
    shapeCast ⟨3, ![1, 1, c]⟩ x h (ix3 z z' k) = x (ix1 k) :=
  shapeCast_apply x h _ _ (by
    have hz : z.val = 0 := by omega
    have hz' : z'.val = 0 := by omega
    rw [Shape.rowMajor_val_three, Shape.rowMajor_val_one]
    show k.val = (z.val * 1 + z'.val) * c + k.val
    rw [hz, hz']
    simp)

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibAxes
-- ==== Proof.PayPoint.lean ====
/-
  The point scores of the loss kernel's body, entry by entry on the extended reals.

  The body scales the query block [2, 3, 256] and the key array [2, 3, 4096] by the reciprocal of the scale, cuts out
  each of the three coordinate rows, lays the query row along the second axis and the key row along the third, and adds,
  coordinate by coordinate from the first, the shares  0 - (q - k)².  Entry (b, i, j) of the result is therefore the point
  score of query point i against key point j of batch b.
-/
import proofs.«142151_j9474697855457_2_alg».proof.Proof.Gen.KernelIdeal.Skeleton
import proofs.«142151_j9474697855457_2_alg».proof.Proof.LossSpec
import proofs.«142151_j9474697855457_2_alg».proof.Proof.PayLayout
import proofs.«142151_j9474697855457_2_alg».proof.Proof.LibGroupAxes
import proofs.«142151_j9474697855457_2_alg».proof.Proof.LibAxes

noncomputable section

namespace Cert.KernelIdeal.Pay

open Idealize.ShloMosaic Idealize.ShloMosaic.ValueIdx Cert.KernelIdeal

/-- A coordinate row of the query block laid along the second axis: cut out, recast [2, 1, 256] → [2, 256] → [2, 256, 1]
    and spread over the third axis, its entry (b, i, j) is the block's entry (b, c, i). -/
theorem queryRow_at (off : Fin 3 → ℕ) (c : Fin 3) (h0 : off 0 = 0) (h1 : off 1 = c.val) (h2 : off 2 = 0)
    (x : S2x3x256.Idx → EReal) (hs : S2x3x256.Slices off S2x1x256) (hc1 : S2x1x256.ShapeCasts S2x256)
    (hc2 : S2x256.ShapeCasts S2x256x1) (hb : S2x256x1.Broadcasts S2x256x4096) (b : Fin 2) (i : Fin 256) (j : Fin 4096) :
    broadcastTo S2x256x4096 (shapeCast S2x256x1 (shapeCast S2x256 (extractStridedSlice S2x1x256 off x hs) hc1) hc2) hb
        (ix3 b i j) = x (ix3 b c i) :=
  (Cert.LibGroupAxes.spreadLast_apply _ hb b i j).trans <|
    (Cert.LibGroupAxes.addLastUnit_apply _ hc2 b i 0).trans <|
      (dropMid_at _ hc1 b 0 i).trans <| sliceMid_at off x hs c h0 h1 h2 b 0 i

/-- A coordinate row of the key array laid along the third axis: cut out, recast [2, 1, 4096] → [2, 4096] → [2, 1, 4096]
    and spread over the second axis, its entry (b, i, j) is the array's entry (b, c, j). -/
theorem keyRow_at (off : Fin 3 → ℕ) (c : Fin 3) (h0 : off 0 = 0) (h1 : off 1 = c.val) (h2 : off 2 = 0)
    (x : S2x3x4096.Idx → EReal) (hs : S2x3x4096.Slices off S2x1x4096) (hc1 : S2x1x4096.ShapeCasts S2x4096)
    (hc2 : S2x4096.ShapeCasts S2x1x4096) (hb : S2x1x4096.Broadcasts S2x256x4096) (b : Fin 2) (i : Fin 256) (j : Fin 4096) :
    broadcastTo S2x256x4096 (shapeCast S2x1x4096 (shapeCast S2x4096 (extractStridedSlice S2x1x4096 off x hs) hc1) hc2) hb
        (ix3 b i j) = x (ix3 b c j) :=
  (Cert.LibAxes.broadcastTo_a1c_abc_apply _ hb b i j).trans <|
    (Cert.LibAxes.shapeCast_ac_a1c_apply _ hc2 b 0 j).trans <|
      (dropMid_at _ hc1 b 0 j).trans <| sliceMid_at off x hs c h0 h1 h2 b 0 j

/-- An array recast to its own shape and multiplied by the named reciprocal of the scale: entry by entry, times 1/σ. -/
theorem scaled_at {s : Shape} (x : FVec Ideal s .f32) (h : s.ShapeCasts s) (i : s.Idx) :
    mulf (shapeCast s x h) (broadcast s (Named.named (F := Ideal) Cert.KernelIdeal.κ "inv_sigma" (φ := .f32) 0x43480000#32)) i
      = x i * Cert.LossSpec.scale := by
  rw [mulf_apply, broadcast_apply, castSelf_at, inv_sigma_eq]

/-- Entry (b, i, j) of the body's point scores is the point score of query point i against key point j. -/
theorem pay2_at (v0 : Vec Ideal S2x3x256 .f32) (v4 : Vec Ideal S2x3x4096 .f32) (b : Fin 2) (i : Fin 256) (j : Fin 4096) :
    Gen.k0_pay2 (F := Ideal) v0 v4 (ix3 b i j)
      = Cert.LossSpec.pointScore (fun c => v0 (ix3 b c i)) (fun c => v4 (ix3 b c j)) := by
  unfold Gen.k0_pay2 Cert.LossSpec.pointScore Cert.LossSpec.coordTerm
  simp only [addf_apply, subf_apply, mulf_apply, broadcast_apply,
    queryRow_at ![0, 0, 0] 0 rfl rfl rfl, queryRow_at ![0, 1, 0] 1 rfl rfl rfl, queryRow_at ![0, 2, 0] 2 rfl rfl rfl,
    keyRow_at ![0, 0, 0] 0 rfl rfl rfl, keyRow_at ![0, 1, 0] 1 rfl rfl rfl, keyRow_at ![0, 2, 0] 2 rfl rfl rfl,
    castSelf_at, inv_sigma_eq, Ideal.ofBits_def, Ideal.ofBits_zero_f32]

end Cert.KernelIdeal.Pay

end
-- ==== Proof.LibLastAxis.lean ====
/-
  Three readings along the LAST axis of a rank-3 array [a, b, c], each at an entry written by its coordinates.

  * A sum over the last axis: the array [a, b] of the sums  Σ_{l < c} x(p, q, l).
  * A trailing unit axis added by a recast [a, b] → [a, b, 1]: entry (p, q, 0) is the matrix entry (p, q).
  * Unit-width slabs [a, b, 1] set side by side along the last axis into [a, b, K]: entry (p, q, j) of the result is
    entry (p, q, 0) of the j-th slab.  The slab is named by an equation  xs[j]? = some ⟨shape, x⟩,  which for a
    literal list and a literal j is decided by walking the list; that the j slabs before it have width one each is a
    sum over the literal prefix.
  Nothing here depends on what the entries are.
-/
import Idealize.ShloMosaic.Lib.ValueIdx
import Idealize.ShloMosaic.Lib.Pipeline.Value
import Idealize.ShloMosaic.PureOps.Ideal.Laws

noncomputable section

open scoped BigOperators

namespace Cert.LibLastAxis

open Idealize.ShloMosaic Idealize.ShloMosaic.ValueIdx

/-- Over a result entry (p, q), the source index with l inserted on the last axis is (p, q, l). -/
theorem lift_last {a b c : ℕ} (h : (⟨3, ![a, b, c]⟩ : Shape).Reduces [(2 : Fin 3)] ⟨2, ![a, b]⟩)
    (p : Fin a) (q : Fin b) (l : Fin c) : h.lift (ix2 p q) l = ix3 p q l := by
  funext d
  refine Fin.ext ?_
  match d with
  | ⟨0, _⟩ => rfl
  | ⟨1, _⟩ => rfl
  | ⟨2, _⟩ => rfl

/-- A sum over the last axis, on the extended reals, read at (p, q). -/
theorem laneSum_at {a b c : ℕ} (src : FVec Ideal ⟨3, ![a, b, c]⟩ .f32) (acc : BitVec 32)
    (h : (⟨3, ![a, b, c]⟩ : Shape).Reduces [(2 : Fin 3)] ⟨2, ![a, b]⟩) (hφ : FKind.Formats .f32)
    (hacc : acc = FKind.add.neutral .f32 hφ) (p : Fin a) (q : Fin b) :
    multiReduction .add [(2 : Fin 3)] ⟨2, ![a, b]⟩ src acc h hφ hacc (ix2 p q) = ∑ l : Fin c, src (ix3 p q l) := by
  rw [Ideal.multiReduction_add_single]
  exact Finset.sum_congr rfl fun l _ => congrArg src (lift_last h p q l)

variable {α : Type}

/-- A trailing unit axis added: entry (p, q, 0) of the recast is entry (p, q) of the matrix. -/
theorem addLast_at {a b : ℕ} (x : (⟨2, ![a, b]⟩ : Shape).Idx → α)
    (h : (⟨2, ![a, b]⟩ : Shape).ShapeCasts ⟨3, ![a, b, 1]⟩) (p : Fin a) (q : Fin b) :
    shapeCast ⟨3, ![a, b, 1]⟩ x h (ix3 p q (0 : Fin 1)) = x (ix2 p q) := by
  refine shapeCast_apply x h _ _ ?_
  rw [Shape.rowMajor_val_three, Shape.rowMajor_val_two]
  show p.val * b + q.val = (p.val * b + q.val) * 1 + 0
  omega

/-- The extents of the pieces along axis `ax` of the result, as the library's lemma sums them. -/
abbrev extents {t : Shape} (ax : Fin t.rank) (ss : List Shape) : List Nat :=
  ss.map fun s => if h : s.rank = t.rank then s.size (ax.cast h.symm) else 0

/-- Unit-width slabs side by side along the last axis: entry (p, q, j) is entry (p, q, 0) of the j-th slab. -/
theorem unitSlabs_at {a b K : ℕ} (xs : List ((s : Shape) × (s.Idx → α)))
    (h : Shape.Concatenates (xs.map (·.1)) ⟨3, ![a, b, K]⟩ (2 : Fin 3)) (p : Fin a) (q : Fin b) (j : Fin K)
    (x₁ : (⟨3, ![a, b, 1]⟩ : Shape).Idx → α) (hxk : xs[j.val]? = some ⟨⟨3, ![a, b, 1]⟩, x₁⟩)
    (hpre : (extents (t := ⟨3, ![a, b, K]⟩) (2 : Fin 3) ((xs.take j.val).map (·.1))).sum = j.val) :
    concatenate ⟨3, ![a, b, K]⟩ (2 : Fin 3) xs h (ix3 p q j) = x₁ (ix3 p q (0 : Fin 1)) := by
  obtain ⟨hk, hxk'⟩ := List.getElem?_eq_some_iff.mp hxk
  exact concatenate_apply_piece (t := ⟨3, ![a, b, K]⟩) (2 : Fin 3) xs h (ix3 p q j) j.val hk ⟨3, ![a, b, 1]⟩ x₁ hxk' rfl
    j.val hpre (ix3 p q (0 : Fin 1))
    (fun d hd => by
      match d with
      | ⟨0, _⟩ => rfl
      | ⟨1, _⟩ => rfl
      | ⟨2, _⟩ => exact absurd rfl hd) rfl

end Cert.LibLastAxis

end
-- ==== Proof.PayFea.lean ====
/-
  The feature scores of the loss kernel's body, entry by entry on the extended reals.

  From the query rows a : [2, 256, 32] and the key rows k : [2, 4096, 32] the body forms the squared lengths
  Σ_d a(b, i, d)² and Σ_d k(b, j, d)² (sums over the last axis), the products Σ_d a(b, i, d) · k(b, j, d) (a matrix
  product per batch b into a zero accumulator, contracting the last axis of both), and from them
      0 - ((|a|² + |k|²) - 2 · a·k)
  at (b, i, j): the feature score of query row i against key row j.  The body's second half is split here into these
  scores and the cross term built from two score arrays.
-/
import proofs.«142151_j9474697855457_2_alg».proof.Proof.Gen.KernelIdeal.Skeleton
import proofs.«142151_j9474697855457_2_alg».proof.Proof.LossSpec
import proofs.«142151_j9474697855457_2_alg».proof.Proof.PayLayout
import proofs.«142151_j9474697855457_2_alg».proof.Proof.LibGroupAxes
import proofs.«142151_j9474697855457_2_alg».proof.Proof.LibAxes
import proofs.«142151_j9474697855457_2_alg».proof.Proof.LibLastAxis

noncomputable section

open scoped BigOperators

namespace Cert.KernelIdeal.Pay

open Idealize.ShloMosaic Idealize.ShloMosaic.ValueIdx Cert.KernelIdeal Cert.KernelIdeal.Gen

/-- The per-batch product of the query rows with the key rows: batch axis 0, the last axis of both contracted. -/
abbrev rowDot : DotDims S2x256x32 S2x4096x32 S2x256x4096 := dot_S2x256x32_S2x4096x32_S2x256x4096_2_2_1_1_0_0

/-- The body's feature scores as one function of the query rows and the key rows. -/
def feaPay (v46 : FVec Ideal S2x256x32 .f32) (v47 : FVec Ideal S2x4096x32 .f32) : FVec Ideal S2x256x4096 .f32 :=
  have v48 : FVec Ideal S2x256x32 .f32 := mulf v46 v46
  have v49 : FVec Ideal S2x256 .f32 := multiReduction .add [2] S2x256 v48 0x00000000#32 reduces_S2x256x32_S2x256 (.inl rfl) rfl
  have v50 : FVec Ideal S2x256x1 .f32 := shapeCast S2x256x1 v49 shapeCasts_S2x256_S2x256x1
  have v51 : FVec Ideal S2x4096x32 .f32 := mulf v47 v47
  have v52 : FVec Ideal S2x4096 .f32 := multiReduction .add [2] S2x4096 v51 0x00000000#32 reduces_S2x4096x32_S2x4096 (.inl rfl) rfl
  have v53 : FVec Ideal S2x1x4096 .f32 := shapeCast S2x1x4096 v52 shapeCasts_S2x4096_S2x1x4096
  have cst_17 : FVec Ideal S2x256x4096 .f32 := constant S2x256x4096 .f32 0x00000000#32
  have v54 : FVec Ideal S2x256x4096 .f32 := matmul dot_S2x256x32_S2x4096x32_S2x256x4096_2_2_1_1_0_0 none v46 v47 cst_17
  have v55 : FVec Ideal S2x256x4096 .f32 := broadcastTo S2x256x4096 v50 broadcasts_S2x256x1_S2x256x4096
  have v56 : FVec Ideal S2x256x4096 .f32 := broadcastTo S2x256x4096 v53 broadcasts_S2x1x4096_S2x256x4096
  have v57 : FVec Ideal S2x256x4096 .f32 := addf v55 v56
  have cst_18 : Ideal .f32 := Scalar.ofBits .f32 0x40000000#32
  have v58 : FVec Ideal S2x256x4096 .f32 := broadcast S2x256x4096 cst_18
  have v59 : FVec Ideal S2x256x4096 .f32 := mulf v58 v54
  have v60 : FVec Ideal S2x256x4096 .f32 := subf v57 v59
  have cst_19 : Ideal .f32 := Scalar.ofBits .f32 0x00000000#32
  have v61 : FVec Ideal S2x256x4096 .f32 := broadcast S2x256x4096 cst_19
  have v62 : FVec Ideal S2x256x4096 .f32 := subf v61 v60
  v62

/-- The body's cross term as one function of the two score arrays: row maxima from -∞, the exponentials of the
    point scores less their maximum, their sum, the sum of their products with the feature scores, the quotient, and the
    logarithm of the sum of the exponentials of the feature scores less their maximum. -/
def crossPay (v45 v62 : FVec Ideal S2x256x4096 .f32) : FVec Ideal S2x256 .f32 :=
  have v63 : FVec Ideal S2x256 .f32 := multiReduction .maximumf [2] S2x256 v45 0xFF800000#32 reduces_S2x256x4096_S2x256 (.inl rfl) rfl
  have v64 : FVec Ideal S2x256x1 .f32 := shapeCast S2x256x1 v63 shapeCasts_S2x256_S2x256x1
  have v65 : FVec Ideal S2x256x4096 .f32 := broadcastTo S2x256x4096 v64 broadcasts_S2x256x1_S2x256x4096
  have v66 : FVec Ideal S2x256x4096 .f32 := subf v45 v65
  have v67 : FVec Ideal S2x256x4096 .f32 := exp v66
  have v68 : FVec Ideal S2x256 .f32 := multiReduction .add [2] S2x256 v67 0x00000000#32 reduces_S2x256x4096_S2x256 (.inl rfl) rfl
  have v69 : FVec Ideal S2x256x1 .f32 := shapeCast S2x256x1 v68 shapeCasts_S2x256_S2x256x1
  have v70 : FVec Ideal S2x256 .f32 := multiReduction .maximumf [2] S2x256 v62 0xFF800000#32 reduces_S2x256x4096_S2x256 (.inl rfl) rfl
  have v71 : FVec Ideal S2x256x1 .f32 := shapeCast S2x256x1 v70 shapeCasts_S2x256_S2x256x1
  have v72 : FVec Ideal S2x256x4096 .f32 := broadcastTo S2x256x4096 v71 broadcasts_S2x256x1_S2x256x4096
  have v73 : FVec Ideal S2x256x4096 .f32 := subf v62 v72
  have v74 : FVec Ideal S2x256x4096 .f32 := exp v73
  have v75 : FVec Ideal S2x256 .f32 := multiReduction .add [2] S2x256 v74 0x00000000#32 reduces_S2x256x4096_S2x256 (.inl rfl) rfl
  have v76 : FVec Ideal S2x256x1 .f32 := shapeCast S2x256x1 v75 shapeCasts_S2x256_S2x256x1
  have v77 : FVec Ideal S2x256x4096 .f32 := mulf v67 v62
  have v78 : FVec Ideal S2x256 .f32 := multiReduction .add [2] S2x256 v77 0x00000000#32 reduces_S2x256x4096_S2x256 (.inl rfl) rfl
  have v79 : FVec Ideal S2x256x1 .f32 := shapeCast S2x256x1 v78 shapeCasts_S2x256_S2x256x1
  have v80 : FVec Ideal S2x256x1 .f32 := divf v79 v69
  have cst_25 : Ideal .f32 := Scalar.ofBits .f32 0x00000000#32
  have v81 : FVec Ideal S2x256x1 .f32 := broadcast S2x256x1 cst_25
  have v82 : FVec Ideal S2x256x1 .f32 := subf v81 v80
  have v83 : FVec Ideal S2x256x1 .f32 := addf v82 v71
  have v84 : FVec Ideal S2x256x1 .f32 := log v76
  have v85 : FVec Ideal S2x256x1 .f32 := addf v83 v84
  have v87 : FVec Ideal S2x256 .f32 := shapeCast S2x256 v85 shapeCasts_S2x256x1_S2x256
  v87

/-- The body's second half is the cross term of the point scores it is handed and the feature scores it forms. -/
theorem pay3_split (v45 : FVec Ideal S2x256x4096 .f32) (v46 : Vec Ideal S2x256x32 .f32) (v47 : Vec Ideal S2x4096x32 .f32) :
    Gen.k0_pay3 (F := Ideal) v45 v46 v47 = crossPay v45 (feaPay v46 v47) := rfl

/-! ## The matrix product at an entry -/

theorem rowDot_lhs0 (i : S2x256x4096.Idx) (q : rowDot.contr.Idx) : (rowDot.lhsIdx i q 0).val = (i 0).val := by
  unfold DotDims.lhsIdx
  rw [dif_pos (show (0 : Fin S2x256x32.rank) ∈ rowDot.lhsBatch by decide)]
  rfl
theorem rowDot_lhs1 (i : S2x256x4096.Idx) (q : rowDot.contr.Idx) : (rowDot.lhsIdx i q 1).val = (i 1).val := by
  unfold DotDims.lhsIdx
  rw [dif_neg (show ¬(1 : Fin S2x256x32.rank) ∈ rowDot.lhsBatch by decide),
    dif_pos (show (1 : Fin S2x256x32.rank) ∈ rowDot.lhsNonContracting by decide)]
  rfl
theorem rowDot_lhs2 (i : S2x256x4096.Idx) (q : rowDot.contr.Idx) :
    (rowDot.lhsIdx i q 2).val = (q ⟨0, by decide⟩).val :=
  rowDot.lhsIdx_val_of_single rfl i q
theorem rowDot_rhs0 (i : S2x256x4096.Idx) (q : rowDot.contr.Idx) : (rowDot.rhsIdx i q 0).val = (i 0).val := by
  unfold DotDims.rhsIdx
  rw [dif_pos (show (0 : Fin S2x4096x32.rank) ∈ rowDot.rhsBatch by decide)]
  rfl
theorem rowDot_rhs1 (i : S2x256x4096.Idx) (q : rowDot.contr.Idx) : (rowDot.rhsIdx i q 1).val = (i 2).val := by
  unfold DotDims.rhsIdx
  rw [dif_neg (show ¬(1 : Fin S2x4096x32.rank) ∈ rowDot.rhsBatch by decide),
    dif_pos (show (1 : Fin S2x4096x32.rank) ∈ rowDot.rhsNonContracting by decide)]
  rfl
theorem rowDot_rhs2 (i : S2x256x4096.Idx) (q : rowDot.contr.Idx) :
    (rowDot.rhsIdx i q 2).val = (q ⟨0, by decide⟩).val :=
  rowDot.rhsIdx_val_of_single rfl i q

/-- The per-batch product into the zero accumulator, at (b, i, j): Σ_d a(b, i, d) · k(b, j, d). -/
theorem rowDot_at (x1 : FVec Ideal S2x256x32 .f32) (x2 : FVec Ideal S2x4096x32 .f32) (b : Fin 2) (i : Fin 256)
    (j : Fin 4096) :
    matmul (F := Ideal) dot_S2x256x32_S2x4096x32_S2x256x4096_2_2_1_1_0_0 none x1 x2
        (constant S2x256x4096 .f32 0x00000000#32) (ix3 b i j)
      = ∑ d : Fin 32, x1 (ix3 b i d) * x2 (ix3 b j d) := by
  refine (Ideal.matmul_constant_zero_apply rowDot none x1 x2 (ix3 b i j)).trans ?_
  rw [← Equiv.sum_comp (contrEquiv1 rowDot 32 rfl rfl).symm]
  refine Finset.sum_congr rfl fun k _ => ?_
  have hk := contrEquiv1_symm_val rowDot 32 rfl rfl k
  have el : rowDot.lhsIdx (ix3 b i j) ((contrEquiv1 rowDot 32 rfl rfl).symm k) = ix3 b i k :=
    funext fun a => Fin.ext (by
      match a with
      | ⟨0, _⟩ => exact rowDot_lhs0 _ _
      | ⟨1, _⟩ => exact rowDot_lhs1 _ _
      | ⟨2, _⟩ => exact (rowDot_lhs2 _ _).trans hk)
  have er : rowDot.rhsIdx (ix3 b i j) ((contrEquiv1 rowDot 32 rfl rfl).symm k) = ix3 b j k :=
    funext fun a => Fin.ext (by
      match a with
      | ⟨0, _⟩ => exact rowDot_rhs0 _ _
      | ⟨1, _⟩ => exact rowDot_rhs1 _ _
      | ⟨2, _⟩ => exact (rowDot_rhs2 _ _).trans hk)
  rw [el, er]

/-! ## The lane sums and the scores at an entry -/

/-- A sum over the last axis of an [a, n, c] array from the zero pattern, at (p, q): Σ_d x(p, q, d). -/
theorem laneSum_at {a n c : ℕ} (x : FVec Ideal (⟨3, ![a, n, c]⟩ : Shape) .f32)
    (h : (⟨3, ![a, n, c]⟩ : Shape).Reduces [2] (⟨2, ![a, n]⟩ : Shape)) (hφ : FKind.Formats .f32)
    (hacc : (0x00000000#32 : BitVec 32) = 0x00000000#32) (p : Fin a) (q : Fin n) :
    multiReduction .add [2] (⟨2, ![a, n]⟩ : Shape) x 0x00000000#32 h hφ hacc (ix2 p q) = ∑ d : Fin c, x (ix3 p q d) :=
  Cert.LibLastAxis.laneSum_at x _ h hφ hacc p q

/-- Entry (b, i, j) of the body's feature scores is the feature score of query row i against key row j. -/
theorem feaPay_at (v46 : Vec Ideal S2x256x32 .f32) (v47 : Vec Ideal S2x4096x32 .f32) (b : Fin 2) (i : Fin 256)
    (j : Fin 4096) :
    feaPay v46 v47 (ix3 b i j)
      = Cert.LossSpec.feaScore (fun d => v46 (ix3 b i d)) (fun d => v47 (ix3 b j d)) := by
  unfold feaPay Cert.LossSpec.feaScore
  simp only [addf_apply, subf_apply, mulf_apply, broadcast_apply, rowDot_at,
    Cert.LibGroupAxes.spreadLast_apply, Cert.LibGroupAxes.addLastUnit_apply,
    Cert.LibAxes.broadcastTo_a1c_abc_apply, Cert.LibAxes.shapeCast_ac_a1c_apply,
    Ideal.ofBits_def, Ideal.ofBits_zero_f32, ofBits_two]
  rw [laneSum_at (mulf v46 v46), laneSum_at (mulf v47 v47)]
  rfl

end Cert.KernelIdeal.Pay

end
-- ==== Proof.LibLaneMax.lean ====
import Idealize.ShloMosaic.Lib.Pipeline.Value
import Idealize.ShloMosaic.Lib.ValueIdx
import Idealize.ShloMosaic.PureOps.Ideal.Laws

/-!
# A maximum over the LAST axis of a rank-3 vector, read at an index

On the extended reals a `vector.multi_reduction <maximumf>` over axis 2 of an `[A, B, C]` vector, started from the f32
pattern of `-∞`, is at `(p, q)` the maximum from `⊥` over `l < C` of the entries `(p, q, l)` (`laneMax_apply`): the
reduced index with the dropped coordinate put back is `(p, q, l)` (`lift_last`) and the pattern `0xFF800000` denotes
`⊥`. With it, the layout step that lets a `[b, c]` matrix be broadcast along a NEW LEADING axis: the cast
`[b, c] → [1, b, c]` read at `(0, j, k)` is the matrix at `(j, k)` (`shapeCast_bc_1bc_apply`). General: nothing here
depends on a particular program.
-/

noncomputable section

namespace Cert.LibLaneMax

open Idealize.ShloMosaic Idealize.ShloMosaic.ValueIdx

/-- The f32 pattern of `-∞` is the bottom of the extended reals. -/
theorem negInf_eq_bot : Ideal.ofBits .f32 0xFF800000#32 = (⊥ : EReal) := by
  simp [Ideal.ofBits, Ideal.ieee]

/-- The reduced index `(p, q)` with the last coordinate `l` put back is `(p, q, l)`. -/
theorem lift_last {A B C : ℕ} (h : (⟨3, ![A, B, C]⟩ : Shape).Reduces [2] (⟨2, ![A, B]⟩ : Shape)) (p : Fin A) (q : Fin B)
    (l : Fin ((⟨3, ![A, B, C]⟩ : Shape).size 2)) :
    h.lift (ix2 p q) l = ix3 p q (⟨l.val, l.isLt⟩ : Fin C) := by
  funext c; apply Fin.ext
  fin_cases c <;> rfl

/-- A maximum over the last axis from `-∞`, at `(p, q)`: the maximum from `⊥` of the entries `(p, q, l)`. -/
theorem laneMax_apply {A B C : ℕ} (src : FVec Ideal (⟨3, ![A, B, C]⟩ : Shape) .f32)
    (h : (⟨3, ![A, B, C]⟩ : Shape).Reduces [2] (⟨2, ![A, B]⟩ : Shape)) (hφ : FKind.Formats .f32)
    (hacc : (0xFF800000#32 : BitVec 32) = FKind.maximumf.neutral .f32 hφ) (p : Fin A) (q : Fin B) :
    multiReduction .maximumf [2] (⟨2, ![A, B]⟩ : Shape) src 0xFF800000#32 h hφ hacc (ix2 p q)
      = (Finset.univ : Finset (Fin C)).fold max (⊥ : EReal) fun l => src (ix3 p q l) := by
  rw [Ideal.multiReduction_maximumf_single src _ h hφ hacc (ix2 p q)]
  have hf : (src ∘ h.lift (ix2 p q)) = fun l : Fin C => src (ix3 p q l) :=
    funext fun l => congrArg src (lift_last h p q l)
  have hb : FloatOps.ofBits (F := Ideal) .f32 0xFF800000#32 = (⊥ : EReal) := negInf_eq_bot
  rw [hb]
  exact congrArg (fun f => Finset.fold max (⊥ : EReal) f (Finset.univ : Finset (Fin C))) hf

/-- A `[b, c]` matrix cast to `[1, b, c]` reads, at `(z, j, k)`, the matrix at `(j, k)`. -/
theorem shapeCast_bc_1bc_apply {α : Type} {b c : ℕ} (x : (⟨2, ![b, c]⟩ : Shape).Idx → α)
    (h : (⟨2, ![b, c]⟩ : Shape).ShapeCasts ⟨3, ![1, b, c]⟩) (z : Fin 1) (j : Fin b) (k : Fin c) :
    shapeCast ⟨3, ![1, b, c]⟩ x h (ix3 z j k) = x (ix2 j k) :=
  shapeCast_apply x h _ _ (by
    have hz : z.val = 0 := by omega
    rw [Shape.rowMajor_val_three, Shape.rowMajor_val_two]
    show j.val * c + k.val = (z.val * b + j.val) * c + k.val
    rw [hz, Nat.zero_mul, Nat.zero_add])

end Cert.LibLaneMax

end
-- ==== Proof.PayCross.lean ====
/-
  The cross term of the loss kernel's body, entry by entry on the extended reals.

  From two arrays of scores pd, fd : [2, 256, 4096] the body takes the row maxima from -∞ (a maximum over the last
  axis), the exponentials of pd less its row maximum, their row sum, the row sum of their products with fd, the quotient of
  the two sums, and the logarithm of the row sum of the exponentials of fd less its row maximum; entry (b, r) of
      (0 - Σ e^{pd - m_p} fd / Σ e^{pd - m_p}) + m_f + log Σ e^{fd - m_f}
  is the cross term of row (b, r) of pd against row (b, r) of fd.
-/
import proofs.«142151_j9474697855457_2_alg».proof.Proof.PayFea
import proofs.«142151_j9474697855457_2_alg».proof.Proof.LibLaneMax

noncomputable section

open scoped BigOperators

namespace Cert.KernelIdeal.Pay

open Idealize.ShloMosaic Idealize.ShloMosaic.ValueIdx Cert.KernelIdeal Cert.KernelIdeal.Gen

/-- The exponential of an array, entry by entry. -/
theorem exp_at {s : Shape} (x : FVec Ideal s .f32) (i : s.Idx) : exp x i = Ideal.exp (x i) := rfl

/-- The logarithm of an array, entry by entry. -/
theorem log_at {s : Shape} (x : FVec Ideal s .f32) (i : s.Idx) : log x i = Ideal.log (x i) := rfl

/-- A trailing unit axis dropped, read at the unit axis's one place. -/
theorem dropLast0_at {α : Type} {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  dropLast_at x h p q 0

/-- A maximum over the last axis of an [a, n, c] array from the pattern of -∞, at (p, q): the maximum from ⊥ of the entries
    (p, q, l). -/
theorem laneMax_at {a n c : ℕ} (x : FVec Ideal (⟨3, ![a, n, c]⟩ : Shape) .f32)
    (h : (⟨3, ![a, n, c]⟩ : Shape).Reduces [2] (⟨2, ![a, n]⟩ : Shape)) (hφ : FKind.Formats .f32)
    (hacc : (0xFF800000#32 : BitVec 32) = 0xFF800000#32) (p : Fin a) (q : Fin n) :
    multiReduction .maximumf [2] (⟨2, ![a, n]⟩ : Shape) x 0xFF800000#32 h hφ hacc (ix2 p q)
      = (Finset.univ : Finset (Fin c)).fold max (⊥ : EReal) fun l => x (ix3 p q l) :=
  Cert.LibLaneMax.laneMax_apply x h hφ hacc p q

/-- Entry (b, r) of the body's cross term is the cross term of the two score rows (b, r). -/
theorem crossPay_at (pd fd : FVec Ideal S2x256x4096 .f32) (b : Fin 2) (r : Fin 256) :
    crossPay pd fd (ix2 b r)
      = Cert.LossSpec.crossTerm (fun j => pd (ix3 b r j)) (fun j => fd (ix3 b r j)) := by
  unfold crossPay Cert.LossSpec.crossTerm Cert.LossSpec.rowMax
  simp only [dropLast0_at, addf_apply, subf_apply, divf_apply, log_at, broadcast_apply,
    Cert.LibGroupAxes.addLastUnit_apply, Ideal.ofBits_def, Ideal.ofBits_zero_f32]
  rw [laneSum_at, laneSum_at, laneSum_at]
  simp only [subf_apply, mulf_apply, exp_at, Cert.LibGroupAxes.spreadLast_apply,
    Cert.LibGroupAxes.addLastUnit_apply]
  rw [laneMax_at pd, laneMax_at fd]

end Cert.KernelIdeal.Pay

end
-- ==== Proof.PayOut.lean ====
/-
  The loss kernel's body as one function of the five blocks it loads, read at an entry.

  Entry (b, r) of what the body stores is the cross term of row (b, r) — the point scores of query point r against
  every key point, against the feature scores of query row r against every key row — times the weight w(b, r, 0).
-/
import proofs.«142151_j9474697855457_2_alg».proof.Proof.PayPoint
import proofs.«142151_j9474697855457_2_alg».proof.Proof.PayCross

noncomputable section

open scoped BigOperators

namespace Cert.KernelIdeal.Pay

open Idealize.ShloMosaic Idealize.ShloMosaic.ValueIdx Cert.KernelIdeal

/-- The last step: the [2, 256, 1] weight block recast to [2, 256] and multiplied in, at (b, r). -/
theorem pay1_at (v86 : Vec Ideal S2x256x1 .f32) (v87 : FVec Ideal S2x256 .f32) (b : Fin 2) (r : Fin 256) :
    Gen.k0_pay1 (F := Ideal) v86 v87 (ix2 b r) = v87 (ix2 b r) * v86 (ix3 b r 0) := by
  unfold Gen.k0_pay1
  simp only [mulf_apply, dropLast0_at]

/-- Entry (b, r) of the body's result: the cross term of query point r of batch b, times its weight. -/
theorem payload_at (v0 : Vec Ideal S2x3x256 .f32) (v4 : Vec Ideal S2x3x4096 .f32) (v46 : Vec Ideal S2x256x32 .f32)
    (v47 : Vec Ideal S2x4096x32 .f32) (v86 : Vec Ideal S2x256x1 .f32) (b : Fin 2) (r : Fin 256) :
    Gen.k0_pay1 (F := Ideal) v86 (Gen.k0_pay3 (F := Ideal) (Gen.k0_pay2 (F := Ideal) v0 v4) v46 v47) (ix2 b r)
      = Cert.LossSpec.crossTerm
          (fun j => Cert.LossSpec.pointScore (fun c => v0 (ix3 b c r)) (fun c => v4 (ix3 b c j)))
          (fun j => Cert.LossSpec.feaScore (fun d => v46 (ix3 b r d)) (fun d => v47 (ix3 b j d)))
        * v86 (ix3 b r 0) := by
  rw [pay1_at, pay3_split, crossPay_at]
  simp only [pay2_at, feaPay_at]

end Cert.KernelIdeal.Pay

end
-- ==== Proof.KiValue.lean ====
/-
  The kernel's first result on the extended reals: the loss of each batch as the specification spells it.  Entry (b, n)
  of the output array is the weighted cross term of query point n — the body's arithmetic at row n mod 256 of the block of
  point n / 256, whose query rows are rows of the argument arrays and whose key arrays are the whole arrays, the points
  read through the transpose —, and the closing host sum adds the 4096 entries of a batch from zero.
-/
import proofs.«142151_j9474697855457_2_alg».proof.Proof.KiBlocks
import proofs.«142151_j9474697855457_2_alg».proof.Proof.PayOut
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-- The body's result at point `t`, row `r` of batch `b`: the weighted cross term of query point t·256 + r. -/
theorem resultAt_at (c : Dev nD) (t : Fin cfg0.N) (b : Fin 2) (r : Fin 256) :
    resultAt m c t (ix2 b r)
      = Cert.LossSpec.weighted (Cert.LossSpec.arr3 (m ((c : Thread nD τ).loc main_arg0))) (Cert.LossSpec.arr3 (m ((c : Thread nD τ).loc main_arg1)))
          (Cert.LossSpec.arr3 (m ((c : Thread nD τ).loc main_arg2))) (Cert.LossSpec.col3 (m ((c : Thread nD τ).loc main_arg3))) b (qrow t r) := by
  have e0 : ∀ k : Fin 3, iblk m c 0 t (ix3 b k r) = m ((c : Thread nD τ).loc main_arg0) (ix3 b (qrow t r) k) := fun k =>
    (iblk0_apply m c t b k r).trans ((congrFun (V1_points m c) _).trans
      (transpose_ix3_021_apply (m ((c : Thread nD τ).loc main_arg0)) transposes_S2x4096x3_S2x3x4096_0_2_1 b k (qrow t r)))
  have e1 : ∀ (k : Fin 3) (j : Fin 4096), iblk m c 1 t (ix3 b k j) = m ((c : Thread nD τ).loc main_arg0) (ix3 b j k) := fun k j =>
    (iblk1_apply m c t b k j).trans ((congrFun (V1_points m c) _).trans
      (transpose_ix3_021_apply (m ((c : Thread nD τ).loc main_arg0)) transposes_S2x4096x3_S2x3x4096_0_2_1 b k j))
  have e2 : ∀ d : Fin 32, iblk m c 2 t (ix3 b r d) = m ((c : Thread nD τ).loc main_arg1) (ix3 b (qrow t r) d) := fun d =>
    (iblk2_apply m c t b r d).trans (congrFun (V1_main_arg1 m c) _)
  have e3 : ∀ (j : Fin 4096) (d : Fin 32), iblk m c 3 t (ix3 b j d) = m ((c : Thread nD τ).loc main_arg2) (ix3 b j d) := fun j d =>
    (iblk3_apply m c t b j d).trans (congrFun (V1_main_arg2 m c) _)
  have e4 : iblk m c 4 t (ix3 b r 0) = m ((c : Thread nD τ).loc main_arg3) (ix3 b (qrow t r) 0) :=
    (iblk4_apply m c t b r 0).trans (congrFun (V1_main_arg3 m c) _)
  unfold resultAt
  refine (Cert.KernelIdeal.Pay.payload_at _ _ _ _ _ b r).trans ?_
  unfold Cert.LossSpec.weighted Cert.LossSpec.ce
  exact congrArg₂ (· * ·)
    (congrArg₂ Cert.LossSpec.crossTerm
      (funext fun j => congrArg₂ Cert.LossSpec.pointScore (funext fun k => e0 k) (funext fun k => e1 k j))
      (funext fun j => congrArg₂ Cert.LossSpec.feaScore (funext fun d => e2 d) (funext fun d => e3 j d)))
    e4

/-- Entry (b, n) of the output array. -/
theorem outArr_at (c : Dev nD) (b : Fin 2) (n : Fin 4096) :
    outArr m c (ix2 b n)
      = Cert.LossSpec.weighted (Cert.LossSpec.arr3 (m ((c : Thread nD τ).loc main_arg0))) (Cert.LossSpec.arr3 (m ((c : Thread nD τ).loc main_arg1)))
          (Cert.LossSpec.arr3 (m ((c : Thread nD τ).loc main_arg2))) (Cert.LossSpec.col3 (m ((c : Thread nD τ).loc main_arg3))) b n := by
  have hn : n.val < 4096 := n.isLt
  have ht : n.val / 256 < cfg0.N := by rw [show cfg0.N = 16 from N_0]; omega
  have hq : qrow ⟨n.val / 256, ht⟩ ⟨n.val % 256, Nat.mod_lt _ (by decide)⟩ = n :=
    Fin.ext (show n.val / 256 * 256 + n.val % 256 = n.val by omega)
  show resultAt m c ⟨n.val / 256, _⟩ (ix2 b ⟨n.val % 256, _⟩) = _
  rw [resultAt_at, hq]

/-- A host sum over the point axis of a [2, 4096] array, from the zero word, at batch b. -/
theorem hostSum_at (y : S2x4096.Idx → EReal) (b : Fin 2) :
    Host.reduceAdd (F := Ideal) y (constant S_ .f32 0x00000000#32) reducesTo_S2x4096_S2_d1 h_S_ (ix1 b) = ∑ n : Fin 4096, y (ix2 b n) := by
  simp only [Host.reduceAdd, Ideal.hostReduceAdd_def]
  rw [Ideal.hostReduceAdd_single reducesTo_S2x4096_S2_d1 (by decide)]
  have hz : (constant (F := Ideal) S_ .f32 0x00000000#32) (Shape.Idx.first h_S_) = 0 := by
    show Ideal.ofBits .f32 0x00000000#32 = 0
    exact Ideal.ofBits_zero_f32
  rw [hz, zero_add]
  refine Finset.sum_congr rfl fun k _ => ?_
  exact congrArg y (funext fun a => Fin.ext (by match a with | ⟨0, _⟩ => rfl | ⟨1, _⟩ => rfl))

/-- The first closing host line sums the output array over the points. -/
theorem W3_sum (c : Dev nD) :
    W3 m c (Proc.devRef .tc main_v2)
      = Host.reduceAdd (F := Ideal) (W2 m c (Proc.devRef .tc main_v1)) (constant S_ .f32 0x00000000#32) reducesTo_S2x4096_S2_d1 h_S_ := by
  show StableHlo.after hostOps1 (W2 m c) (Proc.devRef .tc main_v2) = _
  after_results <;> rfl

/-- THE FIRST RESULT: the loss of each batch. -/
theorem W3_loss (c : Dev nD) :
    W3 m c (Proc.devRef .tc main_v2)
      = Cert.LossSpec.lossOf (m ((c : Thread nD τ).loc main_arg0)) (m ((c : Thread nD τ).loc main_arg1))
          (m ((c : Thread nD τ).loc main_arg2)) (m ((c : Thread nD τ).loc main_arg3)) := by
  rw [W3_sum, W2_out, final5]
  funext i
  obtain ⟨b, rfl⟩ : ∃ b : Fin 2, i = ix1 b := ⟨i 0, eq_ix1 i⟩
  rw [hostSum_at]
  unfold Cert.LossSpec.lossOf Cert.LossSpec.ceLoss
  exact Finset.sum_congr rfl fun n _ => outArr_at m c b n

end Cert.KernelIdeal.Hand

end
-- ==== Proof.KiReg.lean ====
/-
  The kernel's second result: the closing host lines compute the mean, over the points and over the last 29 feature
  channels, of the sum of the two feature arrays' squares — the same operations, in the same order, as the reference's
  closing stage.
-/
import proofs.«142151_j9474697855457_2_alg».proof.Proof.KiBlocks
import proofs.«142151_j9474697855457_2_alg».proof.Proof.RefReadP

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- THE SECOND RESULT is the reference's closing stage of the two feature arrays. -/
theorem W3_reg (c : Dev nD) :
    W3 m c (Proc.devRef .tc main_v13)
      = Cert.ReferenceIdeal.ReadP.val_main_v49 (F := Ideal) (m ((c : Thread nD τ).loc main_arg1)) (m ((c : Thread nD τ).loc main_arg2)) := by
  have e1 : W2 m c (Proc.devRef .tc main_arg1) = m ((c : Thread nD τ).loc main_arg1) :=
    (W2_of_ne m c main_arg1 (by decide)).trans (V1_main_arg1 m c)
  have e2 : W2 m c (Proc.devRef .tc main_arg2) = m ((c : Thread nD τ).loc main_arg2) :=
    (W2_of_ne m c main_arg2 (by decide)).trans (V1_main_arg2 m c)
  show StableHlo.after hostOps1 (W2 m c) (Proc.devRef .tc main_v13) = _
  after_results
  rw [e1, e2]
  rfl

end Cert.KernelIdeal.Hand

end
-- ==== Proof.LibFiniteEntries.lean ====
/-
  A finiteness test read back, for an array of any shape.

  A precondition "every entry of v is finite" is computed as  all(|v| < +∞):  the array of comparisons
  |v i| < +∞,  with +∞ a rank-0 f32 constant broadcast to v's shape, reduced by `and` over every axis into a
  single result, and the claim is that this result is 1.  Read backwards:
    • a reduction by `and` into one result that is 1 met a 1 at every index of its operand;
    • the bound's pattern (exponent bits all ones, fraction zero) denotes +∞;
    • an extended real whose absolute value  max x (−x)  is strictly below +∞ is a real number.
  Hence every entry of v is a real number.  Stated over an arbitrary shape and an arbitrary initial value of
  the reduction; imports the library only.
-/
import Idealize.ShloMosaic.PureOps
import Idealize.ShloMosaic.PureOps.Ideal
import Idealize.ShloMosaic.PureOps.Ideal.Laws
import Idealize.ShloMosaic.Lib.ReduceAll

noncomputable section

namespace Cert.LibFiniteEntries

open Idealize.ShloMosaic

/-- The f32 pattern with all exponent bits set and a zero fraction denotes +∞. -/
theorem top_f32 : Ideal.ofBits .f32 0x7F800000#32 = ⊤ := by
  simp [Ideal.ofBits, Ideal.ieee]

/-- An extended real whose absolute value  max x (−x)  is strictly below +∞ is a real number:
    at −∞ and at +∞ the absolute value is +∞, which is not below +∞. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The rank-0 shape has exactly one index. -/
instance subsingleton_idx0 : Subsingleton (⟨0, ![]⟩ : Shape).Idx := ⟨fun _ _ => funext fun d => d.elim0⟩

/-- ONE TEST, ANY SHAPE: if  all(|v| < +∞)  — the comparisons against the broadcast +∞ reduced by `and` into a
    result with a single index — came out 1, then every entry of  v  is a real number. -/
theorem real_of_all {s t u : Shape} {axes : List (Fin s.rank)} [Subsingleton t.Idx]
    (v : FVec Ideal s .f32)
    (hb : (⟨0, ![]⟩ : Shape).BroadcastsInDim s (![] : Fin 0 → Fin s.rank))
    (init : u.Idx → BitVec 1) (hr : s.ReducesTo axes t) (hu : 0 < u.numel) (j : t.Idx)
    (h : Host.reduce IntOp.andi
          (cmpf .olt (Host.absf v) (broadcastInDim s ![] hb (constant (F := Ideal) ⟨0, ![]⟩ .f32 0x7F800000#32)))
          init hr hu j = 1#1)
    (i : s.Idx) : ∃ r : ℝ, v i = (r : EReal) := by
  have e := Host.reduce_andi_all _ _ _ _ j h i
  -- the comparison at index i, every array operation read at that index
  have e' : Ideal.cmp .olt (max (v i) (-(v i))) (Ideal.ofBits .f32 0x7F800000#32) = 1#1 := e
  rw [top_f32] at e'
  exact real_of_abs_lt_top (v i) e'

end Cert.LibFiniteEntries

end
-- ==== Proof.KiFinite.lean ====
/-
  The precondition read back: if the finiteness test of the four argument arrays — the conjunction of the four
  tests all(|v| < +∞) — is 1, every entry of the points and of the two feature arrays is a real number.
-/
import proofs.«142151_j9474697855457_2_alg».proof.Pre_finite_inputs
import proofs.«142151_j9474697855457_2_alg».proof.Proof.LibFiniteEntries
import Idealize.ShloMosaic.Lib.Affine
import Idealize.ShloMosaic.Lib.ValueIdx

noncomputable section

namespace Cert.Finite

open Idealize.ShloMosaic Cert.Pre_finite_inputs Cert.Pre_finite_inputs.Facts

variable [Cert.Pre_finite_inputs.Facts]

/-- A test that came out 1 gives real entries in the points and both feature arrays. -/
theorem real_entries (x : FVec Ideal S2x4096x3 .f32) (a b : FVec Ideal S2x4096x32 .f32) (w : FVec Ideal S2x4096x1 .f32)
    (h : Cert.Pre_finite_inputs.fn (F := Ideal) x a b w = fun _ => 1#1) :
    (∀ i, ∃ r : ℝ, x i = (r : EReal)) ∧ (∀ i, ∃ r : ℝ, a i = (r : EReal)) ∧ (∀ i, ∃ r : ℝ, b i = (r : EReal)) := by
  have h0 := congrFun h ValueIdx.ix0
  dsimp only [fn, fn_part1] at h0
  obtain ⟨h123, -⟩ := IntOp.andi_eq_one.mp h0
  obtain ⟨h12, h3⟩ := IntOp.andi_eq_one.mp h123
  obtain ⟨h1, h2⟩ := IntOp.andi_eq_one.mp h12
  exact ⟨Cert.LibFiniteEntries.real_of_all x bcast_S_S2x4096x3 _ reducesTo_S2x4096x3_S_d0_1_2 h_S_ ValueIdx.ix0 h1,
    Cert.LibFiniteEntries.real_of_all a bcast_S_S2x4096x32 _ reducesTo_S2x4096x32_S_d0_1_2 h_S_ ValueIdx.ix0 h2,
    Cert.LibFiniteEntries.real_of_all b bcast_S_S2x4096x32 _ reducesTo_S2x4096x32_S_d0_1_2 h_S_ ValueIdx.ix0 h3⟩

end Cert.Finite

end
-- ==== Proof.LossMathA.lean ====
/-
  Extended reals that are reals: the reading of a real in the extended reals passes through finite sums,
  the row maximum of a row of reals is a real, and exp, log and the quotient of readings are readings.
-/
import proofs.«142151_j9474697855457_2_alg».proof.Proof.LossSpec

open scoped BigOperators

namespace Cert.LossMath

open Idealize.ShloMosaic Cert.LossSpec

/-- A finite sum of reals, read in the extended reals, is the sum of the readings. -/
theorem coe_sum {ι : Type*} (s : Finset ι) (f : ι → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- The maximum of a row of reals, taken from -∞, is a real (the largest entry). -/
theorem rowMax_coe (z : Fin 4096 → ℝ) : ∃ M : ℝ, rowMax (fun j => (z j : EReal)) = (M : EReal) := by
  obtain ⟨j0, -, hj0⟩ := Finset.exists_max_image Finset.univ z ⟨0, Finset.mem_univ _⟩
  refine ⟨z j0, ?_⟩
  have h : rowMax (fun j => (z j : EReal)) = Finset.univ.sup (fun j => (z j : EReal)) := rfl
  rw [h]
  apply le_antisymm
  · exact Finset.sup_le (fun j _ => EReal.coe_le_coe_iff.2 (hj0 j (Finset.mem_univ _)))
  · exact Finset.le_sup (f := fun j => (z j : EReal)) (Finset.mem_univ j0)

/-- A sum of exponentials over the row is positive. -/
theorem sumExp_pos (z : Fin 4096 → ℝ) : 0 < ∑ k, Real.exp (z k) :=
  Finset.sum_pos (fun k _ => Real.exp_pos _) ⟨0, Finset.mem_univ _⟩

/-- The sum of the exponentials of a row of reals shifted by a real, read in the extended reals. -/
theorem sumExp_coe (z : Fin 4096 → ℝ) (M : ℝ) :
    (∑ k, Ideal.exp ((z k : EReal) - (M : EReal))) = ((∑ k, Real.exp (z k - M) : ℝ) : EReal) := by
  rw [← coe_sum]
  exact Finset.sum_congr rfl (fun k _ => rfl)

/-- The logarithm of a positive real. -/
theorem log_coe_pos {L : ℝ} (hL : 0 < L) : Ideal.log (L : EReal) = (Real.log L : EReal) := by
  rw [Ideal.log_coe, if_neg (not_le.2 hL)]

end Cert.LossMath
-- ==== Proof.LossMathB.lean ====
/-
  The cross term of a row of point scores against a row of feature scores, on reals: the grouping by the two
  log-soft-assignments equals the grouping by one quotient, the row maximum and one logarithm.

  With e(j) = e^{pd(j) - Mp}, Lp = Σ e(j) > 0 and c = log Σ e^{fd(k) - Mf}:
    e^{(pd(j) - Mp) - log Lp} = e(j) / Lp,   Σ_j e(j) / Lp = 1,
  so  -Σ_j (e(j)/Lp) · ((fd(j) - Mf) - c) = -(Σ_j e(j) fd(j)) / Lp + Mf + c.
  The shifts Mp, Mf may be any reals here; in the loss they are the row maxima.
-/
import proofs.«142151_j9474697855457_2_alg».proof.Proof.LossMathA

open scoped BigOperators

namespace Cert.LossMath

open Idealize.ShloMosaic Cert.LossSpec

/-- The real cross term: minus the quotient, plus the shift, plus the logarithm. -/
noncomputable def crossR (pd fd : Fin 4096 → ℝ) (Mp Mf : ℝ) : ℝ :=
  ((0 - (∑ j, Real.exp (pd j - Mp) * fd j) / (∑ j, Real.exp (pd j - Mp))) + Mf)
    + Real.log (∑ j, Real.exp (fd j - Mf))

/-- The real log-soft-assignment of a row shifted by M. -/
noncomputable def logSoftR (z : Fin 4096 → ℝ) (M : ℝ) (j : Fin 4096) : ℝ :=
  (z j - M) - Real.log (∑ k, Real.exp (z k - M))

/-- The real cross term by the two log-soft-assignments. -/
noncomputable def crossXR (pd fd : Fin 4096 → ℝ) (Mp Mf : ℝ) : ℝ :=
  -(∑ m, Real.exp (logSoftR pd Mp m) * logSoftR fd Mf m)

/-- The two groupings agree on reals. -/
theorem crossXR_eq_crossR (pd fd : Fin 4096 → ℝ) (Mp Mf : ℝ) : crossXR pd fd Mp Mf = crossR pd fd Mp Mf := by
  have hLp : 0 < ∑ k, Real.exp (pd k - Mp) := sumExp_pos (fun k => pd k - Mp)
  unfold crossXR crossR logSoftR
  generalize hc : Real.log (∑ k, Real.exp (fd k - Mf)) = c
  generalize hL : (∑ k, Real.exp (pd k - Mp)) = Lp at hLp ⊢
  have hterm : ∀ m, Real.exp ((pd m - Mp) - Real.log Lp) * ((fd m - Mf) - c)
      = (Real.exp (pd m - Mp) * fd m) / Lp - (Mf + c) * (Real.exp (pd m - Mp) / Lp) := by
    intro m
    rw [Real.exp_sub, Real.exp_log hLp]
    ring
  rw [Finset.sum_congr rfl (fun m _ => hterm m), Finset.sum_sub_distrib, ← Finset.sum_div, ← Finset.mul_sum,
    ← Finset.sum_div, hL, div_self hLp.ne']
  ring

/-- The log-soft-assignment of a row of reals is the reading of the real one, the shift the row maximum. -/
theorem logSoft_coe (z : Fin 4096 → ℝ) (M : ℝ) (hM : rowMax (fun j => (z j : EReal)) = (M : EReal))
    (j : Fin 4096) : logSoft (fun j => (z j : EReal)) j = (logSoftR z M j : EReal) := by
  unfold logSoft logSoftR
  rw [hM, max_bot_left]
  show ((z j : EReal) - (M : EReal)) - Ideal.log (∑ k, Ideal.exp ((z k : EReal) - (M : EReal))) = _
  rw [sumExp_coe, log_coe_pos (sumExp_pos (fun k => z k - M))]
  rfl

/-- The cross term by the two log-soft-assignments, of any two rows. -/
noncomputable def crossX (pd fd : Fin 4096 → EReal) : EReal :=
  -(∑ m, Ideal.exp (logSoft pd m) * logSoft fd m)

theorem crossX_coe (pd fd : Fin 4096 → ℝ) (Mp Mf : ℝ) (hMp : rowMax (fun j => (pd j : EReal)) = (Mp : EReal))
    (hMf : rowMax (fun j => (fd j : EReal)) = (Mf : EReal)) :
    crossX (fun j => (pd j : EReal)) (fun j => (fd j : EReal)) = (crossXR pd fd Mp Mf : EReal) := by
  unfold crossX crossXR
  rw [EReal.coe_neg, ← coe_sum]
  refine congrArg Neg.neg (Finset.sum_congr rfl (fun m _ => ?_))
  rw [logSoft_coe pd Mp hMp, logSoft_coe fd Mf hMf, EReal.coe_mul]
  rfl

theorem crossTerm_coe (pd fd : Fin 4096 → ℝ) (Mp Mf : ℝ) (hMp : rowMax (fun j => (pd j : EReal)) = (Mp : EReal))
    (hMf : rowMax (fun j => (fd j : EReal)) = (Mf : EReal)) :
    crossTerm (fun j => (pd j : EReal)) (fun j => (fd j : EReal)) = (crossR pd fd Mp Mf : EReal) := by
  unfold crossTerm crossR
  rw [hMp, hMf]
  show ((0 - Ideal.div (∑ j, Ideal.exp ((pd j : EReal) - (Mp : EReal)) * (fd j : EReal))
        (∑ j, Ideal.exp ((pd j : EReal) - (Mp : EReal)))) + (Mf : EReal))
      + Ideal.log (∑ j, Ideal.exp ((fd j : EReal) - (Mf : EReal))) = _
  have hnum : (∑ j, Ideal.exp ((pd j : EReal) - (Mp : EReal)) * (fd j : EReal))
      = ((∑ j, Real.exp (pd j - Mp) * fd j : ℝ) : EReal) := by
    rw [← coe_sum]
    exact Finset.sum_congr rfl (fun j _ => by rw [EReal.coe_mul]; rfl)
  rw [hnum, sumExp_coe, sumExp_coe, log_coe_pos (sumExp_pos (fun k => fd k - Mf)),
    Ideal.div_coe (sumExp_pos (fun k => pd k - Mp)).ne', ← EReal.coe_mul, ← EReal.coe_zero, ← EReal.coe_sub,
    ← EReal.coe_add, ← EReal.coe_add, mul_one_div]

/-- On rows of reals the two groupings of the cross term agree. -/
theorem crossX_eq_crossTerm (pd fd : Fin 4096 → EReal) (hpd : ∀ j, ∃ r : ℝ, pd j = (r : EReal))
    (hfd : ∀ j, ∃ r : ℝ, fd j = (r : EReal)) : crossX pd fd = crossTerm pd fd := by
  choose pr hpr using hpd
  choose fr hfr using hfd
  obtain rfl : pd = fun j => (pr j : EReal) := funext hpr
  obtain rfl : fd = fun j => (fr j : EReal) := funext hfr
  obtain ⟨Mp, hMp⟩ := rowMax_coe pr
  obtain ⟨Mf, hMf⟩ := rowMax_coe fr
  rw [crossX_coe pr fr Mp Mf hMp hMf, crossTerm_coe pr fr Mp Mf hMp hMf, crossXR_eq_crossR]

end Cert.LossMath
-- ==== Proof.LossMathC.lean ====
/-
  The two scores on reals.  The scale σ is the real 5368709 / 2^30, so dividing by σ is multiplying by 1/σ;
  the point score by the expanded square equals the point score by the three squared differences,
    -((Σ_c (s p_c)² + Σ_c (s q_c)²) - 2 Σ_c (s p_c)(s q_c)) = Σ_c -(s p_c - s q_c)²,
  and the two feature scores differ only in writing the outer sign as a negation or as a difference from zero.
-/
import proofs.«142151_j9474697855457_2_alg».proof.Proof.LossMathA

open scoped BigOperators

namespace Cert.LossMath

open Idealize.ShloMosaic Cert.LossSpec

/-- The single-precision pattern of σ denotes (2^23 + 2348810) · 2^(119 - 127 - 23) = 5368709 / 2^30. -/
theorem sigma_eq : sigma = ((5368709 / 1073741824 : ℝ) : EReal) := by
  unfold sigma
  simp [Ideal.ofBits, Ideal.ieee]
  rw [← EReal.coe_mul, EReal.coe_eq_coe_iff]
  norm_num

/-- Division by σ is the product with the reciprocal 1/σ. -/
theorem div_sigma (x : EReal) : Ideal.div x sigma = x * scale := by
  rw [sigma_eq, Ideal.div_coe (by norm_num)]
  unfold scale
  norm_num

/-- The reciprocal 1/σ as a real. -/
noncomputable def sr : ℝ := 1073741824 / 5368709

theorem scale_eq : scale = (sr : EReal) := rfl

/-- The real point score: the three coordinates' shares, added from the first. -/
noncomputable def pointScoreR (q k : Fin 3 → ℝ) : ℝ :=
  ((0 - (q 0 * sr - k 0 * sr) * (q 0 * sr - k 0 * sr)) + (0 - (q 1 * sr - k 1 * sr) * (q 1 * sr - k 1 * sr)))
    + (0 - (q 2 * sr - k 2 * sr) * (q 2 * sr - k 2 * sr))

theorem pointScore_coe (q k : Fin 3 → ℝ) :
    pointScore (fun c => (q c : EReal)) (fun c => (k c : EReal)) = (pointScoreR q k : EReal) := by
  unfold pointScore coordTerm pointScoreR
  rw [scale_eq]
  push_cast
  rfl

/-- The point score by the expanded square, of points with real coordinates, is the same real. -/
theorem pointScoreX_coe (p : Fin 2 → Fin 4096 → Fin 3 → ℝ) (b : Fin 2) (n m : Fin 4096) :
    pointScoreX (fun b n c => (p b n c : EReal)) b n m = (pointScoreR (p b n) (p b m) : EReal) := by
  unfold pointScoreX sqLen pointScoreR
  simp only [div_sigma, Fin.sum_univ_three, scale_eq]
  rw [show (2 : EReal) = ((2 : ℝ) : EReal) from rfl]
  norm_cast
  ring

/-- The real feature score. -/
noncomputable def feaScoreR (a bk : Fin 32 → ℝ) : ℝ :=
  0 - (((∑ d, a d * a d) + (∑ d, bk d * bk d)) - 2 * ∑ d, a d * bk d)

theorem feaScore_coe (a bk : Fin 32 → ℝ) :
    feaScore (fun d => (a d : EReal)) (fun d => (bk d : EReal)) = (feaScoreR a bk : EReal) := by
  unfold feaScore feaScoreR
  simp only [← EReal.coe_mul, coe_sum]
  rw [show (2 : EReal) = ((2 : ℝ) : EReal) from rfl]
  norm_cast

/-- The two feature scores agree on all extended reals: 0 - t = -t. -/
theorem feaScoreX_eq (A B : Fin 2 → Fin 4096 → Fin 32 → EReal) (b : Fin 2) (n m : Fin 4096) :
    feaScoreX A B b n m = feaScore (A b n) (B b m) := by
  unfold feaScoreX feaScore
  rw [zero_sub]

end Cert.LossMath
-- ==== Proof.LossMath.lean ====
/-
  The loss in the grouping of the expanded squares and the two log-soft-assignments equals the loss in the
  grouping of the squared differences, one quotient, the row maximum and one logarithm, whenever the points and
  the two feature arrays have real entries (the weights may be any extended reals: the two cross terms are equal
  before the weight multiplies them).
-/
import proofs.«142151_j9474697855457_2_alg».proof.Proof.LossMathB
import proofs.«142151_j9474697855457_2_alg».proof.Proof.LossMathC

open scoped BigOperators

namespace Cert.LossMath

open Idealize.ShloMosaic Cert.LossSpec

/-- The cross terms of one query point agree, for arrays of reals. -/
theorem ceX_eq_ce (p : Fin 2 → Fin 4096 → Fin 3 → ℝ) (a bb : Fin 2 → Fin 4096 → Fin 32 → ℝ) (b : Fin 2)
    (n : Fin 4096) :
    ceX (fun b n c => (p b n c : EReal)) (fun b n d => (a b n d : EReal)) (fun b n d => (bb b n d : EReal)) b n
      = ce (fun b n c => (p b n c : EReal)) (fun b n d => (a b n d : EReal)) (fun b n d => (bb b n d : EReal)) b n := by
  have hX : ceX (fun b n c => (p b n c : EReal)) (fun b n d => (a b n d : EReal)) (fun b n d => (bb b n d : EReal)) b n
      = crossX (pointScoreX (fun b n c => (p b n c : EReal)) b n)
          (feaScoreX (fun b n d => (a b n d : EReal)) (fun b n d => (bb b n d : EReal)) b n) := rfl
  have hps : pointScoreX (fun b n c => (p b n c : EReal)) b n
      = fun m => ((pointScoreR (p b n) (p b m) : ℝ) : EReal) := funext (fun m => pointScoreX_coe p b n m)
  have hfs : feaScoreX (fun b n d => (a b n d : EReal)) (fun b n d => (bb b n d : EReal)) b n
      = fun m => ((feaScoreR (a b n) (bb b m) : ℝ) : EReal) :=
    funext (fun m => (feaScoreX_eq _ _ b n m).trans (feaScore_coe (a b n) (bb b m)))
  have hK : ce (fun b n c => (p b n c : EReal)) (fun b n d => (a b n d : EReal)) (fun b n d => (bb b n d : EReal)) b n
      = crossTerm (fun m => ((pointScoreR (p b n) (p b m) : ℝ) : EReal))
          (fun m => ((feaScoreR (a b n) (bb b m) : ℝ) : EReal)) := by
    unfold ce
    have h1 : (fun j => pointScore ((fun b n c => (p b n c : EReal)) b n) ((fun b n c => (p b n c : EReal)) b j))
        = fun m => ((pointScoreR (p b n) (p b m) : ℝ) : EReal) := funext (fun m => pointScore_coe (p b n) (p b m))
    have h2 : (fun j => feaScore ((fun b n d => (a b n d : EReal)) b n) ((fun b n d => (bb b n d : EReal)) b j))
        = fun m => ((feaScoreR (a b n) (bb b m) : ℝ) : EReal) := funext (fun m => feaScore_coe (a b n) (bb b m))
    rw [h1, h2]
  rw [hX, hps, hfs, hK]
  exact crossX_eq_crossTerm _ _ (fun j => ⟨_, rfl⟩) (fun j => ⟨_, rfl⟩)

/-- The two groupings of the loss agree on arrays of reals. -/
theorem ceLossX_eq_ceLoss (P : Fin 2 → Fin 4096 → Fin 3 → EReal) (A B : Fin 2 → Fin 4096 → Fin 32 → EReal)
    (Wt : Fin 2 → Fin 4096 → EReal)
    (hP : ∀ b n c, ∃ r : ℝ, P b n c = (r : EReal)) (hA : ∀ b n d, ∃ r : ℝ, A b n d = (r : EReal))
    (hB : ∀ b n d, ∃ r : ℝ, B b n d = (r : EReal)) (b : Fin 2) :
    Cert.LossSpec.ceLossX P A B Wt b = Cert.LossSpec.ceLoss P A B Wt b := by
  choose p hp using hP
  choose a ha using hA
  choose bb hb using hB
  obtain rfl : P = fun b n c => (p b n c : EReal) := funext (fun b => funext (fun n => funext (fun c => hp b n c)))
  obtain rfl : A = fun b n d => (a b n d : EReal) := funext (fun b => funext (fun n => funext (fun d => ha b n d)))
  obtain rfl : B = fun b n d => (bb b n d : EReal) := funext (fun b => funext (fun n => funext (fun d => hb b n d)))
  unfold ceLossX ceLoss weighted
  exact Finset.sum_congr rfl (fun n _ => congrArg (· * Wt b n) (ceX_eq_ce p a bb b n))

end Cert.LossMath
-- ==== Proof.RefLossPoint.lean ====
/-
  The reference's point scores, read entry by entry on the extended reals.

  Every coordinate is divided by the scale σ; the squared lengths are the sums of the squares of the three scaled
  coordinates, the inner products the sums of the products, and the score of a query point n against a key point m
  is  -((|p(n)|² + |p(m)|²) - 2·p(n)·p(m)),  in exactly this grouping.
-/
import proofs.«142151_j9474697855457_2_alg».proof.Proof.RefReadP
import proofs.«142151_j9474697855457_2_alg».proof.Proof.LossSpec

noncomputable section

open scoped BigOperators

namespace Cert.RefLoss

open Cert.ReferenceIdeal Cert.ReferenceIdeal.Gen Cert.ReferenceIdeal.ReadP Idealize.ShloMosaic Idealize.ShloMosaic.ValueIdx Cert.LossSpec

/-- Two index functions agree when they agree at every axis. -/
local macro "idx_eq" : tactic => `(tactic| (funext a; fin_cases a <;> rfl))

/-- The single-precision pattern of two denotes 2. -/
theorem two_eq : Ideal.ofBits .f32 0x40000000#32 = (2 : EReal) := by
  simp [Ideal.ofBits, Ideal.ieee, -EReal.coe_mul]; norm_num
  norm_cast

variable (x : (⟨S2x4096x3, .f32⟩ : BufTy).Contents (Elt Ideal))

/-- A scaled coordinate: the coordinate divided by σ. -/
theorem v1_at (b : Fin 2) (n : Fin 4096) (c : Fin 3) :
    val_main_v1 (F := Ideal) x (ix3 b n c) = Ideal.div (arr3 x b n c) sigma := by
  rw [val_main_v1_apply, val_main_v0_apply, val_main_cst_apply]
  rfl

/-- The squared length of the scaled point n (the first of the two sums of squares). -/
theorem v3_at (b : Fin 2) (n : Fin 4096) :
    val_main_v3 (F := Ideal) x (ix2 b n) = sqLen (arr3 x) b n := by
  rw [val_main_v3_apply, val_main_cst_0_apply]
  simp only [Ideal.ofBits_def, Ideal.ofBits_zero_f32, zero_add]
  unfold sqLen
  refine Finset.sum_congr rfl fun k _ => ?_
  have e : idx_main_v3 (ix2 b n) k = ix3 b n k := by idx_eq
  rw [e, val_main_v2_apply, v1_at]
  rfl

/-- The squared length of the scaled point n (the second of the two sums of squares). -/
theorem v5_at (b : Fin 2) (n : Fin 4096) :
    val_main_v5 (F := Ideal) x (ix2 b n) = sqLen (arr3 x) b n := by
  rw [val_main_v5_apply, val_main_cst_1_apply]
  simp only [Ideal.ofBits_def, Ideal.ofBits_zero_f32, zero_add]
  unfold sqLen
  refine Finset.sum_congr rfl fun k _ => ?_
  have e : idx_main_v5 (ix2 b n) k = ix3 b n k := by idx_eq
  rw [e, val_main_v4_apply, v1_at]
  rfl

/-- The inner product of the scaled points n and m. -/
theorem v6_at (b : Fin 2) (n m : Fin 4096) :
    val_main_v6 (F := Ideal) x (ix3 b n m)
      = ∑ c, Ideal.div (arr3 x b n c) sigma * Ideal.div (arr3 x b m c) sigma := by
  rw [val_main_v6_apply]
  refine Finset.sum_congr rfl fun k _ => ?_
  have el : lidx_main_v6 (ix3 b n m) k = ix3 b n k := by idx_eq
  have er : ridx_main_v6 (ix3 b n m) k = ix3 b m k := by idx_eq
  rw [el, er, v1_at, v1_at]

/-- The point score of query point n against key point m. -/
theorem v15_at (b : Fin 2) (n m : Fin 4096) :
    val_main_v15 (F := Ideal) x (ix3 b n m) = pointScoreX (arr3 x) b n m := by
  have e9 : idx_main_v9 (ix3 b n m) = ix3 b n (0 : Fin 1) := by idx_eq
  have e7 : idx_main_v7 (ix3 b n (0 : Fin 1)) = ix2 b n := by idx_eq
  have e10 : idx_main_v10 (ix3 b n m) = ix3 b (0 : Fin 1) m := by idx_eq
  have e8 : idx_main_v8 (ix3 b (0 : Fin 1) m) = ix2 b m := by idx_eq
  rw [val_main_v15_apply, val_main_v14_apply, val_main_v11_apply, val_main_v9_apply, e9, val_main_v7_apply, e7, v3_at,
    val_main_v10_apply, e10, val_main_v8_apply, e8, v5_at, val_main_v13_apply, val_main_v12_apply,
    val_main_cst_2_apply, v6_at]
  simp only [Ideal.hostNegf_def, Ideal.negf_def, Ideal.subf_def, Ideal.addf_def, Ideal.mulf_def, Ideal.ofBits_def,
    two_eq]
  rfl

end Cert.RefLoss

end
-- ==== Proof.RefLossMax.lean ====
/-
  The maximum of a row of a [2, 4096, 4096] array, read at an entry.

  On the extended reals the reduction by maximum over the last axis, started from the single-precision pattern of
  -∞, is at (p, n) the maximum from -∞ over m < 4096 of the entries (p, n, m): the reduced index with the dropped
  coordinate put back is (p, n, m), and the pattern denotes the bottom element.
-/
import proofs.«142151_j9474697855457_2_alg».proof.Proof.RefReadP
import proofs.«142151_j9474697855457_2_alg».proof.Proof.LossSpec

noncomputable section

open scoped BigOperators

namespace Cert.RefLoss

open Cert.ReferenceIdeal Cert.ReferenceIdeal.Gen Cert.ReferenceIdeal.ReadP Idealize.ShloMosaic Idealize.ShloMosaic.ValueIdx Cert.LossSpec

/-- Two index functions agree when they agree at every axis. -/
local macro "idx_eq" : tactic => `(tactic| (funext a; fin_cases a <;> rfl))

/-- The single-precision pattern of -∞ is the bottom of the extended reals. -/
theorem negInf_eq_bot : Ideal.ofBits .f32 0xFF800000#32 = (⊥ : EReal) := by
  simp [Ideal.ofBits, Ideal.ieee]

/-- The reduced index (p, n) with the last coordinate l put back is (p, n, l). -/
theorem lift_last (h : S2x4096x4096.Reduces [(2 : Fin 3)] S2x4096) (p : Fin 2) (n : Fin 4096)
    (l : Fin (S2x4096x4096.size 2)) : h.lift (ix2 p n) l = ix3 p n (⟨l.val, l.isLt⟩ : Fin 4096) := by
  funext c; apply Fin.ext
  fin_cases c <;> rfl

/-- The row maximum from -∞, at (p, n): the maximum from the bottom element of the entries (p, n, m). -/
theorem hostMaxLast_at (y : FVec Ideal S2x4096x4096 .f32) (p : Fin 2) (n : Fin 4096) :
    Host.reduce (FloatOps.maximumf (F := Ideal) (φ := .f32)) y (constant (F := Ideal) S_ .f32 0xFF800000#32)
        reducesTo_S2x4096x4096_S2x4096_d2 h_S_ (ix2 p n)
      = rowMax fun m => y (ix3 p n m) := by
  have h : S2x4096x4096.Reduces [(2 : Fin 3)] S2x4096 := by decide
  refine (Host.reduce_eq_fold_single (FloatOps.maximumf (F := Ideal) (φ := .f32)) y _
    reducesTo_S2x4096x4096_S2x4096_d2 h h_S_ (ix2 p n)).trans ?_
  have hf : (y ∘ h.lift (ix2 p n)) = fun l : Fin 4096 => y (ix3 p n l) :=
    funext fun l => congrArg y (lift_last h p n l)
  have hb : (constant (F := Ideal) S_ .f32 0xFF800000#32) (Shape.Idx.first h_S_) = (⊥ : EReal) := negInf_eq_bot
  exact congrArg₂ (fun (i : EReal) (f : Fin 4096 → EReal) => Finset.fold max i f (Finset.univ : Finset (Fin 4096)))
    hb hf

end Cert.RefLoss

end
-- ==== Proof.RefLossSoftP.lean ====
/-
  The log-soft-assignment of each row of the point scores, read entry by entry on the extended reals.

  The row maximum M is taken from -∞ and once more against -∞; every entry of the row has  max(-∞, M)  subtracted,
  the differences are exponentiated and summed along the row, and the logarithm of that sum is subtracted from the
  difference:  z(m) - max(-∞, M) - log Σ_k e^{z(k) - max(-∞, M)}.
-/
import proofs.«142151_j9474697855457_2_alg».proof.Proof.RefReadP
import proofs.«142151_j9474697855457_2_alg».proof.Proof.LossSpec
import proofs.«142151_j9474697855457_2_alg».proof.Proof.RefLossPoint
import proofs.«142151_j9474697855457_2_alg».proof.Proof.RefLossMax

noncomputable section

open scoped BigOperators

namespace Cert.RefLoss

open Cert.ReferenceIdeal Cert.ReferenceIdeal.Gen Cert.ReferenceIdeal.ReadP Idealize.ShloMosaic Idealize.ShloMosaic.ValueIdx Cert.LossSpec

/-- Two index functions agree when they agree at every axis. -/
local macro "idx_eq" : tactic => `(tactic| (funext a; fin_cases a <;> rfl))

variable (x : (⟨S2x4096x3, .f32⟩ : BufTy).Contents (Elt Ideal))

/-- The row maximum of the scores of query n. -/
theorem call0_v0_at (p : Fin 2) (n : Fin 4096) :
    val_main_call0_v0 (F := Ideal) x (ix2 p n) = rowMax (pointScoreX (arr3 x) p n) := by
  unfold val_main_call0_v0 val_main_call0_cst
  exact (hostMaxLast_at (val_main_v15 (F := Ideal) x) p n).trans (congrArg rowMax (funext fun m => v15_at x p n m))

/-- The row maximum taken once more against -∞. -/
theorem call0_v2_at (p : Fin 2) (n : Fin 4096) :
    val_main_call0_v2 (F := Ideal) x (ix2 p n) = max (⊥ : EReal) (rowMax (pointScoreX (arr3 x) p n)) := by
  rw [val_main_call0_v2_apply, val_main_call0_v1_apply, val_main_call0_cst_0_apply, call0_v0_at]
  exact congrArg (fun t : EReal => max t (rowMax (pointScoreX (arr3 x) p n))) negInf_eq_bot

/-- A score with the row maximum subtracted. -/
theorem call0_v5_at (p : Fin 2) (n m : Fin 4096) :
    val_main_call0_v5 (F := Ideal) x (ix3 p n m)
      = pointScoreX (arr3 x) p n m - max (⊥ : EReal) (rowMax (pointScoreX (arr3 x) p n)) := by
  have e4 : idx_main_call0_v4 (ix3 p n m) = ix3 p n (0 : Fin 1) := by idx_eq
  have e3 : idx_main_call0_v3 (ix3 p n (0 : Fin 1)) = ix2 p n := by idx_eq
  rw [val_main_call0_v5_apply, v15_at x, val_main_call0_v4_apply, e4, val_main_call0_v3_apply, e3, call0_v2_at]
  rfl

/-- The row's sum of the exponentials of the shifted scores. -/
theorem call0_v7_at (p : Fin 2) (n : Fin 4096) :
    val_main_call0_v7 (F := Ideal) x (ix2 p n)
      = ∑ k, Ideal.exp (pointScoreX (arr3 x) p n k - max (⊥ : EReal) (rowMax (pointScoreX (arr3 x) p n))) := by
  rw [val_main_call0_v7_apply, val_main_call0_cst_1_apply]
  simp only [Ideal.ofBits_def, Ideal.ofBits_zero_f32, zero_add]
  refine Finset.sum_congr rfl fun k _ => ?_
  have e : idx_main_call0_v7 (ix2 p n) k = ix3 p n k := by idx_eq
  rw [e, val_main_call0_v6_apply, call0_v5_at]
  rfl

/-- The log-soft-assignment of the row of scores of query n, at key m. -/
theorem v16_at (p : Fin 2) (n m : Fin 4096) :
    val_main_v16 (F := Ideal) x (ix3 p n m) = logSoft (pointScoreX (arr3 x) p n) m := by
  have e10 : idx_main_call0_v10 (ix3 p n m) = ix3 p n (0 : Fin 1) := by idx_eq
  have e8 : idx_main_call0_v8 (ix3 p n (0 : Fin 1)) = ix2 p n := by idx_eq
  rw [val_main_v16_apply, call0_v5_at, val_main_call0_v10_apply, e10, val_main_call0_v9_apply,
    val_main_call0_v8_apply, e8, call0_v7_at]
  rfl

end Cert.RefLoss

end
-- ==== Proof.RefLossFea.lean ====
/-
  The reference's feature scores, read entry by entry on the extended reals.

  The squared lengths of the query row a(n) and of the key row b(m) are the sums of the squares of their 32 entries,
  their inner product the sum of the products, and the score is  -((|a(n)|² + |b(m)|²) - 2·a(n)·b(m)),  in exactly
  this grouping.
-/
import proofs.«142151_j9474697855457_2_alg».proof.Proof.RefReadP
import proofs.«142151_j9474697855457_2_alg».proof.Proof.LossSpec
import proofs.«142151_j9474697855457_2_alg».proof.Proof.RefLossPoint

noncomputable section

open scoped BigOperators

namespace Cert.RefLoss

open Cert.ReferenceIdeal Cert.ReferenceIdeal.Gen Cert.ReferenceIdeal.ReadP Idealize.ShloMosaic Idealize.ShloMosaic.ValueIdx Cert.LossSpec

/-- Two index functions agree when they agree at every axis. -/
local macro "idx_eq" : tactic => `(tactic| (funext a; fin_cases a <;> rfl))

variable (a b : (⟨S2x4096x32, .f32⟩ : BufTy).Contents (Elt Ideal))

/-- The squared length of the query row n. -/
theorem v18_at (p : Fin 2) (n : Fin 4096) :
    val_main_v18 (F := Ideal) a (ix2 p n) = ∑ d, arr3 a p n d * arr3 a p n d := by
  rw [val_main_v18_apply, val_main_cst_3_apply]
  simp only [Ideal.ofBits_def, Ideal.ofBits_zero_f32, zero_add]
  refine Finset.sum_congr rfl fun k _ => ?_
  have e : idx_main_v18 (ix2 p n) k = ix3 p n k := by idx_eq
  rw [e, val_main_v17_apply]
  rfl

/-- The squared length of the key row m. -/
theorem v20_at (p : Fin 2) (m : Fin 4096) :
    val_main_v20 (F := Ideal) b (ix2 p m) = ∑ d, arr3 b p m d * arr3 b p m d := by
  rw [val_main_v20_apply, val_main_cst_4_apply]
  simp only [Ideal.ofBits_def, Ideal.ofBits_zero_f32, zero_add]
  refine Finset.sum_congr rfl fun k _ => ?_
  have e : idx_main_v20 (ix2 p m) k = ix3 p m k := by idx_eq
  rw [e, val_main_v19_apply]
  rfl

/-- The inner product of the query row n and the key row m. -/
theorem v21_at (p : Fin 2) (n m : Fin 4096) :
    val_main_v21 (F := Ideal) a b (ix3 p n m) = ∑ d, arr3 a p n d * arr3 b p m d := by
  rw [val_main_v21_apply]
  refine Finset.sum_congr rfl fun k _ => ?_
  have el : lidx_main_v21 (ix3 p n m) k = ix3 p n k := by idx_eq
  have er : ridx_main_v21 (ix3 p n m) k = ix3 p m k := by idx_eq
  rw [el, er]

/-- The feature score of query row n against key row m. -/
theorem v30_at (p : Fin 2) (n m : Fin 4096) :
    val_main_v30 (F := Ideal) a b (ix3 p n m) = feaScoreX (arr3 a) (arr3 b) p n m := by
  have e24 : idx_main_v24 (ix3 p n m) = ix3 p n (0 : Fin 1) := by idx_eq
  have e22 : idx_main_v22 (ix3 p n (0 : Fin 1)) = ix2 p n := by idx_eq
  have e25 : idx_main_v25 (ix3 p n m) = ix3 p (0 : Fin 1) m := by idx_eq
  have e23 : idx_main_v23 (ix3 p (0 : Fin 1) m) = ix2 p m := by idx_eq
  rw [val_main_v30_apply, val_main_v29_apply, val_main_v26_apply, val_main_v24_apply, e24, val_main_v22_apply, e22,
    v18_at, val_main_v25_apply, e25, val_main_v23_apply, e23, v20_at, val_main_v28_apply, val_main_v27_apply,
    val_main_cst_5_apply, v21_at]
  simp only [Ideal.hostNegf_def, Ideal.negf_def, Ideal.subf_def, Ideal.addf_def, Ideal.mulf_def, Ideal.ofBits_def,
    two_eq]
  rfl

end Cert.RefLoss

end
-- ==== Proof.RefLossSoftF.lean ====
/-
  The log-soft-assignment of each row of the feature scores, read entry by entry on the extended reals.

  The row maximum M is taken from -∞ and once more against -∞; every entry of the row has  max(-∞, M)  subtracted,
  the differences are exponentiated and summed along the row, and the logarithm of that sum is subtracted from the
  difference:  z(m) - max(-∞, M) - log Σ_k e^{z(k) - max(-∞, M)}.
-/
import proofs.«142151_j9474697855457_2_alg».proof.Proof.RefReadP
import proofs.«142151_j9474697855457_2_alg».proof.Proof.LossSpec
import proofs.«142151_j9474697855457_2_alg».proof.Proof.RefLossFea
import proofs.«142151_j9474697855457_2_alg».proof.Proof.RefLossMax

noncomputable section

open scoped BigOperators

namespace Cert.RefLoss

open Cert.ReferenceIdeal Cert.ReferenceIdeal.Gen Cert.ReferenceIdeal.ReadP Idealize.ShloMosaic Idealize.ShloMosaic.ValueIdx Cert.LossSpec

/-- Two index functions agree when they agree at every axis. -/
local macro "idx_eq" : tactic => `(tactic| (funext a; fin_cases a <;> rfl))

variable (a b : (⟨S2x4096x32, .f32⟩ : BufTy).Contents (Elt Ideal))

/-- The row maximum of the scores of query n. -/
theorem call1_v0_at (p : Fin 2) (n : Fin 4096) :
    val_main_call1_v0 (F := Ideal) a b (ix2 p n) = rowMax (feaScoreX (arr3 a) (arr3 b) p n) := by
  unfold val_main_call1_v0 val_main_call1_cst
  exact (hostMaxLast_at (val_main_v30 (F := Ideal) a b) p n).trans (congrArg rowMax (funext fun m => v30_at a b p n m))

/-- The row maximum taken once more against -∞. -/
theorem call1_v2_at (p : Fin 2) (n : Fin 4096) :
    val_main_call1_v2 (F := Ideal) a b (ix2 p n) = max (⊥ : EReal) (rowMax (feaScoreX (arr3 a) (arr3 b) p n)) := by
  rw [val_main_call1_v2_apply, val_main_call1_v1_apply, val_main_call1_cst_0_apply, call1_v0_at]
  exact congrArg (fun t : EReal => max t (rowMax (feaScoreX (arr3 a) (arr3 b) p n))) negInf_eq_bot

/-- A score with the row maximum subtracted. -/
theorem call1_v5_at (p : Fin 2) (n m : Fin 4096) :
    val_main_call1_v5 (F := Ideal) a b (ix3 p n m)
      = feaScoreX (arr3 a) (arr3 b) p n m - max (⊥ : EReal) (rowMax (feaScoreX (arr3 a) (arr3 b) p n)) := by
  have e4 : idx_main_call1_v4 (ix3 p n m) = ix3 p n (0 : Fin 1) := by idx_eq
  have e3 : idx_main_call1_v3 (ix3 p n (0 : Fin 1)) = ix2 p n := by idx_eq
  rw [val_main_call1_v5_apply, v30_at a b, val_main_call1_v4_apply, e4, val_main_call1_v3_apply, e3, call1_v2_at]
  rfl

/-- The row's sum of the exponentials of the shifted scores. -/
theorem call1_v7_at (p : Fin 2) (n : Fin 4096) :
    val_main_call1_v7 (F := Ideal) a b (ix2 p n)
      = ∑ k, Ideal.exp (feaScoreX (arr3 a) (arr3 b) p n k - max (⊥ : EReal) (rowMax (feaScoreX (arr3 a) (arr3 b) p n))) := by
  rw [val_main_call1_v7_apply, val_main_call1_cst_1_apply]
  simp only [Ideal.ofBits_def, Ideal.ofBits_zero_f32, zero_add]
  refine Finset.sum_congr rfl fun k _ => ?_
  have e : idx_main_call1_v7 (ix2 p n) k = ix3 p n k := by idx_eq
  rw [e, val_main_call1_v6_apply, call1_v5_at]
  rfl

/-- The log-soft-assignment of the row of scores of query n, at key m. -/
theorem v31_at (p : Fin 2) (n m : Fin 4096) :
    val_main_v31 (F := Ideal) a b (ix3 p n m) = logSoft (feaScoreX (arr3 a) (arr3 b) p n) m := by
  have e10 : idx_main_call1_v10 (ix3 p n m) = ix3 p n (0 : Fin 1) := by idx_eq
  have e8 : idx_main_call1_v8 (ix3 p n (0 : Fin 1)) = ix2 p n := by idx_eq
  rw [val_main_v31_apply, call1_v5_at, val_main_call1_v10_apply, e10, val_main_call1_v9_apply,
    val_main_call1_v8_apply, e8, call1_v7_at]
  rfl

end Cert.RefLoss

end
-- ==== Proof.RefLoss.lean ====
/-
  The reference's weighted cross term, read entry by entry on the extended reals, and with it the reference's first
  result as one function of the four argument arrays.

  For a query n the exponential of the point row's log-soft-assignment is multiplied, key by key, with the feature
  row's log-soft-assignment; the products are summed along the row and the sum negated; the result is multiplied by
  the query's weight and the weighted terms are summed over the queries of the batch.
-/
import proofs.«142151_j9474697855457_2_alg».proof.Proof.RefReadP
import proofs.«142151_j9474697855457_2_alg».proof.Proof.LossSpec
import proofs.«142151_j9474697855457_2_alg».proof.Proof.RefLossSoftP
import proofs.«142151_j9474697855457_2_alg».proof.Proof.RefLossSoftF

noncomputable section

open scoped BigOperators

namespace Cert.RefLoss

open Cert.ReferenceIdeal Cert.ReferenceIdeal.Gen Cert.ReferenceIdeal.ReadP Idealize.ShloMosaic Idealize.ShloMosaic.ValueIdx Cert.LossSpec

/-- Two index functions agree when they agree at every axis. -/
local macro "idx_eq" : tactic => `(tactic| (funext a; fin_cases a <;> rfl))

variable (x : (⟨S2x4096x3, .f32⟩ : BufTy).Contents (Elt Ideal))
  (a b : (⟨S2x4096x32, .f32⟩ : BufTy).Contents (Elt Ideal))
  (w : (⟨S2x4096x1, .f32⟩ : BufTy).Contents (Elt Ideal))

/-- The cross term of query n. -/
theorem v35_at (p : Fin 2) (n : Fin 4096) :
    val_main_v35 (F := Ideal) x a b (ix2 p n) = ceX (arr3 x) (arr3 a) (arr3 b) p n := by
  rw [val_main_v35_apply, val_main_v34_apply, val_main_cst_6_apply]
  simp only [Ideal.ofBits_def, Ideal.ofBits_zero_f32, zero_add, Ideal.hostNegf_def, Ideal.negf_def]
  unfold ceX
  refine congrArg (fun t : EReal => -t) (Finset.sum_congr rfl fun k _ => ?_)
  have e : idx_main_v34 (ix2 p n) k = ix3 p n k := by idx_eq
  rw [e, val_main_v33_apply, val_main_v32_apply, v16_at, v31_at]
  rfl

/-- The weight of query n: the weights' array with its unit axis dropped. -/
theorem v36_at (p : Fin 2) (n : Fin 4096) : val_main_v36 (F := Ideal) w (ix2 p n) = col3 w p n := by
  have e : idx_main_v36 (ix2 p n) = ix3 p n (0 : Fin 1) := by
    have hp : p.val < 2 := p.isLt
    have hn : n.val < 4096 := n.isLt
    funext c; apply Fin.ext
    fin_cases c
    · show (p.val * 4096 + n.val) / 4096 = p.val
      omega
    · show (p.val * 4096 + n.val) / 1 % 4096 = n.val
      omega
    · rfl
  rw [val_main_v36_apply, e]

/-- The reference's first result at batch p: the weighted cross terms summed over the queries. -/
theorem v38_at (p : Fin 2) :
    val_main_v38 (F := Ideal) x a b w (ix1 p) = ceLossX (arr3 x) (arr3 a) (arr3 b) (col3 w) p := by
  rw [val_main_v38_apply, val_main_cst_7_apply]
  simp only [Ideal.ofBits_def, Ideal.ofBits_zero_f32, zero_add]
  unfold ceLossX
  refine Finset.sum_congr rfl fun k _ => ?_
  have e : idx_main_v38 (ix1 p) k = ix2 p k := by idx_eq
  rw [e, val_main_v37_apply, v35_at, v36_at]
  rfl

/-- The reference's first result is the loss of the batch, in the grouping of the expanded squares and the two
    log-soft-assignments. -/
theorem ref_loss_read (i : S2.Idx) :
    val_main_v38 (F := Ideal) x a b w i
      = ceLossX (arr3 x) (arr3 a) (arr3 b) (col3 w) (i 0) := by
  obtain ⟨p, rfl⟩ : ∃ p, i = ix1 p := ⟨i 0, eq_ix1 i⟩
  exact v38_at x a b w p

end Cert.RefLoss

end
-- ==== Proof.RefRun0.lean ====
/- The reference program as a straight line of host operations, and its run: every weakly fair execution terminates
   with each buffer at the fold of the operations' results over the launch contents. -/
import proofs.«142151_j9474697855457_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The reference program's 91 host operations, in program order; the two inlined calls' operations stand at their call sites,
    over typed references. -/
abbrev ops : List (HloOp τ sig (Elt F)) :=
  [ nullary main_cst (constant S_ .f32 0x3BA3D70A#32),
    unary main_cst main_v0 (broadcastInDim S2x4096x3 ![] bcast_S_S2x4096x3 : (⟨S_, .f32⟩ : BufTy).Contents (Elt F) → (⟨S2x4096x3, .f32⟩ : BufTy).Contents (Elt F)),
    binary main_arg0 main_v0 main_v1 (Host.divf : (⟨S2x4096x3, .f32⟩ : BufTy).Contents (Elt F) → (⟨S2x4096x3, .f32⟩ : BufTy).Contents (Elt F) → (⟨S2x4096x3, .f32⟩ : BufTy).Contents (Elt F)),
    binary main_v1 main_v1 main_v2 (mulf : (⟨S2x4096x3, .f32⟩ : BufTy).Contents (Elt F) → (⟨S2x4096x3, .f32⟩ : BufTy).Contents (Elt F) → (⟨S2x4096x3, .f32⟩ : BufTy).Contents (Elt F)),
    nullary main_cst_0 (constant S_ .f32 0x00000000#32),
    binary main_v2 main_cst_0 main_v3 ((fun x v => Host.reduceAdd x v reducesTo_S2x4096x3_S2x4096_d2 h_S_) : (⟨S2x4096x3, .f32⟩ : BufTy).Contents (Elt F) → (⟨S_, .f32⟩ : BufTy).Contents (Elt F) → (⟨S2x4096, .f32⟩ : BufTy).Contents (Elt F)),
    binary main_v1 main_v1 main_v4 (mulf : (⟨S2x4096x3, .f32⟩ : BufTy).Contents (Elt F) → (⟨S2x4096x3, .f32⟩ : BufTy).Contents (Elt F) → (⟨S2x4096x3, .f32⟩ : BufTy).Contents (Elt F)),
    nullary main_cst_1 (constant S_ .f32 0x00000000#32),
    binary main_v4 main_cst_1 main_v5 ((fun x v => Host.reduceAdd x v reducesTo_S2x4096x3_S2x4096_d2 h_S_) : (⟨S2x4096x3, .f32⟩ : BufTy).Contents (Elt F) → (⟨S_, .f32⟩ : BufTy).Contents (Elt F) → (⟨S2x4096, .f32⟩ : BufTy).Contents (Elt F)),
    binary main_v1 main_v1 main_v6 ((fun l r => Host.dotGeneral dot_S2x4096x3_S2x4096x3_S2x4096x4096_2_2_1_1_0_0 none l r) : (⟨S2x4096x3, .f32⟩ : BufTy).Contents (Elt F) → (⟨S2x4096x3, .f32⟩ : BufTy).Contents (Elt F) → (⟨S2x4096x4096, .f32⟩ : BufTy).Contents (Elt F)),
    unary main_v3 main_v7 (broadcastInDim S2x4096x1 ![0, 1] bcast_S2x4096_S2x4096x1_0_1 : (⟨S2x4096, .f32⟩ : BufTy).Contents (Elt F) → (⟨S2x4096x1, .f32⟩ : BufTy).Contents (Elt F)),
    unary main_v5 main_v8 (broadcastInDim S2x1x4096 ![0, 2] bcast_S2x4096_S2x1x4096_0_2 : (⟨S2x4096, .f32⟩ : BufTy).Contents (Elt F) → (⟨S2x1x4096, .f32⟩ : BufTy).Contents (Elt F)),
    unary main_v7 main_v9 (broadcastInDim S2x4096x4096 ![0, 1, 2] bcast_S2x4096x1_S2x4096x4096_0_1_2 : (⟨S2x4096x1, .f32⟩ : BufTy).Contents (Elt F) → (⟨S2x4096x4096, .f32⟩ : BufTy).Contents (Elt F)),
    unary main_v8 main_v10 (broadcastInDim S2x4096x4096 ![0, 1, 2] bcast_S2x1x4096_S2x4096x4096_0_1_2 : (⟨S2x1x4096, .f32⟩ : BufTy).Contents (Elt F) → (⟨S2x4096x4096, .f32⟩ : BufTy).Contents (Elt F)),
    binary main_v9 main_v10 main_v11 (addf : (⟨S2x4096x4096, .f32⟩ : BufTy).Contents (Elt F) → (⟨S2x4096x4096, .f32⟩ : BufTy).Contents (Elt F) → (⟨S2x4096x4096, .f32⟩ : BufTy).Contents (Elt F)),
    nullary main_cst_2 (constant S_ .f32 0x40000000#32),
    unary main_cst_2 main_v12 (broadcastInDim S2x4096x4096 ![] bcast_S_S2x4096x4096 : (⟨S_, .f32⟩ : BufTy).Contents (Elt F) → (⟨S2x4096x4096, .f32⟩ : BufTy).Contents (Elt F)),
    binary main_v12 main_v6 main_v13 (mulf : (⟨S2x4096x4096, .f32⟩ : BufTy).Contents (Elt F) → (⟨S2x4096x4096, .f32⟩ : BufTy).Contents (Elt F) → (⟨S2x4096x4096, .f32⟩ : BufTy).Contents (Elt F)),
    binary main_v11 main_v13 main_v14 (subf : (⟨S2x4096x4096, .f32⟩ : BufTy).Contents (Elt F) → (⟨S2x4096x4096, .f32⟩ : BufTy).Contents (Elt F) → (⟨S2x4096x4096, .f32⟩ : BufTy).Contents (Elt F)),
    unary main_v14 main_v15 (Host.negf : (⟨S2x4096x4096, .f32⟩ : BufTy).Contents (Elt F) → (⟨S2x4096x4096, .f32⟩ : BufTy).Contents (Elt F)),
    TRef.nullary (TRef.of (T := ⟨S_, .f32⟩) main_call0_cst) (constant S_ .f32 0xFF800000#32),
    TRef.binary (TRef.of (T := ⟨S2x4096x4096, .f32⟩) main_v15) (TRef.of (T := ⟨S_, .f32⟩) main_call0_cst) (TRef.of (T := ⟨S2x4096, .f32⟩) main_call0_v0) (fun x v => Host.reduce FloatOps.maximumf x v reducesTo_S2x4096x4096_S2x4096_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S2x4096, .f32⟩) main_call0_v1) (broadcastInDim S2x4096 ![] bcast_S_S2x4096),
    TRef.binary (TRef.of (T := ⟨S2x4096, .f32⟩) main_call0_v1) (TRef.of (T := ⟨S2x4096, .f32⟩) main_call0_v0) (TRef.of (T := ⟨S2x4096, .f32⟩) main_call0_v2) maximumf,
    TRef.unary (TRef.of (T := ⟨S2x4096, .f32⟩) main_call0_v2) (TRef.of (T := ⟨S2x4096x1, .f32⟩) main_call0_v3) (broadcastInDim S2x4096x1 ![0, 1] bcast_S2x4096_S2x4096x1_0_1),
    TRef.unary (TRef.of (T := ⟨S2x4096x1, .f32⟩) main_call0_v3) (TRef.of (T := ⟨S2x4096x4096, .f32⟩) main_call0_v4) (broadcastInDim S2x4096x4096 ![0, 1, 2] bcast_S2x4096x1_S2x4096x4096_0_1_2),
    TRef.binary (TRef.of (T := ⟨S2x4096x4096, .f32⟩) main_v15) (TRef.of (T := ⟨S2x4096x4096, .f32⟩) main_call0_v4) (TRef.of (T := ⟨S2x4096x4096, .f32⟩) main_call0_v5) subf,
    TRef.unary (TRef.of (T := ⟨S2x4096x4096, .f32⟩) main_call0_v5) (TRef.of (T := ⟨S2x4096x4096, .f32⟩) main_call0_v6) Host.exp,
    TRef.nullary (TRef.of (T := ⟨S_, .f32⟩) main_call0_cst_1) (constant S_ .f32 0x00000000#32),
    TRef.binary (TRef.of (T := ⟨S2x4096x4096, .f32⟩) main_call0_v6) (TRef.of (T := ⟨S_, .f32⟩) main_call0_cst_1) (TRef.of (T := ⟨S2x4096, .f32⟩) main_call0_v7) (fun x v => Host.reduceAdd x v reducesTo_S2x4096x4096_S2x4096_d2 h_S_),
    TRef.unary (TRef.of (T := ⟨S2x4096, .f32⟩) main_call0_v7) (TRef.of (T := ⟨S2x4096x1, .f32⟩) main_call0_v8) (broadcastInDim S2x4096x1 ![0, 1] bcast_S2x4096_S2x4096x1_0_1),
    TRef.unary (TRef.of (T := ⟨S2x4096x1, .f32⟩) main_call0_v8) (TRef.of (T := ⟨S2x4096x1, .f32⟩) main_call0_v9) Host.log,
    TRef.unary (TRef.of (T := ⟨S2x4096x1, .f32⟩) main_call0_v9) (TRef.of (T := ⟨S2x4096x4096, .f32⟩) main_call0_v10) (broadcastInDim S2x4096x4096 ![0, 1, 2] bcast_S2x4096x1_S2x4096x4096_0_1_2),
    TRef.binary (TRef.of (T := ⟨S2x4096x4096, .f32⟩) main_call0_v5) (TRef.of (T := ⟨S2x4096x4096, .f32⟩) main_call0_v10) (TRef.of (T := ⟨S2x4096x4096, .f32⟩) main_v16) subf,
    binary main_arg1 main_arg1 main_v17 (mulf : (⟨S2x4096x32, .f32⟩ : BufTy).Contents (Elt F) → (⟨S2x4096x32, .f32⟩ : BufTy).Contents (Elt F) → (⟨S2x4096x32, .f32⟩ : BufTy).Contents (Elt F)),
    nullary main_cst_3 (constant S_ .f32 0x00000000#32),
    binary main_v17 main_cst_3 main_v18 ((fun x v => Host.reduceAdd x v reducesTo_S2x4096x32_S2x4096_d2 h_S_) : (⟨S2x4096x32, .f32⟩ : BufTy).Contents (Elt F) → (⟨S_, .f32⟩ : BufTy).Contents (Elt F) → (⟨S2x4096, .f32⟩ : BufTy).Contents (Elt F)),
    binary main_arg2 main_arg2 main_v19 (mulf : (⟨S2x4096x32, .f32⟩ : BufTy).Contents (Elt F) → (⟨S2x4096x32, .f32⟩ : BufTy).Contents (Elt F) → (⟨S2x4096x32, .f32⟩ : BufTy).Contents (Elt F)),
    nullary main_cst_4 (constant S_ .f32 0x00000000#32),
    binary main_v19 main_cst_4 main_v20 ((fun x v => Host.reduceAdd x v reducesTo_S2x4096x32_S2x4096_d2 h_S_) : (⟨S2x4096x32, .f32⟩ : BufTy).Contents (Elt F) → (⟨S_, .f32⟩ : BufTy).Contents (Elt F) → (⟨S2x4096, .f32⟩ : BufTy).Contents (Elt F)),
    binary main_arg1 main_arg2 main_v21 ((fun l r => Host.dotGeneral dot_S2x4096x32_S2x4096x32_S2x4096x4096_2_2_1_1_0_0 none l r) : (⟨S2x4096x32, .f32⟩ : BufTy).Contents (Elt F) → (⟨S2x4096x32, .f32⟩ : BufTy).Contents (Elt F) → (⟨S2x4096x4096, .f32⟩ : BufTy).Contents (Elt F)),
    unary main_v18 main_v22 (broadcastInDim S2x4096x1 ![0, 1] bcast_S2x4096_S2x4096x1_0_1 : (⟨S2x4096, .f32⟩ : BufTy).Contents (Elt F) → (⟨S2x4096x1, .f32⟩ : BufTy).Contents (Elt F)),
    unary main_v20 main_v23 (broadcastInDim S2x1x4096 ![0, 2] bcast_S2x4096_S2x1x4096_0_2 : (⟨S2x4096, .f32⟩ : BufTy).Contents (Elt F) → (⟨S2x1x4096, .f32⟩ : BufTy).Contents (Elt F)),
    unary main_v22 main_v24 (broadcastInDim S2x4096x4096 ![0, 1, 2] bcast_S2x4096x1_S2x4096x4096_0_1_2 : (⟨S2x4096x1, .f32⟩ : BufTy).Contents (Elt F) → (⟨S2x4096x4096, .f32⟩ : BufTy).Contents (Elt F)),
    unary main_v23 main_v25 (broadcastInDim S2x4096x4096 ![0, 1, 2] bcast_S2x1x4096_S2x4096x4096_0_1_2 : (⟨S2x1x4096, .f32⟩ : BufTy).Contents (Elt F) → (⟨S2x4096x4096, .f32⟩ : BufTy).Contents (Elt F)),
    binary main_v24 main_v25 main_v26 (addf : (⟨S2x4096x4096, .f32⟩ : BufTy).Contents (Elt F) → (⟨S2x4096x4096, .f32⟩ : BufTy).Contents (Elt F) → (⟨S2x4096x4096, .f32⟩ : BufTy).Contents (Elt F)),
    nullary main_cst_5 (constant S_ .f32 0x40000000#32),
    unary main_cst_5 main_v27 (broadcastInDim S2x4096x4096 ![] bcast_S_S2x4096x4096 : (⟨S_, .f32⟩ : BufTy).Contents (Elt F) → (⟨S2x4096x4096, .f32⟩ : BufTy).Contents (Elt F)),
    binary main_v27 main_v21 main_v28 (mulf : (⟨S2x4096x4096, .f32⟩ : BufTy).Contents (Elt F) → (⟨S2x4096x4096, .f32⟩ : BufTy).Contents (Elt F) → (⟨S2x4096x4096, .f32⟩ : BufTy).Contents (Elt F)),
    binary main_v26 main_v28 main_v29 (subf : (⟨S2x4096x4096, .f32⟩ : BufTy).Contents (Elt F) → (⟨S2x4096x4096, .f32⟩ : BufTy).Contents (Elt F) → (⟨S2x4096x4096, .f32⟩ : BufTy).Contents (Elt F)),
    unary main_v29 main_v30 (Host.negf : (⟨S2x4096x4096, .f32⟩ : BufTy).Contents (Elt F) → (⟨S2x4096x4096, .f32⟩ : BufTy).Contents (Elt F)),
    TRef.nullary (TRef.of (T := ⟨S_, .f32⟩) main_call1_cst) (constant S_ .f32 0xFF800000#32),
    TRef.binary (TRef.of (T := ⟨S2x4096x4096, .f32⟩) main_v30) (TRef.of (T := ⟨S_, .f32⟩) main_call1_cst) (TRef.of (T := ⟨S2x4096, .f32⟩) main_call1_v0) (fun x v => Host.reduce FloatOps.maximumf x v reducesTo_S2x4096x4096_S2x4096_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S2x4096, .f32⟩) main_call1_v1) (broadcastInDim S2x4096 ![] bcast_S_S2x4096),
    TRef.binary (TRef.of (T := ⟨S2x4096, .f32⟩) main_call1_v1) (TRef.of (T := ⟨S2x4096, .f32⟩) main_call1_v0) (TRef.of (T := ⟨S2x4096, .f32⟩) main_call1_v2) maximumf,
    TRef.unary (TRef.of (T := ⟨S2x4096, .f32⟩) main_call1_v2) (TRef.of (T := ⟨S2x4096x1, .f32⟩) main_call1_v3) (broadcastInDim S2x4096x1 ![0, 1] bcast_S2x4096_S2x4096x1_0_1),
    TRef.unary (TRef.of (T := ⟨S2x4096x1, .f32⟩) main_call1_v3) (TRef.of (T := ⟨S2x4096x4096, .f32⟩) main_call1_v4) (broadcastInDim S2x4096x4096 ![0, 1, 2] bcast_S2x4096x1_S2x4096x4096_0_1_2),
    TRef.binary (TRef.of (T := ⟨S2x4096x4096, .f32⟩) main_v30) (TRef.of (T := ⟨S2x4096x4096, .f32⟩) main_call1_v4) (TRef.of (T := ⟨S2x4096x4096, .f32⟩) main_call1_v5) subf,
    TRef.unary (TRef.of (T := ⟨S2x4096x4096, .f32⟩) main_call1_v5) (TRef.of (T := ⟨S2x4096x4096, .f32⟩) main_call1_v6) Host.exp,
    TRef.nullary (TRef.of (T := ⟨S_, .f32⟩) main_call1_cst_1) (constant S_ .f32 0x00000000#32),
    TRef.binary (TRef.of (T := ⟨S2x4096x4096, .f32⟩) main_call1_v6) (TRef.of (T := ⟨S_, .f32⟩) main_call1_cst_1) (TRef.of (T := ⟨S2x4096, .f32⟩) main_call1_v7) (fun x v => Host.reduceAdd x v reducesTo_S2x4096x4096_S2x4096_d2 h_S_),
    TRef.unary (TRef.of (T := ⟨S2x4096, .f32⟩) main_call1_v7) (TRef.of (T := ⟨S2x4096x1, .f32⟩) main_call1_v8) (broadcastInDim S2x4096x1 ![0, 1] bcast_S2x4096_S2x4096x1_0_1),
    TRef.unary (TRef.of (T := ⟨S2x4096x1, .f32⟩) main_call1_v8) (TRef.of (T := ⟨S2x4096x1, .f32⟩) main_call1_v9) Host.log,
    TRef.unary (TRef.of (T := ⟨S2x4096x1, .f32⟩) main_call1_v9) (TRef.of (T := ⟨S2x4096x4096, .f32⟩) main_call1_v10) (broadcastInDim S2x4096x4096 ![0, 1, 2] bcast_S2x4096x1_S2x4096x4096_0_1_2),
    TRef.binary (TRef.of (T := ⟨S2x4096x4096, .f32⟩) main_call1_v5) (TRef.of (T := ⟨S2x4096x4096, .f32⟩) main_call1_v10) (TRef.of (T := ⟨S2x4096x4096, .f32⟩) main_v31) subf,
    unary main_v16 main_v32 (Host.exp : (⟨S2x4096x4096, .f32⟩ : BufTy).Contents (Elt F) → (⟨S2x4096x4096, .f32⟩ : BufTy).Contents (Elt F)),
    binary main_v32 main_v31 main_v33 (mulf : (⟨S2x4096x4096, .f32⟩ : BufTy).Contents (Elt F) → (⟨S2x4096x4096, .f32⟩ : BufTy).Contents (Elt F) → (⟨S2x4096x4096, .f32⟩ : BufTy).Contents (Elt F)),
    nullary main_cst_6 (constant S_ .f32 0x00000000#32),
    binary main_v33 main_cst_6 main_v34 ((fun x v => Host.reduceAdd x v reducesTo_S2x4096x4096_S2x4096_d2 h_S_) : (⟨S2x4096x4096, .f32⟩ : BufTy).Contents (Elt F) → (⟨S_, .f32⟩ : BufTy).Contents (Elt F) → (⟨S2x4096, .f32⟩ : BufTy).Contents (Elt F)),
    unary main_v34 main_v35 (Host.negf : (⟨S2x4096, .f32⟩ : BufTy).Contents (Elt F) → (⟨S2x4096, .f32⟩ : BufTy).Contents (Elt F)),
    reshape main_arg3 main_v36 rfl shapeCasts_S2x4096x1_S2x4096,
    binary main_v35 main_v36 main_v37 (mulf : (⟨S2x4096, .f32⟩ : BufTy).Contents (Elt F) → (⟨S2x4096, .f32⟩ : BufTy).Contents (Elt F) → (⟨S2x4096, .f32⟩ : BufTy).Contents (Elt F)),
    nullary main_cst_7 (constant S_ .f32 0x00000000#32),
    binary main_v37 main_cst_7 main_v38 ((fun x v => Host.reduceAdd x v reducesTo_S2x4096_S2_d1 h_S_) : (⟨S2x4096, .f32⟩ : BufTy).Contents (Elt F) → (⟨S_, .f32⟩ : BufTy).Contents (Elt F) → (⟨S2, .f32⟩ : BufTy).Contents (Elt F)),
    unary main_arg1 main_v39 ((extractStridedSlice S2x4096x29 ![0, 0, 3] · slices_S2x4096x32_S2x4096x29_0_0_3) : (⟨S2x4096x32, .f32⟩ : BufTy).Contents (Elt F) → (⟨S2x4096x29, .f32⟩ : BufTy).Contents (Elt F)),
    binary main_v39 main_v39 main_v40 (mulf : (⟨S2x4096x29, .f32⟩ : BufTy).Contents (Elt F) → (⟨S2x4096x29, .f32⟩ : BufTy).Contents (Elt F) → (⟨S2x4096x29, .f32⟩ : BufTy).Contents (Elt F)),
    unary main_arg2 main_v41 ((extractStridedSlice S2x4096x29 ![0, 0, 3] · slices_S2x4096x32_S2x4096x29_0_0_3) : (⟨S2x4096x32, .f32⟩ : BufTy).Contents (Elt F) → (⟨S2x4096x29, .f32⟩ : BufTy).Contents (Elt F)),
    binary main_v41 main_v41 main_v42 (mulf : (⟨S2x4096x29, .f32⟩ : BufTy).Contents (Elt F) → (⟨S2x4096x29, .f32⟩ : BufTy).Contents (Elt F) → (⟨S2x4096x29, .f32⟩ : BufTy).Contents (Elt F)),
    binary main_v40 main_v42 main_v43 (addf : (⟨S2x4096x29, .f32⟩ : BufTy).Contents (Elt F) → (⟨S2x4096x29, .f32⟩ : BufTy).Contents (Elt F) → (⟨S2x4096x29, .f32⟩ : BufTy).Contents (Elt F)),
    nullary main_cst_8 (constant S_ .f32 0x00000000#32),
    binary main_v43 main_cst_8 main_v44 ((fun x v => Host.reduceAdd x v reducesTo_S2x4096x29_S2x4096_d2 h_S_) : (⟨S2x4096x29, .f32⟩ : BufTy).Contents (Elt F) → (⟨S_, .f32⟩ : BufTy).Contents (Elt F) → (⟨S2x4096, .f32⟩ : BufTy).Contents (Elt F)),
    nullary main_cst_9 (constant S_ .f32 0x41E80000#32),
    unary main_cst_9 main_v45 (broadcastInDim S2x4096 ![] bcast_S_S2x4096 : (⟨S_, .f32⟩ : BufTy).Contents (Elt F) → (⟨S2x4096, .f32⟩ : BufTy).Contents (Elt F)),
    binary main_v44 main_v45 main_v46 (Host.divf : (⟨S2x4096, .f32⟩ : BufTy).Contents (Elt F) → (⟨S2x4096, .f32⟩ : BufTy).Contents (Elt F) → (⟨S2x4096, .f32⟩ : BufTy).Contents (Elt F)),
    nullary main_cst_10 (constant S_ .f32 0x00000000#32),
    binary main_v46 main_cst_10 main_v47 ((fun x v => Host.reduceAdd x v reducesTo_S2x4096_S2_d1 h_S_) : (⟨S2x4096, .f32⟩ : BufTy).Contents (Elt F) → (⟨S_, .f32⟩ : BufTy).Contents (Elt F) → (⟨S2, .f32⟩ : BufTy).Contents (Elt F)),
    nullary main_cst_11 (constant S_ .f32 0x45800000#32),
    unary main_cst_11 main_v48 (broadcastInDim S2 ![] bcast_S_S2 : (⟨S_, .f32⟩ : BufTy).Contents (Elt F) → (⟨S2, .f32⟩ : BufTy).Contents (Elt F)),
    binary main_v47 main_v48 main_v49 (Host.divf : (⟨S2, .f32⟩ : BufTy).Contents (Elt F) → (⟨S2, .f32⟩ : BufTy).Contents (Elt F) → (⟨S2, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., nullary_bufs_sub .., binary_bufs_sub .., unary_bufs_sub .., reshape_bufs_sub .., binary_bufs_sub .., nullary_bufs_sub .., binary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub ..⟩

/-- The run, buffer by buffer: each ends at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.HandRun

end
-- ==== Proof.RefRun1.lean ====
/- The reference program's operations cut into five stretches, and the fold over a concatenation. -/
import proofs.«142151_j9474697855457_2_alg».proof.Proof.RefRun0

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1–20: the first argument divided by a constant, its rows' squared norms and pairwise products, ending at the negated
    pairwise squared distances between those scaled rows. -/
abbrev ops1 : List (HloOp τ sig (Elt F)) :=
  [ nullary main_cst (constant S_ .f32 0x3BA3D70A#32),
    unary main_cst main_v0 (broadcastInDim S2x4096x3 ![] bcast_S_S2x4096x3 : (⟨S_, .f32⟩ : BufTy).Contents (Elt F) → (⟨S2x4096x3, .f32⟩ : BufTy).Contents (Elt F)),
    binary main_arg0 main_v0 main_v1 (Host.divf : (⟨S2x4096x3, .f32⟩ : BufTy).Contents (Elt F) → (⟨S2x4096x3, .f32⟩ : BufTy).Contents (Elt F) → (⟨S2x4096x3, .f32⟩ : BufTy).Contents (Elt F)),
    binary main_v1 main_v1 main_v2 (mulf : (⟨S2x4096x3, .f32⟩ : BufTy).Contents (Elt F) → (⟨S2x4096x3, .f32⟩ : BufTy).Contents (Elt F) → (⟨S2x4096x3, .f32⟩ : BufTy).Contents (Elt F)),
    nullary main_cst_0 (constant S_ .f32 0x00000000#32),
    binary main_v2 main_cst_0 main_v3 ((fun x v => Host.reduceAdd x v reducesTo_S2x4096x3_S2x4096_d2 h_S_) : (⟨S2x4096x3, .f32⟩ : BufTy).Contents (Elt F) → (⟨S_, .f32⟩ : BufTy).Contents (Elt F) → (⟨S2x4096, .f32⟩ : BufTy).Contents (Elt F)),
    binary main_v1 main_v1 main_v4 (mulf : (⟨S2x4096x3, .f32⟩ : BufTy).Contents (Elt F) → (⟨S2x4096x3, .f32⟩ : BufTy).Contents (Elt F) → (⟨S2x4096x3, .f32⟩ : BufTy).Contents (Elt F)),
    nullary main_cst_1 (constant S_ .f32 0x00000000#32),
    binary main_v4 main_cst_1 main_v5 ((fun x v => Host.reduceAdd x v reducesTo_S2x4096x3_S2x4096_d2 h_S_) : (⟨S2x4096x3, .f32⟩ : BufTy).Contents (Elt F) → (⟨S_, .f32⟩ : BufTy).Contents (Elt F) → (⟨S2x4096, .f32⟩ : BufTy).Contents (Elt F)),
    binary main_v1 main_v1 main_v6 ((fun l r => Host.dotGeneral dot_S2x4096x3_S2x4096x3_S2x4096x4096_2_2_1_1_0_0 none l r) : (⟨S2x4096x3, .f32⟩ : BufTy).Contents (Elt F) → (⟨S2x4096x3, .f32⟩ : BufTy).Contents (Elt F) → (⟨S2x4096x4096, .f32⟩ : BufTy).Contents (Elt F)),
    unary main_v3 main_v7 (broadcastInDim S2x4096x1 ![0, 1] bcast_S2x4096_S2x4096x1_0_1 : (⟨S2x4096, .f32⟩ : BufTy).Contents (Elt F) → (⟨S2x4096x1, .f32⟩ : BufTy).Contents (Elt F)),
    unary main_v5 main_v8 (broadcastInDim S2x1x4096 ![0, 2] bcast_S2x4096_S2x1x4096_0_2 : (⟨S2x4096, .f32⟩ : BufTy).Contents (Elt F) → (⟨S2x1x4096, .f32⟩ : BufTy).Contents (Elt F)),
    unary main_v7 main_v9 (broadcastInDim S2x4096x4096 ![0, 1, 2] bcast_S2x4096x1_S2x4096x4096_0_1_2 : (⟨S2x4096x1, .f32⟩ : BufTy).Contents (Elt F) → (⟨S2x4096x4096, .f32⟩ : BufTy).Contents (Elt F)),
    unary main_v8 main_v10 (broadcastInDim S2x4096x4096 ![0, 1, 2] bcast_S2x1x4096_S2x4096x4096_0_1_2 : (⟨S2x1x4096, .f32⟩ : BufTy).Contents (Elt F) → (⟨S2x4096x4096, .f32⟩ : BufTy).Contents (Elt F)),
    binary main_v9 main_v10 main_v11 (addf : (⟨S2x4096x4096, .f32⟩ : BufTy).Contents (Elt F) → (⟨S2x4096x4096, .f32⟩ : BufTy).Contents (Elt F) → (⟨S2x4096x4096, .f32⟩ : BufTy).Contents (Elt F)),
    nullary main_cst_2 (constant S_ .f32 0x40000000#32),
    unary main_cst_2 main_v12 (broadcastInDim S2x4096x4096 ![] bcast_S_S2x4096x4096 : (⟨S_, .f32⟩ : BufTy).Contents (Elt F) → (⟨S2x4096x4096, .f32⟩ : BufTy).Contents (Elt F)),
    binary main_v12 main_v6 main_v13 (mulf : (⟨S2x4096x4096, .f32⟩ : BufTy).Contents (Elt F) → (⟨S2x4096x4096, .f32⟩ : BufTy).Contents (Elt F) → (⟨S2x4096x4096, .f32⟩ : BufTy).Contents (Elt F)),
    binary main_v11 main_v13 main_v14 (subf : (⟨S2x4096x4096, .f32⟩ : BufTy).Contents (Elt F) → (⟨S2x4096x4096, .f32⟩ : BufTy).Contents (Elt F) → (⟨S2x4096x4096, .f32⟩ : BufTy).Contents (Elt F)),
    unary main_v14 main_v15 (Host.negf : (⟨S2x4096x4096, .f32⟩ : BufTy).Contents (Elt F) → (⟨S2x4096x4096, .f32⟩ : BufTy).Contents (Elt F)) ]

/-- Operations 21–35, the first inlined call: the log-softmax along the last axis (maximum, shift, exponential, sum, logarithm, shift). -/
abbrev ops2 : List (HloOp τ sig (Elt F)) :=
  [ TRef.nullary (TRef.of (T := ⟨S_, .f32⟩) main_call0_cst) (constant S_ .f32 0xFF800000#32),
    TRef.binary (TRef.of (T := ⟨S2x4096x4096, .f32⟩) main_v15) (TRef.of (T := ⟨S_, .f32⟩) main_call0_cst) (TRef.of (T := ⟨S2x4096, .f32⟩) main_call0_v0) (fun x v => Host.reduce FloatOps.maximumf x v reducesTo_S2x4096x4096_S2x4096_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S2x4096, .f32⟩) main_call0_v1) (broadcastInDim S2x4096 ![] bcast_S_S2x4096),
    TRef.binary (TRef.of (T := ⟨S2x4096, .f32⟩) main_call0_v1) (TRef.of (T := ⟨S2x4096, .f32⟩) main_call0_v0) (TRef.of (T := ⟨S2x4096, .f32⟩) main_call0_v2) maximumf,
    TRef.unary (TRef.of (T := ⟨S2x4096, .f32⟩) main_call0_v2) (TRef.of (T := ⟨S2x4096x1, .f32⟩) main_call0_v3) (broadcastInDim S2x4096x1 ![0, 1] bcast_S2x4096_S2x4096x1_0_1),
    TRef.unary (TRef.of (T := ⟨S2x4096x1, .f32⟩) main_call0_v3) (TRef.of (T := ⟨S2x4096x4096, .f32⟩) main_call0_v4) (broadcastInDim S2x4096x4096 ![0, 1, 2] bcast_S2x4096x1_S2x4096x4096_0_1_2),
    TRef.binary (TRef.of (T := ⟨S2x4096x4096, .f32⟩) main_v15) (TRef.of (T := ⟨S2x4096x4096, .f32⟩) main_call0_v4) (TRef.of (T := ⟨S2x4096x4096, .f32⟩) main_call0_v5) subf,
    TRef.unary (TRef.of (T := ⟨S2x4096x4096, .f32⟩) main_call0_v5) (TRef.of (T := ⟨S2x4096x4096, .f32⟩) main_call0_v6) Host.exp,
    TRef.nullary (TRef.of (T := ⟨S_, .f32⟩) main_call0_cst_1) (constant S_ .f32 0x00000000#32),
    TRef.binary (TRef.of (T := ⟨S2x4096x4096, .f32⟩) main_call0_v6) (TRef.of (T := ⟨S_, .f32⟩) main_call0_cst_1) (TRef.of (T := ⟨S2x4096, .f32⟩) main_call0_v7) (fun x v => Host.reduceAdd x v reducesTo_S2x4096x4096_S2x4096_d2 h_S_),
    TRef.unary (TRef.of (T := ⟨S2x4096, .f32⟩) main_call0_v7) (TRef.of (T := ⟨S2x4096x1, .f32⟩) main_call0_v8) (broadcastInDim S2x4096x1 ![0, 1] bcast_S2x4096_S2x4096x1_0_1),
    TRef.unary (TRef.of (T := ⟨S2x4096x1, .f32⟩) main_call0_v8) (TRef.of (T := ⟨S2x4096x1, .f32⟩) main_call0_v9) Host.log,
    TRef.unary (TRef.of (T := ⟨S2x4096x1, .f32⟩) main_call0_v9) (TRef.of (T := ⟨S2x4096x4096, .f32⟩) main_call0_v10) (broadcastInDim S2x4096x4096 ![0, 1, 2] bcast_S2x4096x1_S2x4096x4096_0_1_2),
    TRef.binary (TRef.of (T := ⟨S2x4096x4096, .f32⟩) main_call0_v5) (TRef.of (T := ⟨S2x4096x4096, .f32⟩) main_call0_v10) (TRef.of (T := ⟨S2x4096x4096, .f32⟩) main_v16) subf ]

/-- Operations 36–52: the negated pairwise squared distances between the rows of the second argument and the rows of the third. -/
abbrev ops3 : List (HloOp τ sig (Elt F)) :=
  [ binary main_arg1 main_arg1 main_v17 (mulf : (⟨S2x4096x32, .f32⟩ : BufTy).Contents (Elt F) → (⟨S2x4096x32, .f32⟩ : BufTy).Contents (Elt F) → (⟨S2x4096x32, .f32⟩ : BufTy).Contents (Elt F)),
    nullary main_cst_3 (constant S_ .f32 0x00000000#32),
    binary main_v17 main_cst_3 main_v18 ((fun x v => Host.reduceAdd x v reducesTo_S2x4096x32_S2x4096_d2 h_S_) : (⟨S2x4096x32, .f32⟩ : BufTy).Contents (Elt F) → (⟨S_, .f32⟩ : BufTy).Contents (Elt F) → (⟨S2x4096, .f32⟩ : BufTy).Contents (Elt F)),
    binary main_arg2 main_arg2 main_v19 (mulf : (⟨S2x4096x32, .f32⟩ : BufTy).Contents (Elt F) → (⟨S2x4096x32, .f32⟩ : BufTy).Contents (Elt F) → (⟨S2x4096x32, .f32⟩ : BufTy).Contents (Elt F)),
    nullary main_cst_4 (constant S_ .f32 0x00000000#32),
    binary main_v19 main_cst_4 main_v20 ((fun x v => Host.reduceAdd x v reducesTo_S2x4096x32_S2x4096_d2 h_S_) : (⟨S2x4096x32, .f32⟩ : BufTy).Contents (Elt F) → (⟨S_, .f32⟩ : BufTy).Contents (Elt F) → (⟨S2x4096, .f32⟩ : BufTy).Contents (Elt F)),
    binary main_arg1 main_arg2 main_v21 ((fun l r => Host.dotGeneral dot_S2x4096x32_S2x4096x32_S2x4096x4096_2_2_1_1_0_0 none l r) : (⟨S2x4096x32, .f32⟩ : BufTy).Contents (Elt F) → (⟨S2x4096x32, .f32⟩ : BufTy).Contents (Elt F) → (⟨S2x4096x4096, .f32⟩ : BufTy).Contents (Elt F)),
    unary main_v18 main_v22 (broadcastInDim S2x4096x1 ![0, 1] bcast_S2x4096_S2x4096x1_0_1 : (⟨S2x4096, .f32⟩ : BufTy).Contents (Elt F) → (⟨S2x4096x1, .f32⟩ : BufTy).Contents (Elt F)),
    unary main_v20 main_v23 (broadcastInDim S2x1x4096 ![0, 2] bcast_S2x4096_S2x1x4096_0_2 : (⟨S2x4096, .f32⟩ : BufTy).Contents (Elt F) → (⟨S2x1x4096, .f32⟩ : BufTy).Contents (Elt F)),
    unary main_v22 main_v24 (broadcastInDim S2x4096x4096 ![0, 1, 2] bcast_S2x4096x1_S2x4096x4096_0_1_2 : (⟨S2x4096x1, .f32⟩ : BufTy).Contents (Elt F) → (⟨S2x4096x4096, .f32⟩ : BufTy).Contents (Elt F)),
    unary main_v23 main_v25 (broadcastInDim S2x4096x4096 ![0, 1, 2] bcast_S2x1x4096_S2x4096x4096_0_1_2 : (⟨S2x1x4096, .f32⟩ : BufTy).Contents (Elt F) → (⟨S2x4096x4096, .f32⟩ : BufTy).Contents (Elt F)),
    binary main_v24 main_v25 main_v26 (addf : (⟨S2x4096x4096, .f32⟩ : BufTy).Contents (Elt F) → (⟨S2x4096x4096, .f32⟩ : BufTy).Contents (Elt F) → (⟨S2x4096x4096, .f32⟩ : BufTy).Contents (Elt F)),
    nullary main_cst_5 (constant S_ .f32 0x40000000#32),
    unary main_cst_5 main_v27 (broadcastInDim S2x4096x4096 ![] bcast_S_S2x4096x4096 : (⟨S_, .f32⟩ : BufTy).Contents (Elt F) → (⟨S2x4096x4096, .f32⟩ : BufTy).Contents (Elt F)),
    binary main_v27 main_v21 main_v28 (mulf : (⟨S2x4096x4096, .f32⟩ : BufTy).Contents (Elt F) → (⟨S2x4096x4096, .f32⟩ : BufTy).Contents (Elt F) → (⟨S2x4096x4096, .f32⟩ : BufTy).Contents (Elt F)),
    binary main_v26 main_v28 main_v29 (subf : (⟨S2x4096x4096, .f32⟩ : BufTy).Contents (Elt F) → (⟨S2x4096x4096, .f32⟩ : BufTy).Contents (Elt F) → (⟨S2x4096x4096, .f32⟩ : BufTy).Contents (Elt F)),
    unary main_v29 main_v30 (Host.negf : (⟨S2x4096x4096, .f32⟩ : BufTy).Contents (Elt F) → (⟨S2x4096x4096, .f32⟩ : BufTy).Contents (Elt F)) ]

/-- Operations 53–67, the second inlined call: the same log-softmax along the last axis. -/
abbrev ops4 : List (HloOp τ sig (Elt F)) :=
  [ TRef.nullary (TRef.of (T := ⟨S_, .f32⟩) main_call1_cst) (constant S_ .f32 0xFF800000#32),
    TRef.binary (TRef.of (T := ⟨S2x4096x4096, .f32⟩) main_v30) (TRef.of (T := ⟨S_, .f32⟩) main_call1_cst) (TRef.of (T := ⟨S2x4096, .f32⟩) main_call1_v0) (fun x v => Host.reduce FloatOps.maximumf x v reducesTo_S2x4096x4096_S2x4096_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S2x4096, .f32⟩) main_call1_v1) (broadcastInDim S2x4096 ![] bcast_S_S2x4096),
    TRef.binary (TRef.of (T := ⟨S2x4096, .f32⟩) main_call1_v1) (TRef.of (T := ⟨S2x4096, .f32⟩) main_call1_v0) (TRef.of (T := ⟨S2x4096, .f32⟩) main_call1_v2) maximumf,
    TRef.unary (TRef.of (T := ⟨S2x4096, .f32⟩) main_call1_v2) (TRef.of (T := ⟨S2x4096x1, .f32⟩) main_call1_v3) (broadcastInDim S2x4096x1 ![0, 1] bcast_S2x4096_S2x4096x1_0_1),
    TRef.unary (TRef.of (T := ⟨S2x4096x1, .f32⟩) main_call1_v3) (TRef.of (T := ⟨S2x4096x4096, .f32⟩) main_call1_v4) (broadcastInDim S2x4096x4096 ![0, 1, 2] bcast_S2x4096x1_S2x4096x4096_0_1_2),
    TRef.binary (TRef.of (T := ⟨S2x4096x4096, .f32⟩) main_v30) (TRef.of (T := ⟨S2x4096x4096, .f32⟩) main_call1_v4) (TRef.of (T := ⟨S2x4096x4096, .f32⟩) main_call1_v5) subf,
    TRef.unary (TRef.of (T := ⟨S2x4096x4096, .f32⟩) main_call1_v5) (TRef.of (T := ⟨S2x4096x4096, .f32⟩) main_call1_v6) Host.exp,
    TRef.nullary (TRef.of (T := ⟨S_, .f32⟩) main_call1_cst_1) (constant S_ .f32 0x00000000#32),
    TRef.binary (TRef.of (T := ⟨S2x4096x4096, .f32⟩) main_call1_v6) (TRef.of (T := ⟨S_, .f32⟩) main_call1_cst_1) (TRef.of (T := ⟨S2x4096, .f32⟩) main_call1_v7) (fun x v => Host.reduceAdd x v reducesTo_S2x4096x4096_S2x4096_d2 h_S_),
    TRef.unary (TRef.of (T := ⟨S2x4096, .f32⟩) main_call1_v7) (TRef.of (T := ⟨S2x4096x1, .f32⟩) main_call1_v8) (broadcastInDim S2x4096x1 ![0, 1] bcast_S2x4096_S2x4096x1_0_1),
    TRef.unary (TRef.of (T := ⟨S2x4096x1, .f32⟩) main_call1_v8) (TRef.of (T := ⟨S2x4096x1, .f32⟩) main_call1_v9) Host.log,
    TRef.unary (TRef.of (T := ⟨S2x4096x1, .f32⟩) main_call1_v9) (TRef.of (T := ⟨S2x4096x4096, .f32⟩) main_call1_v10) (broadcastInDim S2x4096x4096 ![0, 1, 2] bcast_S2x4096x1_S2x4096x4096_0_1_2),
    TRef.binary (TRef.of (T := ⟨S2x4096x4096, .f32⟩) main_call1_v5) (TRef.of (T := ⟨S2x4096x4096, .f32⟩) main_call1_v10) (TRef.of (T := ⟨S2x4096x4096, .f32⟩) main_v31) subf ]

/-- Operations 68–91: the exponential of the first log-softmax times the second, summed along the last axis, negated, weighted by the
    reshaped fourth argument and summed to the first result; then the second result's chain over column slices of the second and third arguments. -/
abbrev ops5 : List (HloOp τ sig (Elt F)) :=
  [ unary main_v16 main_v32 (Host.exp : (⟨S2x4096x4096, .f32⟩ : BufTy).Contents (Elt F) → (⟨S2x4096x4096, .f32⟩ : BufTy).Contents (Elt F)),
    binary main_v32 main_v31 main_v33 (mulf : (⟨S2x4096x4096, .f32⟩ : BufTy).Contents (Elt F) → (⟨S2x4096x4096, .f32⟩ : BufTy).Contents (Elt F) → (⟨S2x4096x4096, .f32⟩ : BufTy).Contents (Elt F)),
    nullary main_cst_6 (constant S_ .f32 0x00000000#32),
    binary main_v33 main_cst_6 main_v34 ((fun x v => Host.reduceAdd x v reducesTo_S2x4096x4096_S2x4096_d2 h_S_) : (⟨S2x4096x4096, .f32⟩ : BufTy).Contents (Elt F) → (⟨S_, .f32⟩ : BufTy).Contents (Elt F) → (⟨S2x4096, .f32⟩ : BufTy).Contents (Elt F)),
    unary main_v34 main_v35 (Host.negf : (⟨S2x4096, .f32⟩ : BufTy).Contents (Elt F) → (⟨S2x4096, .f32⟩ : BufTy).Contents (Elt F)),
    reshape main_arg3 main_v36 rfl shapeCasts_S2x4096x1_S2x4096,
    binary main_v35 main_v36 main_v37 (mulf : (⟨S2x4096, .f32⟩ : BufTy).Contents (Elt F) → (⟨S2x4096, .f32⟩ : BufTy).Contents (Elt F) → (⟨S2x4096, .f32⟩ : BufTy).Contents (Elt F)),
    nullary main_cst_7 (constant S_ .f32 0x00000000#32),
    binary main_v37 main_cst_7 main_v38 ((fun x v => Host.reduceAdd x v reducesTo_S2x4096_S2_d1 h_S_) : (⟨S2x4096, .f32⟩ : BufTy).Contents (Elt F) → (⟨S_, .f32⟩ : BufTy).Contents (Elt F) → (⟨S2, .f32⟩ : BufTy).Contents (Elt F)),
    unary main_arg1 main_v39 ((extractStridedSlice S2x4096x29 ![0, 0, 3] · slices_S2x4096x32_S2x4096x29_0_0_3) : (⟨S2x4096x32, .f32⟩ : BufTy).Contents (Elt F) → (⟨S2x4096x29, .f32⟩ : BufTy).Contents (Elt F)),
    binary main_v39 main_v39 main_v40 (mulf : (⟨S2x4096x29, .f32⟩ : BufTy).Contents (Elt F) → (⟨S2x4096x29, .f32⟩ : BufTy).Contents (Elt F) → (⟨S2x4096x29, .f32⟩ : BufTy).Contents (Elt F)),
    unary main_arg2 main_v41 ((extractStridedSlice S2x4096x29 ![0, 0, 3] · slices_S2x4096x32_S2x4096x29_0_0_3) : (⟨S2x4096x32, .f32⟩ : BufTy).Contents (Elt F) → (⟨S2x4096x29, .f32⟩ : BufTy).Contents (Elt F)),
    binary main_v41 main_v41 main_v42 (mulf : (⟨S2x4096x29, .f32⟩ : BufTy).Contents (Elt F) → (⟨S2x4096x29, .f32⟩ : BufTy).Contents (Elt F) → (⟨S2x4096x29, .f32⟩ : BufTy).Contents (Elt F)),
    binary main_v40 main_v42 main_v43 (addf : (⟨S2x4096x29, .f32⟩ : BufTy).Contents (Elt F) → (⟨S2x4096x29, .f32⟩ : BufTy).Contents (Elt F) → (⟨S2x4096x29, .f32⟩ : BufTy).Contents (Elt F)),
    nullary main_cst_8 (constant S_ .f32 0x00000000#32),
    binary main_v43 main_cst_8 main_v44 ((fun x v => Host.reduceAdd x v reducesTo_S2x4096x29_S2x4096_d2 h_S_) : (⟨S2x4096x29, .f32⟩ : BufTy).Contents (Elt F) → (⟨S_, .f32⟩ : BufTy).Contents (Elt F) → (⟨S2x4096, .f32⟩ : BufTy).Contents (Elt F)),
    nullary main_cst_9 (constant S_ .f32 0x41E80000#32),
    unary main_cst_9 main_v45 (broadcastInDim S2x4096 ![] bcast_S_S2x4096 : (⟨S_, .f32⟩ : BufTy).Contents (Elt F) → (⟨S2x4096, .f32⟩ : BufTy).Contents (Elt F)),
    binary main_v44 main_v45 main_v46 (Host.divf : (⟨S2x4096, .f32⟩ : BufTy).Contents (Elt F) → (⟨S2x4096, .f32⟩ : BufTy).Contents (Elt F) → (⟨S2x4096, .f32⟩ : BufTy).Contents (Elt F)),
    nullary main_cst_10 (constant S_ .f32 0x00000000#32),
    binary main_v46 main_cst_10 main_v47 ((fun x v => Host.reduceAdd x v reducesTo_S2x4096_S2_d1 h_S_) : (⟨S2x4096, .f32⟩ : BufTy).Contents (Elt F) → (⟨S_, .f32⟩ : BufTy).Contents (Elt F) → (⟨S2, .f32⟩ : BufTy).Contents (Elt F)),
    nullary main_cst_11 (constant S_ .f32 0x45800000#32),
    unary main_cst_11 main_v48 (broadcastInDim S2 ![] bcast_S_S2 : (⟨S_, .f32⟩ : BufTy).Contents (Elt F) → (⟨S2, .f32⟩ : BufTy).Contents (Elt F)),
    binary main_v47 main_v48 main_v49 (Host.divf : (⟨S2, .f32⟩ : BufTy).Contents (Elt F) → (⟨S2, .f32⟩ : BufTy).Contents (Elt F) → (⟨S2, .f32⟩ : BufTy).Contents (Elt F)) ]

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
/-- The line is its five stretches in order. -/
theorem ops_split : (ops : List (HloOp τ sig (Elt F))) = ops1 ++ (ops2 ++ (ops3 ++ (ops4 ++ ops5))) := rfl

/-- The fold over the whole line, stretch by stretch. -/
theorem after_ops (V : Valuation τ sig (Elt F)) :
    after ops V = after ops5 (after ops4 (after ops3 (after ops2 (after ops1 V)))) := by
  rw [ops_split, after_app, after_app, after_app, after_app]

end Cert.ReferenceIdeal.HandRun

end
-- ==== Proof.RefRun2.lean ====
/- The reference program's five stretches, each read back against the operation-by-operation values: what a stretch leaves at the
   buffers later stretches read, as the value functions of the arguments. -/
import proofs.«142151_j9474697855457_2_alg».proof.Proof.RefRun1
import proofs.«142151_j9474697855457_2_alg».proof.Proof.RefReadP

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

/-! ## What each stretch leaves untouched -/

theorem s1_keep_arg0 (W : Valuation τ sig (Elt F)) :
    after ops1 W (Proc.devRef .tc main_arg0) = W (Proc.devRef .tc main_arg0) := by
  after_results_simp

theorem s1_keep_arg1 (W : Valuation τ sig (Elt F)) :
    after ops1 W (Proc.devRef .tc main_arg1) = W (Proc.devRef .tc main_arg1) := by
  after_results_simp

theorem s1_keep_arg2 (W : Valuation τ sig (Elt F)) :
    after ops1 W (Proc.devRef .tc main_arg2) = W (Proc.devRef .tc main_arg2) := by
  after_results_simp

theorem s1_keep_arg3 (W : Valuation τ sig (Elt F)) :
    after ops1 W (Proc.devRef .tc main_arg3) = W (Proc.devRef .tc main_arg3) := by
  after_results_simp

theorem s2_keep_arg0 (W : Valuation τ sig (Elt F)) :
    after ops2 W (Proc.devRef .tc main_arg0) = W (Proc.devRef .tc main_arg0) := by
  after_results_simp

theorem s2_keep_arg1 (W : Valuation τ sig (Elt F)) :
    after ops2 W (Proc.devRef .tc main_arg1) = W (Proc.devRef .tc main_arg1) := by
  after_results_simp

theorem s2_keep_arg2 (W : Valuation τ sig (Elt F)) :
    after ops2 W (Proc.devRef .tc main_arg2) = W (Proc.devRef .tc main_arg2) := by
  after_results_simp

theorem s2_keep_arg3 (W : Valuation τ sig (Elt F)) :
    after ops2 W (Proc.devRef .tc main_arg3) = W (Proc.devRef .tc main_arg3) := by
  after_results_simp

theorem s3_keep_arg0 (W : Valuation τ sig (Elt F)) :
    after ops3 W (Proc.devRef .tc main_arg0) = W (Proc.devRef .tc main_arg0) := by
  after_results_simp

theorem s3_keep_arg1 (W : Valuation τ sig (Elt F)) :
    after ops3 W (Proc.devRef .tc main_arg1) = W (Proc.devRef .tc main_arg1) := by
  after_results_simp

theorem s3_keep_arg2 (W : Valuation τ sig (Elt F)) :
    after ops3 W (Proc.devRef .tc main_arg2) = W (Proc.devRef .tc main_arg2) := by
  after_results_simp

theorem s3_keep_arg3 (W : Valuation τ sig (Elt F)) :
    after ops3 W (Proc.devRef .tc main_arg3) = W (Proc.devRef .tc main_arg3) := by
  after_results_simp

theorem s4_keep_arg0 (W : Valuation τ sig (Elt F)) :
    after ops4 W (Proc.devRef .tc main_arg0) = W (Proc.devRef .tc main_arg0) := by
  after_results_simp

theorem s4_keep_arg1 (W : Valuation τ sig (Elt F)) :
    after ops4 W (Proc.devRef .tc main_arg1) = W (Proc.devRef .tc main_arg1) := by
  after_results_simp

theorem s4_keep_arg2 (W : Valuation τ sig (Elt F)) :
    after ops4 W (Proc.devRef .tc main_arg2) = W (Proc.devRef .tc main_arg2) := by
  after_results_simp

theorem s4_keep_arg3 (W : Valuation τ sig (Elt F)) :
    after ops4 W (Proc.devRef .tc main_arg3) = W (Proc.devRef .tc main_arg3) := by
  after_results_simp

theorem s5_keep_arg0 (W : Valuation τ sig (Elt F)) :
    after ops5 W (Proc.devRef .tc main_arg0) = W (Proc.devRef .tc main_arg0) := by
  after_results_simp

theorem s5_keep_arg1 (W : Valuation τ sig (Elt F)) :
    after ops5 W (Proc.devRef .tc main_arg1) = W (Proc.devRef .tc main_arg1) := by
  after_results_simp

theorem s5_keep_arg2 (W : Valuation τ sig (Elt F)) :
    after ops5 W (Proc.devRef .tc main_arg2) = W (Proc.devRef .tc main_arg2) := by
  after_results_simp

theorem s5_keep_arg3 (W : Valuation τ sig (Elt F)) :
    after ops5 W (Proc.devRef .tc main_arg3) = W (Proc.devRef .tc main_arg3) := by
  after_results_simp

theorem s3_keep_v16 (W : Valuation τ sig (Elt F)) :
    after ops3 W (Proc.devRef .tc main_v16) = W (Proc.devRef .tc main_v16) := by
  after_results_simp

theorem s4_keep_v16 (W : Valuation τ sig (Elt F)) :
    after ops4 W (Proc.devRef .tc main_v16) = W (Proc.devRef .tc main_v16) := by
  after_results_simp

/-! ## Typed references

An inlined call's operations read and write through references that carry the tensor type; contents move to the buffer's own
type and back along the equation of the two types. -/

/-- Transport to a buffer's own type and back is the identity. -/
theorem ofBuf_toBuf {T : BufTy} (x : TRef sig T) (v : T.Contents (Elt F)) : x.ofBuf (x.toBuf v) = v := by
  simp only [TRef.ofBuf, TRef.toBuf, cast_cast, cast_eq]

/-! At a literal reference whose buffer has the carried type, the transport of a valuation's contents is the identity. -/

theorem ofBuf_v15 (W : Valuation τ sig (Elt F)) :
    (TRef.of (T := ⟨S2x4096x4096, .f32⟩) main_v15).ofBuf (W (Proc.devRef .tc main_v15)) = W (Proc.devRef .tc main_v15) := rfl

theorem ofBuf_v16 (W : Valuation τ sig (Elt F)) :
    (TRef.of (T := ⟨S2x4096x4096, .f32⟩) main_v16).ofBuf (W (Proc.devRef .tc main_v16)) = W (Proc.devRef .tc main_v16) := rfl

theorem ofBuf_v30 (W : Valuation τ sig (Elt F)) :
    (TRef.of (T := ⟨S2x4096x4096, .f32⟩) main_v30).ofBuf (W (Proc.devRef .tc main_v30)) = W (Proc.devRef .tc main_v30) := rfl

theorem ofBuf_v31 (W : Valuation τ sig (Elt F)) :
    (TRef.of (T := ⟨S2x4096x4096, .f32⟩) main_v31).ofBuf (W (Proc.devRef .tc main_v31)) = W (Proc.devRef .tc main_v31) := rfl

/-! ## What each stretch computes -/

/-- After the first stretch the distance buffer holds its value function of the first argument. -/
theorem s1_v15 (W : Valuation τ sig (Elt F)) :
    after ops1 W (Proc.devRef .tc main_v15) = val_main_v15 (F := F) (W (Proc.devRef .tc main_arg0)) := by
  after_results_simp
  rfl

/-- The first log-softmax read through the typed references, from a distance buffer at its value function. -/
theorem s2_v16_typed (W : Valuation τ sig (Elt F)) (x0 : (⟨S2x4096x3, .f32⟩ : BufTy).Contents (Elt F))
    (h : (TRef.of (T := ⟨S2x4096x4096, .f32⟩) main_v15).ofBuf (W (Proc.devRef .tc main_v15)) = val_main_v15 (F := F) x0) :
    (TRef.of (T := ⟨S2x4096x4096, .f32⟩) main_v16).ofBuf (after ops2 W (Proc.devRef .tc main_v16)) = val_main_v16 (F := F) x0 := by
  after_results_simp
  simp only [ofBuf_toBuf, h]
  rfl

/-- The first log-softmax, from a distance buffer at its value function. -/
theorem s2_v16 (W : Valuation τ sig (Elt F)) (x0 : (⟨S2x4096x3, .f32⟩ : BufTy).Contents (Elt F))
    (h : W (Proc.devRef .tc main_v15) = val_main_v15 (F := F) x0) :
    after ops2 W (Proc.devRef .tc main_v16) = val_main_v16 (F := F) x0 :=
  (ofBuf_v16 (after ops2 W)).symm.trans (s2_v16_typed W x0 ((ofBuf_v15 W).trans h))

/-- After the third stretch the second distance buffer holds its value function of the second and third arguments. -/
theorem s3_v30 (W : Valuation τ sig (Elt F)) :
    after ops3 W (Proc.devRef .tc main_v30)
      = val_main_v30 (F := F) (W (Proc.devRef .tc main_arg1)) (W (Proc.devRef .tc main_arg2)) := by
  after_results_simp
  rfl

/-- The second log-softmax read through the typed references, from a distance buffer at its value function. -/
theorem s4_v31_typed (W : Valuation τ sig (Elt F)) (x1 x2 : (⟨S2x4096x32, .f32⟩ : BufTy).Contents (Elt F))
    (h : (TRef.of (T := ⟨S2x4096x4096, .f32⟩) main_v30).ofBuf (W (Proc.devRef .tc main_v30)) = val_main_v30 (F := F) x1 x2) :
    (TRef.of (T := ⟨S2x4096x4096, .f32⟩) main_v31).ofBuf (after ops4 W (Proc.devRef .tc main_v31)) = val_main_v31 (F := F) x1 x2 := by
  after_results_simp
  simp only [ofBuf_toBuf, h]
  rfl

/-- The second log-softmax, from a distance buffer at its value function. -/
theorem s4_v31 (W : Valuation τ sig (Elt F)) (x1 x2 : (⟨S2x4096x32, .f32⟩ : BufTy).Contents (Elt F))
    (h : W (Proc.devRef .tc main_v30) = val_main_v30 (F := F) x1 x2) :
    after ops4 W (Proc.devRef .tc main_v31) = val_main_v31 (F := F) x1 x2 :=
  (ofBuf_v31 (after ops4 W)).symm.trans (s4_v31_typed W x1 x2 ((ofBuf_v30 W).trans h))

/-- The tail's first result, from the two log-softmax buffers at their value functions. -/
theorem s5_v38 (W : Valuation τ sig (Elt F)) (x0 : (⟨S2x4096x3, .f32⟩ : BufTy).Contents (Elt F))
    (x1 x2 : (⟨S2x4096x32, .f32⟩ : BufTy).Contents (Elt F))
    (h16 : W (Proc.devRef .tc main_v16) = val_main_v16 (F := F) x0)
    (h31 : W (Proc.devRef .tc main_v31) = val_main_v31 (F := F) x1 x2) :
    after ops5 W (Proc.devRef .tc main_v38) = val_main_v38 (F := F) x0 x1 x2 (W (Proc.devRef .tc main_arg3)) := by
  after_results_simp
  rw [h16, h31]
  rfl

/-- The tail's second result, a function of the second and third arguments only. -/
theorem s5_v49 (W : Valuation τ sig (Elt F)) :
    after ops5 W (Proc.devRef .tc main_v49)
      = val_main_v49 (F := F) (W (Proc.devRef .tc main_arg1)) (W (Proc.devRef .tc main_arg2)) := by
  after_results_simp
  rfl

end Cert.ReferenceIdeal.HandRun

end
-- ==== Proof.RefRun.lean ====
/- The reference program's run, stated through the operation-by-operation values: the five stretches composed. -/
import proofs.«142151_j9474697855457_2_alg».proof.Proof.RefRun2

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

/-- The first result's buffer after the whole line: its value function of the four arguments' entry contents. -/
theorem v38_eq (V : Valuation τ sig (Elt F)) :
    after ops V (Proc.devRef .tc main_v38)
      = val_main_v38 (F := F) (V (Proc.devRef .tc main_arg0)) (V (Proc.devRef .tc main_arg1)) (V (Proc.devRef .tc main_arg2)) (V (Proc.devRef .tc main_arg3)) := by
  refine (congrFun (after_ops V) _).trans ?_
  have h16 := s2_v16 (after ops1 V) _ (s1_v15 V)
  have h30 := (s3_v30 (after ops2 (after ops1 V))).trans (congrArg₂ (val_main_v30 (F := F)) ((s2_keep_arg1 (after ops1 V)).trans (s1_keep_arg1 V)) ((s2_keep_arg2 (after ops1 V)).trans (s1_keep_arg2 V)))
  have c16 := (s3_keep_v16 (after ops2 (after ops1 V))).trans h16
  have h31 := s4_v31 (after ops3 (after ops2 (after ops1 V))) _ _ h30
  have d16 := (s4_keep_v16 (after ops3 (after ops2 (after ops1 V)))).trans c16
  exact (s5_v38 (after ops4 (after ops3 (after ops2 (after ops1 V)))) _ _ _ d16 h31).trans (congrArg (val_main_v38 (F := F) _ _ _) ((((s4_keep_arg3 (after ops3 (after ops2 (after ops1 V)))).trans (s3_keep_arg3 (after ops2 (after ops1 V)))).trans (s2_keep_arg3 (after ops1 V))).trans (s1_keep_arg3 V)))

/-- The second result's buffer after the whole line: its value function of the second and third arguments' entry contents. -/
theorem v49_eq (V : Valuation τ sig (Elt F)) :
    after ops V (Proc.devRef .tc main_v49) = val_main_v49 (F := F) (V (Proc.devRef .tc main_arg1)) (V (Proc.devRef .tc main_arg2)) := by
  refine (congrFun (after_ops V) _).trans ?_
  exact (s5_v49 (after ops4 (after ops3 (after ops2 (after ops1 V))))).trans (congrArg₂ (val_main_v49 (F := F)) ((((s4_keep_arg1 (after ops3 (after ops2 (after ops1 V)))).trans (s3_keep_arg1 (after ops2 (after ops1 V)))).trans (s2_keep_arg1 (after ops1 V))).trans (s1_keep_arg1 V)) ((((s4_keep_arg2 (after ops3 (after ops2 (after ops1 V)))).trans (s3_keep_arg2 (after ops2 (after ops1 V)))).trans (s2_keep_arg2 (after ops1 V))).trans (s1_keep_arg2 V)))

/-- No operation writes this argument. -/
theorem arg0_eq (V : Valuation τ sig (Elt F)) : after ops V (Proc.devRef .tc main_arg0) = V (Proc.devRef .tc main_arg0) :=
  (congrFun (after_ops V) _).trans ((s5_keep_arg0 (after ops4 (after ops3 (after ops2 (after ops1 V))))).trans ((((s4_keep_arg0 (after ops3 (after ops2 (after ops1 V)))).trans (s3_keep_arg0 (after ops2 (after ops1 V)))).trans (s2_keep_arg0 (after ops1 V))).trans (s1_keep_arg0 V)))

/-- No operation writes this argument. -/
theorem arg1_eq (V : Valuation τ sig (Elt F)) : after ops V (Proc.devRef .tc main_arg1) = V (Proc.devRef .tc main_arg1) :=
  (congrFun (after_ops V) _).trans ((s5_keep_arg1 (after ops4 (after ops3 (after ops2 (after ops1 V))))).trans ((((s4_keep_arg1 (after ops3 (after ops2 (after ops1 V)))).trans (s3_keep_arg1 (after ops2 (after ops1 V)))).trans (s2_keep_arg1 (after ops1 V))).trans (s1_keep_arg1 V)))

/-- No operation writes this argument. -/
theorem arg2_eq (V : Valuation τ sig (Elt F)) : after ops V (Proc.devRef .tc main_arg2) = V (Proc.devRef .tc main_arg2) :=
  (congrFun (after_ops V) _).trans ((s5_keep_arg2 (after ops4 (after ops3 (after ops2 (after ops1 V))))).trans ((((s4_keep_arg2 (after ops3 (after ops2 (after ops1 V)))).trans (s3_keep_arg2 (after ops2 (after ops1 V)))).trans (s2_keep_arg2 (after ops1 V))).trans (s1_keep_arg2 V)))

/-- No operation writes this argument. -/
theorem arg3_eq (V : Valuation τ sig (Elt F)) : after ops V (Proc.devRef .tc main_arg3) = V (Proc.devRef .tc main_arg3) :=
  (congrFun (after_ops V) _).trans ((s5_keep_arg3 (after ops4 (after ops3 (after ops2 (after ops1 V))))).trans ((((s4_keep_arg3 (after ops3 (after ops2 (after ops1 V)))).trans (s3_keep_arg3 (after ops2 (after ops1 V)))).trans (s2_keep_arg3 (after ops1 V))).trans (s1_keep_arg3 V)))

/-- On every device, for any float values, from any memory with zero counters: every weakly fair execution of the reference
    program terminates with the first result at `val_main_v38` of the four arguments' launch contents, the second at
    `val_main_v49` of the second and third arguments', and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = val_main_v38 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v49) = val_main_v49 (F := F) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v38).trans (v38_eq (launchContents m c)),
      (h c main_v49).trans (v49_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_after m ρ)

end Cert.ReferenceIdeal.HandRun

end
-- ==== Proof.lean ====
/-
  A weighted cross-entropy loss between two row-wise soft assignments of 2 × 4096 points: a kernel that tiles the query
  points in sixteen blocks of 256, keeps the key-side arrays resident and fuses both log-soft-assignments into one pass,
  against the plain formulation.

  The two programs, read on the extended reals, compute the same numbers whenever every input is finite:
    * the kernel scales the points by the reciprocal 1/σ of the scale — a named constant, the exact reciprocal of the
      number σ the reference divides by — and squares coordinate differences, where the reference expands
      |p|² + |q|² − 2 p·q of the points divided by σ: equal on reals;
    * with e(m) = exp(pd(m) − M_p) and L_p = Σ e(m), the soft assignment exp(pd(m) − M_p − log L_p) is e(m)/L_p, these
      sum to one, and so  −Σ_m (e(m)/L_p)·(fd(m) − M_f − log L_f) = −(Σ_m e(m) fd(m))/L_p + M_f + log L_f : the kernel's
      cross term is the reference's;
    * the regularisation term is computed by the same host operations in both.
  The frames: each program runs to its end, faults nowhere and leaves its arguments as launched — the kernel's by the
  pipeline's launch over its three segments (a transpose, the region, the closing sums), with the transposed point array
  lent in halves to the two windows that read it; the reference's by its straight line of host operations.
-/
import proofs.«142151_j9474697855457_2_alg».proof.Defs
import proofs.«142151_j9474697855457_2_alg».proof.Proof.Gen.Kernel
import proofs.«142151_j9474697855457_2_alg».proof.Proof.Gen.KernelIdeal
import proofs.«142151_j9474697855457_2_alg».proof.Proof.Gen.ReferenceIdeal
import proofs.«142151_j9474697855457_2_alg».proof.Proof.Gen.Pre_finite_inputs
import proofs.«142151_j9474697855457_2_alg».proof.Proof.KbFrame
import proofs.«142151_j9474697855457_2_alg».proof.Proof.KiFrame
import proofs.«142151_j9474697855457_2_alg».proof.Proof.KiValue
import proofs.«142151_j9474697855457_2_alg».proof.Proof.KiReg
import proofs.«142151_j9474697855457_2_alg».proof.Proof.KiFinite
import proofs.«142151_j9474697855457_2_alg».proof.Proof.LossMath
import proofs.«142151_j9474697855457_2_alg».proof.Proof.RefLoss
import proofs.«142151_j9474697855457_2_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.HandRun.run (F := Ideal) m ρ)

/-- The ledger's two entries, one per use of the reciprocal of the scale: the table gives the name the exact
    reciprocal, and the printed constant is that value on the extended reals. -/
theorem preserves : Cert.preserves_Kernel_KernelIdeal :=
  ⟨IdealRules.named_const.statement Cert.KernelIdeal.κ "inv_sigma" .f32 0x43480000#32 ((1073741824 / 5368709 : ℝ) : EReal) rfl,
   IdealRules.named_const.statement Cert.KernelIdeal.κ "inv_sigma" .f32 0x43480000#32 ((1073741824 / 5368709 : ℝ) : EReal) rfl⟩

/-- Both programs end with the loss of each batch and the regularisation term of each batch, the same extended reals. -/
theorem algebraic : Cert.algebraic_KernelIdeal_ReferenceIdeal := by
  intro m ρ m' ρ' hpre hagree
  refine ⟨fun c => Cert.LossSpec.lossOf (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.ReadP.val_main_v49 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    ?_, ?_⟩
  · exact (θ_run Cert.KernelIdeal.defs _ _).mono (fun r h c =>
      ⟨(h c _ (Cert.KernelIdeal.Hand.mem_uc Cert.KernelIdeal.main_v2 (by decide))).trans (Cert.KernelIdeal.Hand.W3_loss m c),
       (h c _ (Cert.KernelIdeal.Hand.mem_uc Cert.KernelIdeal.main_v13 (by decide))).trans (Cert.KernelIdeal.Hand.W3_reg m c),
       (h c _ (Cert.KernelIdeal.Hand.mem_uc Cert.KernelIdeal.main_arg0 (by decide))).trans (Cert.KernelIdeal.Hand.W3_main_arg0 m c),
       (h c _ (Cert.KernelIdeal.Hand.mem_uc Cert.KernelIdeal.main_arg1 (by decide))).trans (Cert.KernelIdeal.Hand.W3_main_arg1 m c),
       (h c _ (Cert.KernelIdeal.Hand.mem_uc Cert.KernelIdeal.main_arg2 (by decide))).trans (Cert.KernelIdeal.Hand.W3_main_arg2 m c),
       (h c _ (Cert.KernelIdeal.Hand.mem_uc Cert.KernelIdeal.main_arg3 (by decide))).trans (Cert.KernelIdeal.Hand.W3_main_arg3 m c)⟩)
      (Cert.KernelIdeal.Hand.run_main m ρ)
  · refine (θ_run Cert.ReferenceIdeal.defs _ _).mono (fun r h c => ?_) (Cert.ReferenceIdeal.HandRun.run (F := Ideal) m' ρ')
    obtain ⟨h38, h49, ha0, ha1, ha2, ha3⟩ := h c
    obtain ⟨e0, e1, e2, e3⟩ := hagree c
    obtain ⟨hx, ha, hb⟩ := Cert.Finite.real_entries _ _ _ _ (hpre c)
    refine ⟨?_, ?_, ha0, ha1, ha2, ha3⟩
    · rw [h38, e0, e1, e2, e3]
      funext i
      rw [Cert.RefLoss.ref_loss_read]
      exact Cert.LossMath.ceLossX_eq_ceLoss _ _ _ _ (fun b n k => hx _) (fun b n d => ha _) (fun b n d => hb _) (i 0)
    · rw [h49, e1, e2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
